-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v236)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v236) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v247) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1699989 : Shape := ⟨1, ![1699989]⟩
abbrev S1597224 : Shape := ⟨1, ![1597224]⟩
abbrev S798475 : Shape := ⟨1, ![798475]⟩
abbrev S100000 : Shape := ⟨1, ![100000]⟩
abbrev S10000 : Shape := ⟨1, ![10000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1699989 : S_.BroadcastsInDim S1699989 (![] : Fin 0 → Fin S1699989.rank)
  reducesTo_S1699989_S_d0 : S1699989.ReducesTo [0] S_
  bcast_S_S1597224 : S_.BroadcastsInDim S1597224 (![] : Fin 0 → Fin S1597224.rank)
  reducesTo_S1597224_S_d0 : S1597224.ReducesTo [0] S_
  bcast_S_S798475 : S_.BroadcastsInDim S798475 (![] : Fin 0 → Fin S798475.rank)
  reducesTo_S798475_S_d0 : S798475.ReducesTo [0] S_

variable [Facts]

def fn_part4 {F : FTy → Type} [FloatOps F] (main_arg18 : FVec F S1597224 .f32) (main_arg21 : FVec F S798475 .f32) (main_v63 : IVec S_ 1) (main_v67 : IVec S_ 1) : IVec S_ 1 :=
  let main_v68 : IVec S_ 1 := andi main_v63 main_v67
  let main_v69 : FVec F S1597224 .f32 := Host.absf main_arg18
  let main_cst_26 : FVec F S_ .f32 := constant S_ .f32 0x7F800000#32
  let main_v70 : FVec F S1597224 .f32 := broadcastInDim S1597224 ![] bcast_S_S1597224 main_cst_26
  let main_v71 : IVec S1597224 1 := cmpf .olt main_v69 main_v70
  let main_c_27 : IVec S_ 1 := constantI S_ 1 1#1
  let main_v72 : IVec S_ 1 := (fun x v => Host.reduce IntOp.andi x v reducesTo_S1597224_S_d0 h_S_) main_v71 main_c_27
  let main_v73 : IVec S_ 1 := andi main_v68 main_v72
  let main_v74 : FVec F S798475 .f32 := Host.absf main_arg21
  let main_cst_28 : FVec F S_ .f32 := constant S_ .f32 0x7F800000#32
  let main_v75 : FVec F S798475 .f32 := broadcastInDim S798475 ![] bcast_S_S798475 main_cst_28
  let main_v76 : IVec S798475 1 := cmpf .olt main_v74 main_v75
  let main_c_29 : IVec S_ 1 := constantI S_ 1 1#1
  let main_v77 : IVec S_ 1 := (fun x v => Host.reduce IntOp.andi x v reducesTo_S798475_S_d0 h_S_) main_v76 main_c_29
  let main_v78 : IVec S_ 1 := andi main_v73 main_v77
  main_v78

def fn_part3 {F : FTy → Type} [FloatOps F] (main_arg11 : FVec F S128x128 .f32) (main_arg12 : FVec F S128 .f32) (main_arg15 : FVec F S1699989 .f32) (main_arg18 : FVec F S1597224 .f32) (main_arg21 : FVec F S798475 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S1699989 .f32 := Host.absf main_arg15
  let main_cst_24 : FVec F S_ .f32 := constant S_ .f32 0x7F800000#32
  let main_v65 : FVec F S1699989 .f32 := broadcastInDim S1699989 ![] bcast_S_S1699989 main_cst_24
  let main_v66 : IVec S1699989 1 := cmpf .olt main_v64 main_v65
  let main_c_25 : IVec S_ 1 := constantI S_ 1 1#1
  let main_v67 : IVec S_ 1 := (fun x v => Host.reduce IntOp.andi x v reducesTo_S1699989_S_d0 h_S_) main_v66 main_c_25
  fn_part4 (F := F) main_arg18 main_arg21 main_v63 main_v67

def fn_part2 {F : FTy → Type} [FloatOps F] (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg15 : FVec F S1699989 .f32) (main_arg18 : FVec F S1597224 .f32) (main_arg21 : FVec F S798475 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg15 main_arg18 main_arg21 main_v48 main_v49 main_v50

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg15 : FVec F S1699989 .f32) (main_arg18 : FVec F S1597224 .f32) (main_arg21 : FVec F S798475 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg15 main_arg18 main_arg21 main_v33

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : IVec S1699989 32) (main_arg14 : IVec S1699989 32) (main_arg15 : FVec F S1699989 .f32) (main_arg16 : IVec S1597224 32) (main_arg17 : IVec S1597224 32) (main_arg18 : FVec F S1597224 .f32) (main_arg19 : IVec S798475 32) (main_arg20 : IVec S798475 32) (main_arg21 : FVec F S798475 .f32) (main_arg22 : IVec S100000 32) (main_arg23 : IVec S10000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg15 main_arg18 main_arg21 main_v13 main_v16
-- ==== Kernel.lean ====
abbrev S100000x128 : Shape := ⟨2, ![100000, 128]⟩
abbrev S128x128 : Shape := ⟨2, ![128, 128]⟩
abbrev S128 : Shape := ⟨1, ![128]⟩
abbrev S1699989 : Shape := ⟨1, ![1699989]⟩
abbrev S1597224 : Shape := ⟨1, ![1597224]⟩
abbrev S798475 : Shape := ⟨1, ![798475]⟩
abbrev S100000 : Shape := ⟨1, ![100000]⟩
abbrev S10000 : Shape := ⟨1, ![10000]⟩
abbrev S1x128 : Shape := ⟨2, ![1, 128]⟩
abbrev S2000x128 : Shape := ⟨2, ![2000, 128]⟩
abbrev S_ : Shape := ⟨0, ![]⟩
abbrev S1699989x1 : Shape := ⟨2, ![1699989, 1]⟩
abbrev S1699989x128 : Shape := ⟨2, ![1699989, 128]⟩
abbrev S10000x128 : Shape := ⟨2, ![10000, 128]⟩
abbrev S100000x1 : Shape := ⟨2, ![100000, 1]⟩
abbrev S10000x1 : Shape := ⟨2, ![10000, 1]⟩
abbrev S1597224x1 : Shape := ⟨2, ![1597224, 1]⟩
abbrev S1597224x128 : Shape := ⟨2, ![1597224, 128]⟩
abbrev S1000x128 : Shape := ⟨2, ![1000, 128]⟩
abbrev S1000x1 : Shape := ⟨2, ![1000, 1]⟩
abbrev S1000 : Shape := ⟨1, ![1000]⟩
abbrev S798475x1 : Shape := ⟨2, ![798475, 1]⟩
abbrev S798475x128 : Shape := ⟨2, ![798475, 128]⟩

abbrev nBuf : Space → Nat
  | .hbm => 335
  | .vmem => 52
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S1699989, .i32⟩
  | 14 => ⟨S1699989, .i32⟩
  | 15 => ⟨S1699989, .f32⟩
  | 16 => ⟨S1597224, .i32⟩
  | 17 => ⟨S1597224, .i32⟩
  | 18 => ⟨S1597224, .f32⟩
  | 19 => ⟨S798475, .i32⟩
  | 20 => ⟨S798475, .i32⟩
  | 21 => ⟨S798475, .f32⟩
  | 22 => ⟨S100000, .i32⟩
  | 23 => ⟨S10000, .i32⟩
  | 24 => ⟨S1x128, .f32⟩
  | 25 => ⟨S100000x128, .f32⟩
  | 26 => ⟨S100000x128, .f32⟩
  | 27 => ⟨S_, .f32⟩
  | 28 => ⟨S100000, .f32⟩
  | 29 => ⟨S1699989x1, .i32⟩
  | 30 => ⟨S100000, .f32⟩
  | 31 => ⟨S_, .f32⟩
  | 32 => ⟨S100000, .f32⟩
  | 33 => ⟨S100000, .i1⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S1699989, .i32⟩
  | 41 => ⟨S1699989, .i1⟩
  | 42 => ⟨S_, .i32⟩
  | 43 => ⟨S1699989, .i32⟩
  | 44 => ⟨S1699989, .i32⟩
  | 45 => ⟨S1699989, .i32⟩
  | 46 => ⟨S1699989x1, .i32⟩
  | 47 => ⟨S1699989, .f32⟩
  | 48 => ⟨S1699989, .f32⟩
  | 49 => ⟨S_, .i32⟩
  | 50 => ⟨S1699989, .i32⟩
  | 51 => ⟨S1699989, .i1⟩
  | 52 => ⟨S_, .i32⟩
  | 53 => ⟨S1699989, .i32⟩
  | 54 => ⟨S1699989, .i32⟩
  | 55 => ⟨S1699989, .i32⟩
  | 56 => ⟨S1699989x1, .i32⟩
  | 57 => ⟨S1699989, .f32⟩
  | 58 => ⟨S1699989, .f32⟩
  | 59 => ⟨S_, .i32⟩
  | 60 => ⟨S1699989, .i32⟩
  | 61 => ⟨S1699989, .i1⟩
  | 62 => ⟨S_, .i32⟩
  | 63 => ⟨S1699989, .i32⟩
  | 64 => ⟨S1699989, .i32⟩
  | 65 => ⟨S1699989, .i32⟩
  | 66 => ⟨S1699989x1, .i32⟩
  | 67 => ⟨S1699989x128, .f32⟩
  | 68 => ⟨S1699989x1, .f32⟩
  | 69 => ⟨S1699989x128, .f32⟩
  | 70 => ⟨S1699989x128, .f32⟩
  | 71 => ⟨S_, .f32⟩
  | 72 => ⟨S100000x128, .f32⟩
  | 73 => ⟨S1699989x1, .i32⟩
  | 74 => ⟨S100000x128, .f32⟩
  | 75 => ⟨S1x128, .f32⟩
  | 76 => ⟨S100000x128, .f32⟩
  | 77 => ⟨S_, .f32⟩
  | 78 => ⟨S10000x128, .f32⟩
  | 79 => ⟨S100000x1, .i32⟩
  | 80 => ⟨S10000x128, .f32⟩
  | 81 => ⟨S_, .f32⟩
  | 82 => ⟨S100000x1, .f32⟩
  | 83 => ⟨S_, .f32⟩
  | 84 => ⟨S10000x1, .f32⟩
  | 85 => ⟨S100000x1, .i32⟩
  | 86 => ⟨S10000x1, .f32⟩
  | 87 => ⟨S_, .f32⟩
  | 88 => ⟨S10000x1, .f32⟩
  | 89 => ⟨S10000x1, .f32⟩
  | 90 => ⟨S10000x128, .f32⟩
  | 91 => ⟨S10000x128, .f32⟩
  | 92 => ⟨S10000x128, .f32⟩
  | 93 => ⟨S_, .f32⟩
  | 94 => ⟨S10000, .f32⟩
  | 95 => ⟨S1597224x1, .i32⟩
  | 96 => ⟨S10000, .f32⟩
  | 97 => ⟨S_, .f32⟩
  | 98 => ⟨S10000, .f32⟩
  | 99 => ⟨S10000, .i1⟩
  | 100 => ⟨S10000, .f32⟩
  | 101 => ⟨S_, .f32⟩
  | 102 => ⟨S_, .f32⟩
  | 103 => ⟨S10000, .f32⟩
  | 104 => ⟨S10000, .f32⟩
  | 105 => ⟨S_, .i32⟩
  | 106 => ⟨S1597224, .i32⟩
  | 107 => ⟨S1597224, .i1⟩
  | 108 => ⟨S_, .i32⟩
  | 109 => ⟨S1597224, .i32⟩
  | 110 => ⟨S1597224, .i32⟩
  | 111 => ⟨S1597224, .i32⟩
  | 112 => ⟨S1597224x1, .i32⟩
  | 113 => ⟨S1597224, .f32⟩
  | 114 => ⟨S1597224, .f32⟩
  | 115 => ⟨S_, .i32⟩
  | 116 => ⟨S1597224, .i32⟩
  | 117 => ⟨S1597224, .i1⟩
  | 118 => ⟨S_, .i32⟩
  | 119 => ⟨S1597224, .i32⟩
  | 120 => ⟨S1597224, .i32⟩
  | 121 => ⟨S1597224, .i32⟩
  | 122 => ⟨S1597224x1, .i32⟩
  | 123 => ⟨S1597224, .f32⟩
  | 124 => ⟨S1597224, .f32⟩
  | 125 => ⟨S_, .i32⟩
  | 126 => ⟨S1597224, .i32⟩
  | 127 => ⟨S1597224, .i1⟩
  | _ => ⟨S100000x128, .f32⟩

abbrev hbmTy0_1 (i : Nat) : BufTy := match i % 128 with
  | 0 => ⟨S_, .i32⟩
  | 1 => ⟨S1597224, .i32⟩
  | 2 => ⟨S1597224, .i32⟩
  | 3 => ⟨S1597224, .i32⟩
  | 4 => ⟨S1597224x1, .i32⟩
  | 5 => ⟨S1597224x128, .f32⟩
  | 6 => ⟨S1597224x1, .f32⟩
  | 7 => ⟨S1597224x128, .f32⟩
  | 8 => ⟨S1597224x128, .f32⟩
  | 9 => ⟨S_, .f32⟩
  | 10 => ⟨S10000x128, .f32⟩
  | 11 => ⟨S1597224x1, .i32⟩
  | 12 => ⟨S10000x128, .f32⟩
  | 13 => ⟨S1x128, .f32⟩
  | 14 => ⟨S10000x128, .f32⟩
  | 15 => ⟨S_, .f32⟩
  | 16 => ⟨S1000x128, .f32⟩
  | 17 => ⟨S10000x1, .i32⟩
  | 18 => ⟨S1000x128, .f32⟩
  | 19 => ⟨S_, .f32⟩
  | 20 => ⟨S10000x1, .f32⟩
  | 21 => ⟨S_, .f32⟩
  | 22 => ⟨S1000x1, .f32⟩
  | 23 => ⟨S10000x1, .i32⟩
  | 24 => ⟨S1000x1, .f32⟩
  | 25 => ⟨S_, .f32⟩
  | 26 => ⟨S1000x1, .f32⟩
  | 27 => ⟨S1000x1, .f32⟩
  | 28 => ⟨S1000x128, .f32⟩
  | 29 => ⟨S1000x128, .f32⟩
  | 30 => ⟨S1000x128, .f32⟩
  | 31 => ⟨S_, .f32⟩
  | 32 => ⟨S1000, .f32⟩
  | 33 => ⟨S798475x1, .i32⟩
  | 34 => ⟨S1000, .f32⟩
  | 35 => ⟨S_, .f32⟩
  | 36 => ⟨S1000, .f32⟩
  | 37 => ⟨S1000, .i1⟩
  | 38 => ⟨S1000, .f32⟩
  | 39 => ⟨S_, .f32⟩
  | 40 => ⟨S_, .f32⟩
  | 41 => ⟨S1000, .f32⟩
  | 42 => ⟨S1000, .f32⟩
  | 43 => ⟨S_, .i32⟩
  | 44 => ⟨S798475, .i32⟩
  | 45 => ⟨S798475, .i1⟩
  | 46 => ⟨S_, .i32⟩
  | 47 => ⟨S798475, .i32⟩
  | 48 => ⟨S798475, .i32⟩
  | 49 => ⟨S798475, .i32⟩
  | 50 => ⟨S798475x1, .i32⟩
  | 51 => ⟨S798475, .f32⟩
  | 52 => ⟨S798475, .f32⟩
  | 53 => ⟨S_, .i32⟩
  | 54 => ⟨S798475, .i32⟩
  | 55 => ⟨S798475, .i1⟩
  | 56 => ⟨S_, .i32⟩
  | 57 => ⟨S798475, .i32⟩
  | 58 => ⟨S798475, .i32⟩
  | 59 => ⟨S798475, .i32⟩
  | 60 => ⟨S798475x1, .i32⟩
  | 61 => ⟨S798475, .f32⟩
  | 62 => ⟨S798475, .f32⟩
  | 63 => ⟨S_, .i32⟩
  | 64 => ⟨S798475, .i32⟩
  | 65 => ⟨S798475, .i1⟩
  | 66 => ⟨S_, .i32⟩
  | 67 => ⟨S798475, .i32⟩
  | 68 => ⟨S798475, .i32⟩
  | 69 => ⟨S798475, .i32⟩
  | 70 => ⟨S798475x1, .i32⟩
  | 71 => ⟨S798475x128, .f32⟩
  | 72 => ⟨S798475x1, .f32⟩
  | 73 => ⟨S798475x128, .f32⟩
  | 74 => ⟨S798475x128, .f32⟩
  | 75 => ⟨S_, .f32⟩
  | 76 => ⟨S1000x128, .f32⟩
  | 77 => ⟨S798475x1, .i32⟩
  | 78 => ⟨S1000x128, .f32⟩
  | 79 => ⟨S1x128, .f32⟩
  | 80 => ⟨S1000x128, .f32⟩
  | 81 => ⟨S_, .i32⟩
  | 82 => ⟨S10000, .i32⟩
  | 83 => ⟨S10000, .i1⟩
  | 84 => ⟨S_, .i32⟩
  | 85 => ⟨S10000, .i32⟩
  | 86 => ⟨S10000, .i32⟩
  | 87 => ⟨S10000, .i32⟩
  | 88 => ⟨S10000x1, .i32⟩
  | 89 => ⟨S10000x128, .f32⟩
  | 90 => ⟨S10000x128, .f32⟩
  | 91 => ⟨S_, .f32⟩
  | 92 => ⟨S1597224, .f32⟩
  | 93 => ⟨S10000x128, .f32⟩
  | 94 => ⟨S_, .f32⟩
  | 95 => ⟨S10000, .f32⟩
  | 96 => ⟨S1597224x1, .i32⟩
  | 97 => ⟨S10000, .f32⟩
  | 98 => ⟨S_, .f32⟩
  | 99 => ⟨S10000, .f32⟩
  | 100 => ⟨S10000, .i1⟩
  | 101 => ⟨S10000, .f32⟩
  | 102 => ⟨S_, .f32⟩
  | 103 => ⟨S_, .f32⟩
  | 104 => ⟨S10000, .f32⟩
  | 105 => ⟨S10000, .f32⟩
  | 106 => ⟨S_, .i32⟩
  | 107 => ⟨S1597224, .i32⟩
  | 108 => ⟨S1597224, .i1⟩
  | 109 => ⟨S_, .i32⟩
  | 110 => ⟨S1597224, .i32⟩
  | 111 => ⟨S1597224, .i32⟩
  | 112 => ⟨S1597224, .i32⟩
  | 113 => ⟨S1597224x1, .i32⟩
  | 114 => ⟨S1597224, .f32⟩
  | 115 => ⟨S1597224, .f32⟩
  | 116 => ⟨S_, .i32⟩
  | 117 => ⟨S1597224, .i32⟩
  | 118 => ⟨S1597224, .i1⟩
  | 119 => ⟨S_, .i32⟩
  | 120 => ⟨S1597224, .i32⟩
  | 121 => ⟨S1597224, .i32⟩
  | 122 => ⟨S1597224, .i32⟩
  | 123 => ⟨S1597224x1, .i32⟩
  | 124 => ⟨S1597224, .f32⟩
  | 125 => ⟨S1597224, .f32⟩
  | 126 => ⟨S_, .i32⟩
  | 127 => ⟨S1597224, .i32⟩
  | _ => ⟨S100000x128, .f32⟩

abbrev hbmTy0_2 (i : Nat) : BufTy := match i % 128 with
  | 0 => ⟨S1597224, .i1⟩
  | 1 => ⟨S_, .i32⟩
  | 2 => ⟨S1597224, .i32⟩
  | 3 => ⟨S1597224, .i32⟩
  | 4 => ⟨S1597224, .i32⟩
  | 5 => ⟨S1597224x1, .i32⟩
  | 6 => ⟨S1597224x128, .f32⟩
  | 7 => ⟨S1597224x1, .f32⟩
  | 8 => ⟨S1597224x128, .f32⟩
  | 9 => ⟨S1597224x128, .f32⟩
  | 10 => ⟨S_, .f32⟩
  | 11 => ⟨S10000x128, .f32⟩
  | 12 => ⟨S1597224x1, .i32⟩
  | 13 => ⟨S10000x128, .f32⟩
  | 14 => ⟨S1x128, .f32⟩
  | 15 => ⟨S10000x128, .f32⟩
  | 16 => ⟨S_, .i32⟩
  | 17 => ⟨S100000, .i32⟩
  | 18 => ⟨S100000, .i1⟩
  | 19 => ⟨S_, .i32⟩
  | 20 => ⟨S100000, .i32⟩
  | 21 => ⟨S100000, .i32⟩
  | 22 => ⟨S100000, .i32⟩
  | 23 => ⟨S100000x1, .i32⟩
  | 24 => ⟨S100000x128, .f32⟩
  | 25 => ⟨S100000x128, .f32⟩
  | 26 => ⟨S_, .f32⟩
  | 27 => ⟨S1699989, .f32⟩
  | 28 => ⟨S100000x128, .f32⟩
  | 29 => ⟨S_, .f32⟩
  | 30 => ⟨S100000, .f32⟩
  | 31 => ⟨S1699989x1, .i32⟩
  | 32 => ⟨S100000, .f32⟩
  | 33 => ⟨S_, .f32⟩
  | 34 => ⟨S100000, .f32⟩
  | 35 => ⟨S100000, .i1⟩
  | 36 => ⟨S100000, .f32⟩
  | 37 => ⟨S_, .f32⟩
  | 38 => ⟨S_, .f32⟩
  | 39 => ⟨S100000, .f32⟩
  | 40 => ⟨S100000, .f32⟩
  | 41 => ⟨S_, .i32⟩
  | 42 => ⟨S1699989, .i32⟩
  | 43 => ⟨S1699989, .i1⟩
  | 44 => ⟨S_, .i32⟩
  | 45 => ⟨S1699989, .i32⟩
  | 46 => ⟨S1699989, .i32⟩
  | 47 => ⟨S1699989, .i32⟩
  | 48 => ⟨S1699989x1, .i32⟩
  | 49 => ⟨S1699989, .f32⟩
  | 50 => ⟨S1699989, .f32⟩
  | 51 => ⟨S_, .i32⟩
  | 52 => ⟨S1699989, .i32⟩
  | 53 => ⟨S1699989, .i1⟩
  | 54 => ⟨S_, .i32⟩
  | 55 => ⟨S1699989, .i32⟩
  | 56 => ⟨S1699989, .i32⟩
  | 57 => ⟨S1699989, .i32⟩
  | 58 => ⟨S1699989x1, .i32⟩
  | 59 => ⟨S1699989, .f32⟩
  | 60 => ⟨S1699989, .f32⟩
  | 61 => ⟨S_, .i32⟩
  | 62 => ⟨S1699989, .i32⟩
  | 63 => ⟨S1699989, .i1⟩
  | 64 => ⟨S_, .i32⟩
  | 65 => ⟨S1699989, .i32⟩
  | 66 => ⟨S1699989, .i32⟩
  | 67 => ⟨S1699989, .i32⟩
  | 68 => ⟨S1699989x1, .i32⟩
  | 69 => ⟨S1699989x128, .f32⟩
  | 70 => ⟨S1699989x1, .f32⟩
  | 71 => ⟨S1699989x128, .f32⟩
  | 72 => ⟨S1699989x128, .f32⟩
  | 73 => ⟨S_, .f32⟩
  | 74 => ⟨S100000x128, .f32⟩
  | 75 => ⟨S1699989x1, .i32⟩
  | 76 => ⟨S100000x128, .f32⟩
  | 77 => ⟨S1x128, .f32⟩
  | 78 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | .local _ .vmem, ⟨26, _⟩ => ⟨S1000x128, .f32⟩
  | .local _ .vmem, ⟨27, _⟩ => ⟨S128x128, .f32⟩
  | .local _ .vmem, ⟨28, _⟩ => ⟨S1000x128, .f32⟩
  | .local _ .vmem, ⟨29, _⟩ => ⟨S1000x128, .f32⟩
  | .local _ .vmem, ⟨30, _⟩ => ⟨S1x128, .f32⟩
  | .local _ .vmem, ⟨31, _⟩ => ⟨S1000x128, .f32⟩
  | .local _ .vmem, ⟨32, _⟩ => ⟨S2000x128, .f32⟩
  | .local _ .vmem, ⟨33, _⟩ => ⟨S2000x128, .f32⟩
  | .local _ .vmem, ⟨34, _⟩ => ⟨S128x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S128x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S1x128, .f32⟩
  | .local _ .vmem, ⟨50, _⟩ => ⟨S2000x128, .f32⟩
  | .local _ .vmem, ⟨51, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_cst : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_cst_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_cst_1 : Ref sig .tc := ⟨.hbm, 35, rfl⟩
abbrev main_call0_v0 : Ref sig .tc := ⟨.hbm, 36, rfl⟩
abbrev main_call0_v1 : Ref sig .tc := ⟨.hbm, 37, rfl⟩
abbrev main_v9 : Ref sig .tc := ⟨.hbm, 38, rfl⟩
abbrev main_c : Ref sig .tc := ⟨.hbm, 39, rfl⟩
abbrev main_v10 : Ref sig .tc := ⟨.hbm, 40, rfl⟩
abbrev main_v11 : Ref sig .tc := ⟨.hbm, 41, rfl⟩
abbrev main_c_2 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_c_3 : Ref sig .tc := ⟨.hbm, 49, rfl⟩
abbrev main_v18 : Ref sig .tc := ⟨.hbm, 50, rfl⟩
abbrev main_v19 : Ref sig .tc := ⟨.hbm, 51, rfl⟩
abbrev main_c_4 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_c_5 : Ref sig .tc := ⟨.hbm, 59, rfl⟩
abbrev main_v26 : Ref sig .tc := ⟨.hbm, 60, rfl⟩
abbrev main_v27 : Ref sig .tc := ⟨.hbm, 61, rfl⟩
abbrev main_c_6 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst_7 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_8 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_9 : Ref sig .tc := ⟨.hbm, 81, rfl⟩
abbrev main_v44 : Ref sig .tc := ⟨.hbm, 82, rfl⟩
abbrev main_cst_10 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_11 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_12 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_13 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_14 : Ref sig .tc := ⟨.hbm, 101, rfl⟩
abbrev main_call1_v0 : Ref sig .tc := ⟨.hbm, 102, rfl⟩
abbrev main_call1_v1 : Ref sig .tc := ⟨.hbm, 103, rfl⟩
abbrev main_v59 : Ref sig .tc := ⟨.hbm, 104, rfl⟩
abbrev main_c_15 : Ref sig .tc := ⟨.hbm, 105, rfl⟩
abbrev main_v60 : Ref sig .tc := ⟨.hbm, 106, rfl⟩
abbrev main_v61 : Ref sig .tc := ⟨.hbm, 107, rfl⟩
abbrev main_c_16 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_c_17 : Ref sig .tc := ⟨.hbm, 115, rfl⟩
abbrev main_v68 : Ref sig .tc := ⟨.hbm, 116, rfl⟩
abbrev main_v69 : Ref sig .tc := ⟨.hbm, 117, rfl⟩
abbrev main_c_18 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_c_19 : Ref sig .tc := ⟨.hbm, 125, rfl⟩
abbrev main_v76 : Ref sig .tc := ⟨.hbm, 126, rfl⟩
abbrev main_v77 : Ref sig .tc := ⟨.hbm, 127, rfl⟩
abbrev main_c_20 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_cst_21 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_cst_22 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_cst_23 : Ref sig .tc := ⟨.hbm, 147, rfl⟩
abbrev main_v94 : Ref sig .tc := ⟨.hbm, 148, rfl⟩
abbrev main_cst_24 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_cst_25 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_cst_26 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_cst_27 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_cst_28 : Ref sig .tc := ⟨.hbm, 167, rfl⟩
abbrev main_call2_v0 : Ref sig .tc := ⟨.hbm, 168, rfl⟩
abbrev main_call2_v1 : Ref sig .tc := ⟨.hbm, 169, rfl⟩
abbrev main_v109 : Ref sig .tc := ⟨.hbm, 170, rfl⟩
abbrev main_c_29 : Ref sig .tc := ⟨.hbm, 171, rfl⟩
abbrev main_v110 : Ref sig .tc := ⟨.hbm, 172, rfl⟩
abbrev main_v111 : Ref sig .tc := ⟨.hbm, 173, rfl⟩
abbrev main_c_30 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_c_31 : Ref sig .tc := ⟨.hbm, 181, rfl⟩
abbrev main_v118 : Ref sig .tc := ⟨.hbm, 182, rfl⟩
abbrev main_v119 : Ref sig .tc := ⟨.hbm, 183, rfl⟩
abbrev main_c_32 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_c_33 : Ref sig .tc := ⟨.hbm, 191, rfl⟩
abbrev main_v126 : Ref sig .tc := ⟨.hbm, 192, rfl⟩
abbrev main_v127 : Ref sig .tc := ⟨.hbm, 193, rfl⟩
abbrev main_c_34 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_cst_35 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_c_36 : Ref sig .tc := ⟨.hbm, 209, rfl⟩
abbrev main_v141 : Ref sig .tc := ⟨.hbm, 210, rfl⟩
abbrev main_v142 : Ref sig .tc := ⟨.hbm, 211, rfl⟩
abbrev main_c_37 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_cst_38 : Ref sig .tc := ⟨.hbm, 219, rfl⟩
abbrev main_v149 : Ref sig .tc := ⟨.hbm, 220, rfl⟩
abbrev main_v150 : Ref sig .tc := ⟨.hbm, 221, rfl⟩
abbrev main_cst_39 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_cst_40 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_cst_41 : Ref sig .tc := ⟨.hbm, 230, rfl⟩
abbrev main_call3_v0 : Ref sig .tc := ⟨.hbm, 231, rfl⟩
abbrev main_call3_v1 : Ref sig .tc := ⟨.hbm, 232, rfl⟩
abbrev main_v157 : Ref sig .tc := ⟨.hbm, 233, rfl⟩
abbrev main_c_42 : Ref sig .tc := ⟨.hbm, 234, rfl⟩
abbrev main_v158 : Ref sig .tc := ⟨.hbm, 235, rfl⟩
abbrev main_v159 : Ref sig .tc := ⟨.hbm, 236, rfl⟩
abbrev main_c_43 : Ref sig .tc := ⟨.hbm, 237, rfl⟩
abbrev main_v160 : Ref sig .tc := ⟨.hbm, 238, rfl⟩
abbrev main_v161 : Ref sig .tc := ⟨.hbm, 239, rfl⟩
abbrev main_v162 : Ref sig .tc := ⟨.hbm, 240, rfl⟩
abbrev main_v163 : Ref sig .tc := ⟨.hbm, 241, rfl⟩
abbrev main_v164 : Ref sig .tc := ⟨.hbm, 242, rfl⟩
abbrev main_v165 : Ref sig .tc := ⟨.hbm, 243, rfl⟩
abbrev main_c_44 : Ref sig .tc := ⟨.hbm, 244, rfl⟩
abbrev main_v166 : Ref sig .tc := ⟨.hbm, 245, rfl⟩
abbrev main_v167 : Ref sig .tc := ⟨.hbm, 246, rfl⟩
abbrev main_c_45 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_v173 : Ref sig .tc := ⟨.hbm, 253, rfl⟩
abbrev main_c_46 : Ref sig .tc := ⟨.hbm, 254, rfl⟩
abbrev main_v174 : Ref sig .tc := ⟨.hbm, 255, rfl⟩
abbrev main_v175 : Ref sig .tc := ⟨.hbm, 256, rfl⟩
abbrev main_c_47 : Ref sig .tc := ⟨.hbm, 257, rfl⟩
abbrev main_v176 : Ref sig .tc := ⟨.hbm, 258, rfl⟩
abbrev main_v177 : Ref sig .tc := ⟨.hbm, 259, rfl⟩
abbrev main_v178 : Ref sig .tc := ⟨.hbm, 260, rfl⟩
abbrev main_v179 : Ref sig .tc := ⟨.hbm, 261, rfl⟩
abbrev main_v180 : Ref sig .tc := ⟨.hbm, 262, rfl⟩
abbrev main_v181 : Ref sig .tc := ⟨.hbm, 263, rfl⟩
abbrev main_v182 : Ref sig .tc := ⟨.hbm, 264, rfl⟩
abbrev main_v183 : Ref sig .tc := ⟨.hbm, 265, rfl⟩
abbrev main_cst_48 : Ref sig .tc := ⟨.hbm, 266, rfl⟩
abbrev main_v184 : Ref sig .tc := ⟨.hbm, 267, rfl⟩
abbrev main_v185 : Ref sig .tc := ⟨.hbm, 268, rfl⟩
abbrev main_v186 : Ref sig .tc := ⟨.hbm, 269, rfl⟩
abbrev main_v187 : Ref sig .tc := ⟨.hbm, 270, rfl⟩
abbrev main_v188 : Ref sig .tc := ⟨.hbm, 271, rfl⟩
abbrev main_c_49 : Ref sig .tc := ⟨.hbm, 272, rfl⟩
abbrev main_v189 : Ref sig .tc := ⟨.hbm, 273, rfl⟩
abbrev main_v190 : Ref sig .tc := ⟨.hbm, 274, rfl⟩
abbrev main_c_50 : Ref sig .tc := ⟨.hbm, 275, rfl⟩
abbrev main_v191 : Ref sig .tc := ⟨.hbm, 276, rfl⟩
abbrev main_v192 : Ref sig .tc := ⟨.hbm, 277, rfl⟩
abbrev main_v193 : Ref sig .tc := ⟨.hbm, 278, rfl⟩
abbrev main_v194 : Ref sig .tc := ⟨.hbm, 279, rfl⟩
abbrev main_v195 : Ref sig .tc := ⟨.hbm, 280, rfl⟩
abbrev main_v196 : Ref sig .tc := ⟨.hbm, 281, rfl⟩
abbrev main_cst_51 : Ref sig .tc := ⟨.hbm, 282, rfl⟩
abbrev main_v197 : Ref sig .tc := ⟨.hbm, 283, rfl⟩
abbrev main_v198 : Ref sig .tc := ⟨.hbm, 284, rfl⟩
abbrev main_cst_52 : Ref sig .tc := ⟨.hbm, 285, rfl⟩
abbrev main_v199 : Ref sig .tc := ⟨.hbm, 286, rfl⟩
abbrev main_v200 : Ref sig .tc := ⟨.hbm, 287, rfl⟩
abbrev main_v201 : Ref sig .tc := ⟨.hbm, 288, rfl⟩
abbrev main_cst_53 : Ref sig .tc := ⟨.hbm, 289, rfl⟩
abbrev main_v202 : Ref sig .tc := ⟨.hbm, 290, rfl⟩
abbrev main_v203 : Ref sig .tc := ⟨.hbm, 291, rfl⟩
abbrev main_v204 : Ref sig .tc := ⟨.hbm, 292, rfl⟩
abbrev main_cst_54 : Ref sig .tc := ⟨.hbm, 293, rfl⟩
abbrev main_call4_v0 : Ref sig .tc := ⟨.hbm, 294, rfl⟩
abbrev main_call4_v1 : Ref sig .tc := ⟨.hbm, 295, rfl⟩
abbrev main_v205 : Ref sig .tc := ⟨.hbm, 296, rfl⟩
abbrev main_c_55 : Ref sig .tc := ⟨.hbm, 297, rfl⟩
abbrev main_v206 : Ref sig .tc := ⟨.hbm, 298, rfl⟩
abbrev main_v207 : Ref sig .tc := ⟨.hbm, 299, rfl⟩
abbrev main_c_56 : Ref sig .tc := ⟨.hbm, 300, rfl⟩
abbrev main_v208 : Ref sig .tc := ⟨.hbm, 301, rfl⟩
abbrev main_v209 : Ref sig .tc := ⟨.hbm, 302, rfl⟩
abbrev main_v210 : Ref sig .tc := ⟨.hbm, 303, rfl⟩
abbrev main_v211 : Ref sig .tc := ⟨.hbm, 304, rfl⟩
abbrev main_v212 : Ref sig .tc := ⟨.hbm, 305, rfl⟩
abbrev main_v213 : Ref sig .tc := ⟨.hbm, 306, rfl⟩
abbrev main_c_57 : Ref sig .tc := ⟨.hbm, 307, rfl⟩
abbrev main_v214 : Ref sig .tc := ⟨.hbm, 308, rfl⟩
abbrev main_v215 : Ref sig .tc := ⟨.hbm, 309, rfl⟩
abbrev main_c_58 : Ref sig .tc := ⟨.hbm, 310, rfl⟩
abbrev main_v216 : Ref sig .tc := ⟨.hbm, 311, rfl⟩
abbrev main_v217 : Ref sig .tc := ⟨.hbm, 312, rfl⟩
abbrev main_v218 : Ref sig .tc := ⟨.hbm, 313, rfl⟩
abbrev main_v219 : Ref sig .tc := ⟨.hbm, 314, rfl⟩
abbrev main_v220 : Ref sig .tc := ⟨.hbm, 315, rfl⟩
abbrev main_v221 : Ref sig .tc := ⟨.hbm, 316, rfl⟩
abbrev main_c_59 : Ref sig .tc := ⟨.hbm, 317, rfl⟩
abbrev main_v222 : Ref sig .tc := ⟨.hbm, 318, rfl⟩
abbrev main_v223 : Ref sig .tc := ⟨.hbm, 319, rfl⟩
abbrev main_c_60 : Ref sig .tc := ⟨.hbm, 320, rfl⟩
abbrev main_v224 : Ref sig .tc := ⟨.hbm, 321, rfl⟩
abbrev main_v225 : Ref sig .tc := ⟨.hbm, 322, rfl⟩
abbrev main_v226 : Ref sig .tc := ⟨.hbm, 323, rfl⟩
abbrev main_v227 : Ref sig .tc := ⟨.hbm, 324, rfl⟩
abbrev main_v228 : Ref sig .tc := ⟨.hbm, 325, rfl⟩
abbrev main_v229 : Ref sig .tc := ⟨.hbm, 326, rfl⟩
abbrev main_v230 : Ref sig .tc := ⟨.hbm, 327, rfl⟩
abbrev main_v231 : Ref sig .tc := ⟨.hbm, 328, rfl⟩
abbrev main_cst_61 : Ref sig .tc := ⟨.hbm, 329, rfl⟩
abbrev main_v232 : Ref sig .tc := ⟨.hbm, 330, rfl⟩
abbrev main_v233 : Ref sig .tc := ⟨.hbm, 331, rfl⟩
abbrev main_v234 : Ref sig .tc := ⟨.hbm, 332, rfl⟩
abbrev main_v235 : Ref sig .tc := ⟨.hbm, 333, rfl⟩
abbrev main_v236 : Ref sig .tc := ⟨.hbm, 334, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg1_0 : Ref sig .tc := ⟨.vmem, 27, rfl⟩
abbrev cc5_stg2_0 : Ref sig .tc := ⟨.vmem, 28, rfl⟩
abbrev cc6_stg0_0 : Ref sig .tc := ⟨.vmem, 29, rfl⟩
abbrev cc6_stg1_0 : Ref sig .tc := ⟨.vmem, 30, rfl⟩
abbrev cc6_stg2_0 : Ref sig .tc := ⟨.vmem, 31, rfl⟩
abbrev cc7_stg0_0 : Ref sig .tc := ⟨.vmem, 32, rfl⟩
abbrev cc7_stg0_1 : Ref sig .tc := ⟨.vmem, 33, rfl⟩
abbrev cc7_stg1_0 : Ref sig .tc := ⟨.vmem, 34, rfl⟩
abbrev cc7_stg2_0 : Ref sig .tc := ⟨.vmem, 35, rfl⟩
abbrev cc7_stg2_1 : Ref sig .tc := ⟨.vmem, 36, rfl⟩
abbrev cc8_stg0_0 : Ref sig .tc := ⟨.vmem, 37, rfl⟩
abbrev cc8_stg0_1 : Ref sig .tc := ⟨.vmem, 38, rfl⟩
abbrev cc8_stg1_0 : Ref sig .tc := ⟨.vmem, 39, rfl⟩
abbrev cc8_stg2_0 : Ref sig .tc := ⟨.vmem, 40, rfl⟩
abbrev cc8_stg2_1 : Ref sig .tc := ⟨.vmem, 41, rfl⟩
abbrev cc9_stg0_0 : Ref sig .tc := ⟨.vmem, 42, rfl⟩
abbrev cc9_stg0_1 : Ref sig .tc := ⟨.vmem, 43, rfl⟩
abbrev cc9_stg1_0 : Ref sig .tc := ⟨.vmem, 44, rfl⟩
abbrev cc9_stg2_0 : Ref sig .tc := ⟨.vmem, 45, rfl⟩
abbrev cc9_stg2_1 : Ref sig .tc := ⟨.vmem, 46, rfl⟩
abbrev cc10_stg0_0 : Ref sig .tc := ⟨.vmem, 47, rfl⟩
abbrev cc10_stg0_1 : Ref sig .tc := ⟨.vmem, 48, rfl⟩
abbrev cc10_stg1_0 : Ref sig .tc := ⟨.vmem, 49, rfl⟩
abbrev cc10_stg2_0 : Ref sig .tc := ⟨.vmem, 50, rfl⟩
abbrev cc10_stg2_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25
abbrev cc5_sem0_0 : DmaSem sig := 26
abbrev cc5_sem1_0 : DmaSem sig := 27
abbrev cc5_sem2_0 : DmaSem sig := 28
abbrev cc6_sem0_0 : DmaSem sig := 29
abbrev cc6_sem1_0 : DmaSem sig := 30
abbrev cc6_sem2_0 : DmaSem sig := 31
abbrev cc7_sem0_0 : DmaSem sig := 32
abbrev cc7_sem0_1 : DmaSem sig := 33
abbrev cc7_sem1_0 : DmaSem sig := 34
abbrev cc7_sem2_0 : DmaSem sig := 35
abbrev cc7_sem2_1 : DmaSem sig := 36
abbrev cc8_sem0_0 : DmaSem sig := 37
abbrev cc8_sem0_1 : DmaSem sig := 38
abbrev cc8_sem1_0 : DmaSem sig := 39
abbrev cc8_sem2_0 : DmaSem sig := 40
abbrev cc8_sem2_1 : DmaSem sig := 41
abbrev cc9_sem0_0 : DmaSem sig := 42
abbrev cc9_sem0_1 : DmaSem sig := 43
abbrev cc9_sem1_0 : DmaSem sig := 44
abbrev cc9_sem2_0 : DmaSem sig := 45
abbrev cc9_sem2_1 : DmaSem sig := 46
abbrev cc10_sem0_0 : DmaSem sig := 47
abbrev cc10_sem0_1 : DmaSem sig := 48
abbrev cc10_sem1_0 : DmaSem sig := 49
abbrev cc10_sem2_0 : DmaSem sig := 50
abbrev cc10_sem2_1 : DmaSem sig := 51

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S1000x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1000x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S1000x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1000x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S2000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S2000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![50], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S2000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

class Facts₀ : Prop where
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S2000x128_S2000x128 : S2000x128.ShapeCasts S2000x128
  bcast_S_S100000 : S_.BroadcastsInDim S100000 (![] : Fin 0 → Fin S100000.rank)
  bcast_S1699989_S1699989x1_0 : S1699989.BroadcastsInDim S1699989x1 (![0] : Fin 1 → Fin S1699989x1.rank)
  bcast_S_S1699989 : S_.BroadcastsInDim S1699989 (![] : Fin 0 → Fin S1699989.rank)
  bcast_S1699989x1_S1699989x128_0_1 : S1699989x1.BroadcastsInDim S1699989x128 (![0, 1] : Fin 2 → Fin S1699989x128.rank)
  bcast_S_S100000x128 : S_.BroadcastsInDim S100000x128 (![] : Fin 0 → Fin S100000x128.rank)
  bcast_S_S10000x128 : S_.BroadcastsInDim S10000x128 (![] : Fin 0 → Fin S10000x128.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S_S10000 : S_.BroadcastsInDim S10000 (![] : Fin 0 → Fin S10000.rank)
  bcast_S1597224_S1597224x1_0 : S1597224.BroadcastsInDim S1597224x1 (![0] : Fin 1 → Fin S1597224x1.rank)
  bcast_S_S1597224 : S_.BroadcastsInDim S1597224 (![] : Fin 0 → Fin S1597224.rank)
  bcast_S1597224x1_S1597224x128_0_1 : S1597224x1.BroadcastsInDim S1597224x128 (![0, 1] : Fin 2 → Fin S1597224x128.rank)
  bcast_S_S1000x128 : S_.BroadcastsInDim S1000x128 (![] : Fin 0 → Fin S1000x128.rank)
  bcast_S10000_S10000x1_0 : S10000.BroadcastsInDim S10000x1 (![0] : Fin 1 → Fin S10000x1.rank)
  bcast_S_S1000x1 : S_.BroadcastsInDim S1000x1 (![] : Fin 0 → Fin S1000x1.rank)
  bcast_S1000x1_S1000x128_0_1 : S1000x1.BroadcastsInDim S1000x128 (![0, 1] : Fin 2 → Fin S1000x128.rank)
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  bcast_S_S1000 : S_.BroadcastsInDim S1000 (![] : Fin 0 → Fin S1000.rank)
  bcast_S798475_S798475x1_0 : S798475.BroadcastsInDim S798475x1 (![0] : Fin 1 → Fin S798475x1.rank)
  bcast_S_S798475 : S_.BroadcastsInDim S798475 (![] : Fin 0 → Fin S798475.rank)
  bcast_S798475x1_S798475x128_0_1 : S798475x1.BroadcastsInDim S798475x128 (![0, 1] : Fin 2 → Fin S798475x128.rank)
  broadcasts_S1x128_S1000x128 : S1x128.Broadcasts S1000x128
  dot_S2000x128_S128x128_S2000x128_1_0_0_1_n_n_wf : DotDims.WF S2000x128 S128x128 S2000x128 [1] [0] [0] [1] [] []
  scatter_S100000_S1699989x1_S1699989_n_0_0_1_wf : ScatterDims.WF S100000 S1699989x1 S1699989 [] [0] [0] 1
  gather_S100000_S1699989x1_S1699989_n_0_n_n_0_1_1_wf : GatherDims.WF S100000 S1699989x1 S1699989 [] [0] [] [0] [] 1 ![1]
  gather_S100000x128_S1699989x1_S1699989x128_1_0_n_n_0_1_1128_wf : GatherDims.WF S100000x128 S1699989x1 S1699989x128 [1] [0] [] [0] [] 1 ![1, 128]
  scatter_S100000x128_S1699989x1_S1699989x128_1_0_0_1_wf : ScatterDims.WF S100000x128 S1699989x1 S1699989x128 [1] [0] [0] 1
  scatter_S10000x128_S100000x1_S100000x128_1_0_0_1_wf : ScatterDims.WF S10000x128 S100000x1 S100000x128 [1] [0] [0] 1
  scatter_S10000x1_S100000x1_S100000x1_1_0_0_1_wf : ScatterDims.WF S10000x1 S100000x1 S100000x1 [1] [0] [0] 1
  scatter_S10000_S1597224x1_S1597224_n_0_0_1_wf : ScatterDims.WF S10000 S1597224x1 S1597224 [] [0] [0] 1
  gather_S10000_S1597224x1_S1597224_n_0_n_n_0_1_1_wf : GatherDims.WF S10000 S1597224x1 S1597224 [] [0] [] [0] [] 1 ![1]
  gather_S10000x128_S1597224x1_S1597224x128_1_0_n_n_0_1_1128_wf : GatherDims.WF S10000x128 S1597224x1 S1597224x128 [1] [0] [] [0] [] 1 ![1, 128]
  scatter_S10000x128_S1597224x1_S1597224x128_1_0_0_1_wf : ScatterDims.WF S10000x128 S1597224x1 S1597224x128 [1] [0] [0] 1
  scatter_S1000x128_S10000x1_S10000x128_1_0_0_1_wf : ScatterDims.WF S1000x128 S10000x1 S10000x128 [1] [0] [0] 1
  scatter_S1000x1_S10000x1_S10000x1_1_0_0_1_wf : ScatterDims.WF S1000x1 S10000x1 S10000x1 [1] [0] [0] 1
  dot_S1000x128_S128x128_S1000x128_1_0_0_1_n_n_wf : DotDims.WF S1000x128 S128x128 S1000x128 [1] [0] [0] [1] [] []
  scatter_S1000_S798475x1_S798475_n_0_0_1_wf : ScatterDims.WF S1000 S798475x1 S798475 [] [0] [0] 1
  gather_S1000_S798475x1_S798475_n_0_n_n_0_1_1_wf : GatherDims.WF S1000 S798475x1 S798475 [] [0] [] [0] [] 1 ![1]
  gather_S1000x128_S798475x1_S798475x128_1_0_n_n_0_1_1128_wf : GatherDims.WF S1000x128 S798475x1 S798475x128 [1] [0] [] [0] [] 1 ![1, 128]
  scatter_S1000x128_S798475x1_S798475x128_1_0_0_1_wf : ScatterDims.WF S1000x128 S798475x1 S798475x128 [1] [0] [0] 1
  gather_S1000x128_S10000x1_S10000x128_1_0_n_n_0_1_1128_wf : GatherDims.WF S1000x128 S10000x1 S10000x128 [1] [0] [] [0] [] 1 ![1, 128]
  gather_S10000x128_S100000x1_S100000x128_1_0_n_n_0_1_1128_wf : GatherDims.WF S10000x128 S100000x1 S100000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S10000x128.size a
  hwx3_0 : ∀ i : grid3.Coords, EltTy.bits .f32 = 32 ∨ (Rect.block (s := S10000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S10000x128.size a
  hwx3_2 : ∀ i : grid3.Coords, EltTy.bits .f32 = 32 ∨ (Rect.block (s := S10000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S10000x128.size a
  hwx4_0 : ∀ i : grid4.Coords, EltTy.bits .f32 = 32 ∨ (Rect.block (s := S10000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S10000x128.size a
  hwx4_2 : ∀ i : grid4.Coords, EltTy.bits .f32 = 32 ∨ (Rect.block (s := S10000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 1
  hreads5_0 : ∀ i i' : grid5.Coords, (∀ a, reads5_0 a = true → i a = i' a) → cc5_transform_0 i = cc5_transform_0 i'
  hinb5_0 : ∀ (i : grid5.Coords) a, (cc5_transform_0 i a + 1) * S1000x128.size a ≤ S1000x128.size a
  hwx5_0 : ∀ i : grid5.Coords, EltTy.bits .f32 = 32 ∨ (Rect.block (s := S1000x128) S1000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 1
  hreads5_2 : ∀ i i' : grid5.Coords, (∀ a, reads5_2 a = true → i a = i' a) → cc5_transform_2 i = cc5_transform_2 i'
  hinb5_2 : ∀ (i : grid5.Coords) a, (cc5_transform_2 i a + 1) * S1000x128.size a ≤ S1000x128.size a
  hwx5_2 : ∀ i : grid5.Coords, EltTy.bits .f32 = 32 ∨ (Rect.block (s := S1000x128) S1000x128.size (cc5_transform_2 i) (hinb5_2 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S1000x128.size a ≤ S1000x128.size a
  hwx6_0 : ∀ i : grid6.Coords, EltTy.bits .f32 = 32 ∨ (Rect.block (s := S1000x128) S1000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 false = 1
  hreads6_2 : ∀ i i' : grid6.Coords, (∀ a, reads6_2 a = true → i a = i' a) → cc6_transform_2 i = cc6_transform_2 i'
  hinb6_2 : ∀ (i : grid6.Coords) a, (cc6_transform_2 i a + 1) * S1000x128.size a ≤ S1000x128.size a
  hwx6_2 : ∀ i : grid6.Coords, EltTy.bits .f32 = 32 ∨ (Rect.block (s := S1000x128) S1000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S10000x128.size a
  hwx7_0 : ∀ i : grid7.Coords, EltTy.bits .f32 = 32 ∨ (Rect.block (s := S10000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x128.size a ≤ S10000x128.size a
  hwx7_2 : ∀ i : grid7.Coords, EltTy.bits .f32 = 32 ∨ (Rect.block (s := S10000x128) S2000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S10000x128.size a
  hwx8_0 : ∀ i : grid8.Coords, EltTy.bits .f32 = 32 ∨ (Rect.block (s := S10000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x128.size a ≤ S10000x128.size a
  hwx8_2 : ∀ i : grid8.Coords, EltTy.bits .f32 = 32 ∨ (Rect.block (s := S10000x128) S2000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S100000x128.size a
  hwx9_0 : ∀ i : grid9.Coords, EltTy.bits .f32 = 32 ∨ (Rect.block (s := S100000x128) S2000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x128.size a ≤ S100000x128.size a
  hwx9_2 : ∀ i : grid9.Coords, EltTy.bits .f32 = 32 ∨ (Rect.block (s := S100000x128) S2000x128.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S100000x128.size a
  hwx10_0 : ∀ i : grid10.Coords, EltTy.bits .f32 = 32 ∨ (Rect.block (s := S100000x128) S2000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2000x128.size a ≤ S100000x128.size a
  hwx10_2 : ∀ i : grid10.Coords, EltTy.bits .f32 = 32 ∨ (Rect.block (s := S100000x128) S2000x128.size (cc10_transform_2 i) (hinb10_2 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S100000_S1699989x1_S1699989_n_0_0_1 : ScatterDims S100000 S1699989x1 S1699989 where
  updateWindowDims := []
  insertedWindowDims := [0]
  scatterDimsToOperandDims := [0]
  indexVectorDim := 1
  wf := scatter_S100000_S1699989x1_S1699989_n_0_0_1_wf
def gather_S100000_S1699989x1_S1699989_n_0_n_n_0_1_1 : GatherDims S100000 S1699989x1 S1699989 where
  offsetDims := []
  collapsedSliceDims := [0]
  operandBatchingDims := []
  startIndicesBatchingDims := []
  startIndexMap := [0]
  indexVectorDim := 1
  sliceSizes := ![1]
  wf := gather_S100000_S1699989x1_S1699989_n_0_n_n_0_1_1_wf
def gather_S100000x128_S1699989x1_S1699989x128_1_0_n_n_0_1_1128 : GatherDims S100000x128 S1699989x1 S1699989x128 where
  offsetDims := [1]
  collapsedSliceDims := [0]
  operandBatchingDims := []
  startIndicesBatchingDims := []
  startIndexMap := [0]
  indexVectorDim := 1
  sliceSizes := ![1, 128]
  wf := gather_S100000x128_S1699989x1_S1699989x128_1_0_n_n_0_1_1128_wf
def scatter_S100000x128_S1699989x1_S1699989x128_1_0_0_1 : ScatterDims S100000x128 S1699989x1 S1699989x128 where
  updateWindowDims := [1]
  insertedWindowDims := [0]
  scatterDimsToOperandDims := [0]
  indexVectorDim := 1
  wf := scatter_S100000x128_S1699989x1_S1699989x128_1_0_0_1_wf
def scatter_S10000x128_S100000x1_S100000x128_1_0_0_1 : ScatterDims S10000x128 S100000x1 S100000x128 where
  updateWindowDims := [1]
  insertedWindowDims := [0]
  scatterDimsToOperandDims := [0]
  indexVectorDim := 1
  wf := scatter_S10000x128_S100000x1_S100000x128_1_0_0_1_wf
def scatter_S10000x1_S100000x1_S100000x1_1_0_0_1 : ScatterDims S10000x1 S100000x1 S100000x1 where
  updateWindowDims := [1]
  insertedWindowDims := [0]
  scatterDimsToOperandDims := [0]
  indexVectorDim := 1
  wf := scatter_S10000x1_S100000x1_S100000x1_1_0_0_1_wf
def scatter_S10000_S1597224x1_S1597224_n_0_0_1 : ScatterDims S10000 S1597224x1 S1597224 where
  updateWindowDims := []
  insertedWindowDims := [0]
  scatterDimsToOperandDims := [0]
  indexVectorDim := 1
  wf := scatter_S10000_S1597224x1_S1597224_n_0_0_1_wf
def gather_S10000_S1597224x1_S1597224_n_0_n_n_0_1_1 : GatherDims S10000 S1597224x1 S1597224 where
  offsetDims := []
  collapsedSliceDims := [0]
  operandBatchingDims := []
  startIndicesBatchingDims := []
  startIndexMap := [0]
  indexVectorDim := 1
  sliceSizes := ![1]
  wf := gather_S10000_S1597224x1_S1597224_n_0_n_n_0_1_1_wf
def gather_S10000x128_S1597224x1_S1597224x128_1_0_n_n_0_1_1128 : GatherDims S10000x128 S1597224x1 S1597224x128 where
  offsetDims := [1]
  collapsedSliceDims := [0]
  operandBatchingDims := []
  startIndicesBatchingDims := []
  startIndexMap := [0]
  indexVectorDim := 1
  sliceSizes := ![1, 128]
  wf := gather_S10000x128_S1597224x1_S1597224x128_1_0_n_n_0_1_1128_wf
def scatter_S10000x128_S1597224x1_S1597224x128_1_0_0_1 : ScatterDims S10000x128 S1597224x1 S1597224x128 where
  updateWindowDims := [1]
  insertedWindowDims := [0]
  scatterDimsToOperandDims := [0]
  indexVectorDim := 1
  wf := scatter_S10000x128_S1597224x1_S1597224x128_1_0_0_1_wf
def scatter_S1000x128_S10000x1_S10000x128_1_0_0_1 : ScatterDims S1000x128 S10000x1 S10000x128 where
  updateWindowDims := [1]
  insertedWindowDims := [0]
  scatterDimsToOperandDims := [0]
  indexVectorDim := 1
  wf := scatter_S1000x128_S10000x1_S10000x128_1_0_0_1_wf
def scatter_S1000x1_S10000x1_S10000x1_1_0_0_1 : ScatterDims S1000x1 S10000x1 S10000x1 where
  updateWindowDims := [1]
  insertedWindowDims := [0]
  scatterDimsToOperandDims := [0]
  indexVectorDim := 1
  wf := scatter_S1000x1_S10000x1_S10000x1_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def scatter_S1000_S798475x1_S798475_n_0_0_1 : ScatterDims S1000 S798475x1 S798475 where
  updateWindowDims := []
  insertedWindowDims := [0]
  scatterDimsToOperandDims := [0]
  indexVectorDim := 1
  wf := scatter_S1000_S798475x1_S798475_n_0_0_1_wf
def gather_S1000_S798475x1_S798475_n_0_n_n_0_1_1 : GatherDims S1000 S798475x1 S798475 where
  offsetDims := []
  collapsedSliceDims := [0]
  operandBatchingDims := []
  startIndicesBatchingDims := []
  startIndexMap := [0]
  indexVectorDim := 1
  sliceSizes := ![1]
  wf := gather_S1000_S798475x1_S798475_n_0_n_n_0_1_1_wf
def gather_S1000x128_S798475x1_S798475x128_1_0_n_n_0_1_1128 : GatherDims S1000x128 S798475x1 S798475x128 where
  offsetDims := [1]
  collapsedSliceDims := [0]
  operandBatchingDims := []
  startIndicesBatchingDims := []
  startIndexMap := [0]
  indexVectorDim := 1
  sliceSizes := ![1, 128]
  wf := gather_S1000x128_S798475x1_S798475x128_1_0_n_n_0_1_1128_wf
def scatter_S1000x128_S798475x1_S798475x128_1_0_0_1 : ScatterDims S1000x128 S798475x1 S798475x128 where
  updateWindowDims := [1]
  insertedWindowDims := [0]
  scatterDimsToOperandDims := [0]
  indexVectorDim := 1
  wf := scatter_S1000x128_S798475x1_S798475x128_1_0_0_1_wf
def gather_S1000x128_S10000x1_S10000x128_1_0_n_n_0_1_1128 : GatherDims S1000x128 S10000x1 S10000x128 where
  offsetDims := [1]
  collapsedSliceDims := [0]
  operandBatchingDims := []
  startIndicesBatchingDims := []
  startIndexMap := [0]
  indexVectorDim := 1
  sliceSizes := ![1, 128]
  wf := gather_S1000x128_S10000x1_S10000x128_1_0_n_n_0_1_1128_wf
def gather_S10000x128_S100000x1_S100000x128_1_0_n_n_0_1_1128 : GatherDims S10000x128 S100000x1 S100000x128 where
  offsetDims := [1]
  collapsedSliceDims := [0]
  operandBatchingDims := []
  startIndicesBatchingDims := []
  startIndexMap := [0]
  indexVectorDim := 1
  sliceSizes := ![1, 128]
  wf := gather_S10000x128_S100000x1_S100000x128_1_0_n_n_0_1_1128_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v38) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v51) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v52) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v88) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v89) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v90) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v101) S1000x128.size cc5_transform_0 reads5_0 false false 1 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v102) S1000x128.size cc5_transform_2 reads5_2 true false 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v138) S1000x128.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_v139) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v140) S1000x128.size cc6_transform_2 reads6_2 true false 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v148) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg11) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v150) S2000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v186) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v187) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v188) S2000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v196) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg9) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v198) S2000x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v234) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v235) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v236) S2000x128.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1699989 : Shape := ⟨1, ![1699989]⟩
abbrev S1597224 : Shape := ⟨1, ![1597224]⟩
abbrev S798475 : Shape := ⟨1, ![798475]⟩
abbrev S100000 : Shape := ⟨1, ![100000]⟩
abbrev S10000 : Shape := ⟨1, ![10000]⟩
abbrev S1x128 : Shape := ⟨2, ![1, 128]⟩
abbrev S_ : Shape := ⟨0, ![]⟩
abbrev S1699989x1 : Shape := ⟨2, ![1699989, 1]⟩
abbrev S1699989x128 : Shape := ⟨2, ![1699989, 128]⟩
abbrev S10000x128 : Shape := ⟨2, ![10000, 128]⟩
abbrev S100000x1 : Shape := ⟨2, ![100000, 1]⟩
abbrev S10000x1 : Shape := ⟨2, ![10000, 1]⟩
abbrev S1597224x1 : Shape := ⟨2, ![1597224, 1]⟩
abbrev S1597224x128 : Shape := ⟨2, ![1597224, 128]⟩
abbrev S1000x128 : Shape := ⟨2, ![1000, 128]⟩
abbrev S1000x1 : Shape := ⟨2, ![1000, 1]⟩
abbrev S1000 : Shape := ⟨1, ![1000]⟩
abbrev S798475x1 : Shape := ⟨2, ![798475, 1]⟩
abbrev S798475x128 : Shape := ⟨2, ![798475, 128]⟩

abbrev nBuf : Space → Nat
  | .hbm => 354
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S1699989, .i32⟩
  | 14 => ⟨S1699989, .i32⟩
  | 15 => ⟨S1699989, .f32⟩
  | 16 => ⟨S1597224, .i32⟩
  | 17 => ⟨S1597224, .i32⟩
  | 18 => ⟨S1597224, .f32⟩
  | 19 => ⟨S798475, .i32⟩
  | 20 => ⟨S798475, .i32⟩
  | 21 => ⟨S798475, .f32⟩
  | 22 => ⟨S100000, .i32⟩
  | 23 => ⟨S10000, .i32⟩
  | 24 => ⟨S100000x128, .f32⟩
  | 25 => ⟨S1x128, .f32⟩
  | 26 => ⟨S100000x128, .f32⟩
  | 27 => ⟨S100000x128, .f32⟩
  | 28 => ⟨S_, .f32⟩
  | 29 => ⟨S100000, .f32⟩
  | 30 => ⟨S1699989x1, .i32⟩
  | 31 => ⟨S100000, .f32⟩
  | 32 => ⟨S_, .f32⟩
  | 33 => ⟨S100000, .f32⟩
  | 34 => ⟨S100000, .i1⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S1699989, .i32⟩
  | 42 => ⟨S1699989, .i1⟩
  | 43 => ⟨S_, .i32⟩
  | 44 => ⟨S1699989, .i32⟩
  | 45 => ⟨S1699989, .i32⟩
  | 46 => ⟨S1699989, .i32⟩
  | 47 => ⟨S1699989x1, .i32⟩
  | 48 => ⟨S1699989, .f32⟩
  | 49 => ⟨S1699989, .f32⟩
  | 50 => ⟨S_, .i32⟩
  | 51 => ⟨S1699989, .i32⟩
  | 52 => ⟨S1699989, .i1⟩
  | 53 => ⟨S_, .i32⟩
  | 54 => ⟨S1699989, .i32⟩
  | 55 => ⟨S1699989, .i32⟩
  | 56 => ⟨S1699989, .i32⟩
  | 57 => ⟨S1699989x1, .i32⟩
  | 58 => ⟨S1699989, .f32⟩
  | 59 => ⟨S1699989, .f32⟩
  | 60 => ⟨S100000x128, .f32⟩
  | 61 => ⟨S_, .i32⟩
  | 62 => ⟨S1699989, .i32⟩
  | 63 => ⟨S1699989, .i1⟩
  | 64 => ⟨S_, .i32⟩
  | 65 => ⟨S1699989, .i32⟩
  | 66 => ⟨S1699989, .i32⟩
  | 67 => ⟨S1699989, .i32⟩
  | 68 => ⟨S1699989x1, .i32⟩
  | 69 => ⟨S1699989x128, .f32⟩
  | 70 => ⟨S1699989x1, .f32⟩
  | 71 => ⟨S1699989x128, .f32⟩
  | 72 => ⟨S1699989x128, .f32⟩
  | 73 => ⟨S_, .f32⟩
  | 74 => ⟨S100000x128, .f32⟩
  | 75 => ⟨S1699989x1, .i32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S_, .f32⟩
  | 84 => ⟨S10000x128, .f32⟩
  | 85 => ⟨S100000x1, .i32⟩
  | 86 => ⟨S10000x128, .f32⟩
  | 87 => ⟨S_, .f32⟩
  | 88 => ⟨S100000x1, .f32⟩
  | 89 => ⟨S_, .f32⟩
  | 90 => ⟨S10000x1, .f32⟩
  | 91 => ⟨S100000x1, .i32⟩
  | 92 => ⟨S10000x1, .f32⟩
  | 93 => ⟨S_, .f32⟩
  | 94 => ⟨S10000x1, .f32⟩
  | 95 => ⟨S10000x1, .f32⟩
  | 96 => ⟨S10000x128, .f32⟩
  | 97 => ⟨S10000x128, .f32⟩
  | 98 => ⟨S_, .f32⟩
  | 99 => ⟨S10000, .f32⟩
  | 100 => ⟨S1597224x1, .i32⟩
  | 101 => ⟨S10000, .f32⟩
  | 102 => ⟨S_, .f32⟩
  | 103 => ⟨S10000, .f32⟩
  | 104 => ⟨S10000, .i1⟩
  | 105 => ⟨S10000, .f32⟩
  | 106 => ⟨S_, .f32⟩
  | 107 => ⟨S_, .f32⟩
  | 108 => ⟨S10000, .f32⟩
  | 109 => ⟨S10000, .f32⟩
  | 110 => ⟨S_, .i32⟩
  | 111 => ⟨S1597224, .i32⟩
  | 112 => ⟨S1597224, .i1⟩
  | 113 => ⟨S_, .i32⟩
  | 114 => ⟨S1597224, .i32⟩
  | 115 => ⟨S1597224, .i32⟩
  | 116 => ⟨S1597224, .i32⟩
  | 117 => ⟨S1597224x1, .i32⟩
  | 118 => ⟨S1597224, .f32⟩
  | 119 => ⟨S1597224, .f32⟩
  | 120 => ⟨S_, .i32⟩
  | 121 => ⟨S1597224, .i32⟩
  | 122 => ⟨S1597224, .i1⟩
  | 123 => ⟨S_, .i32⟩
  | 124 => ⟨S1597224, .i32⟩
  | 125 => ⟨S1597224, .i32⟩
  | 126 => ⟨S1597224, .i32⟩
  | 127 => ⟨S1597224x1, .i32⟩
  | _ => ⟨S100000x128, .f32⟩

abbrev hbmTy0_1 (i : Nat) : BufTy := match i % 128 with
  | 0 => ⟨S1597224, .f32⟩
  | 1 => ⟨S1597224, .f32⟩
  | 2 => ⟨S10000x128, .f32⟩
  | 3 => ⟨S_, .i32⟩
  | 4 => ⟨S1597224, .i32⟩
  | 5 => ⟨S1597224, .i1⟩
  | 6 => ⟨S_, .i32⟩
  | 7 => ⟨S1597224, .i32⟩
  | 8 => ⟨S1597224, .i32⟩
  | 9 => ⟨S1597224, .i32⟩
  | 10 => ⟨S1597224x1, .i32⟩
  | 11 => ⟨S1597224x128, .f32⟩
  | 12 => ⟨S1597224x1, .f32⟩
  | 13 => ⟨S1597224x128, .f32⟩
  | 14 => ⟨S1597224x128, .f32⟩
  | 15 => ⟨S_, .f32⟩
  | 16 => ⟨S10000x128, .f32⟩
  | 17 => ⟨S1597224x1, .i32⟩
  | 18 => ⟨S10000x128, .f32⟩
  | 19 => ⟨S1x128, .f32⟩
  | 20 => ⟨S10000x128, .f32⟩
  | 21 => ⟨S10000x128, .f32⟩
  | 22 => ⟨S_, .f32⟩
  | 23 => ⟨S10000x128, .f32⟩
  | 24 => ⟨S10000x128, .f32⟩
  | 25 => ⟨S_, .f32⟩
  | 26 => ⟨S1000x128, .f32⟩
  | 27 => ⟨S10000x1, .i32⟩
  | 28 => ⟨S1000x128, .f32⟩
  | 29 => ⟨S_, .f32⟩
  | 30 => ⟨S10000x1, .f32⟩
  | 31 => ⟨S_, .f32⟩
  | 32 => ⟨S1000x1, .f32⟩
  | 33 => ⟨S10000x1, .i32⟩
  | 34 => ⟨S1000x1, .f32⟩
  | 35 => ⟨S_, .f32⟩
  | 36 => ⟨S1000x1, .f32⟩
  | 37 => ⟨S1000x1, .f32⟩
  | 38 => ⟨S1000x128, .f32⟩
  | 39 => ⟨S1000x128, .f32⟩
  | 40 => ⟨S_, .f32⟩
  | 41 => ⟨S1000, .f32⟩
  | 42 => ⟨S798475x1, .i32⟩
  | 43 => ⟨S1000, .f32⟩
  | 44 => ⟨S_, .f32⟩
  | 45 => ⟨S1000, .f32⟩
  | 46 => ⟨S1000, .i1⟩
  | 47 => ⟨S1000, .f32⟩
  | 48 => ⟨S_, .f32⟩
  | 49 => ⟨S_, .f32⟩
  | 50 => ⟨S1000, .f32⟩
  | 51 => ⟨S1000, .f32⟩
  | 52 => ⟨S_, .i32⟩
  | 53 => ⟨S798475, .i32⟩
  | 54 => ⟨S798475, .i1⟩
  | 55 => ⟨S_, .i32⟩
  | 56 => ⟨S798475, .i32⟩
  | 57 => ⟨S798475, .i32⟩
  | 58 => ⟨S798475, .i32⟩
  | 59 => ⟨S798475x1, .i32⟩
  | 60 => ⟨S798475, .f32⟩
  | 61 => ⟨S798475, .f32⟩
  | 62 => ⟨S_, .i32⟩
  | 63 => ⟨S798475, .i32⟩
  | 64 => ⟨S798475, .i1⟩
  | 65 => ⟨S_, .i32⟩
  | 66 => ⟨S798475, .i32⟩
  | 67 => ⟨S798475, .i32⟩
  | 68 => ⟨S798475, .i32⟩
  | 69 => ⟨S798475x1, .i32⟩
  | 70 => ⟨S798475, .f32⟩
  | 71 => ⟨S798475, .f32⟩
  | 72 => ⟨S1000x128, .f32⟩
  | 73 => ⟨S_, .i32⟩
  | 74 => ⟨S798475, .i32⟩
  | 75 => ⟨S798475, .i1⟩
  | 76 => ⟨S_, .i32⟩
  | 77 => ⟨S798475, .i32⟩
  | 78 => ⟨S798475, .i32⟩
  | 79 => ⟨S798475, .i32⟩
  | 80 => ⟨S798475x1, .i32⟩
  | 81 => ⟨S798475x128, .f32⟩
  | 82 => ⟨S798475x1, .f32⟩
  | 83 => ⟨S798475x128, .f32⟩
  | 84 => ⟨S798475x128, .f32⟩
  | 85 => ⟨S_, .f32⟩
  | 86 => ⟨S1000x128, .f32⟩
  | 87 => ⟨S798475x1, .i32⟩
  | 88 => ⟨S1000x128, .f32⟩
  | 89 => ⟨S1x128, .f32⟩
  | 90 => ⟨S1000x128, .f32⟩
  | 91 => ⟨S1000x128, .f32⟩
  | 92 => ⟨S_, .f32⟩
  | 93 => ⟨S1000x128, .f32⟩
  | 94 => ⟨S1000x128, .f32⟩
  | 95 => ⟨S_, .i32⟩
  | 96 => ⟨S10000, .i32⟩
  | 97 => ⟨S10000, .i1⟩
  | 98 => ⟨S_, .i32⟩
  | 99 => ⟨S10000, .i32⟩
  | 100 => ⟨S10000, .i32⟩
  | 101 => ⟨S10000, .i32⟩
  | 102 => ⟨S10000x1, .i32⟩
  | 103 => ⟨S10000x128, .f32⟩
  | 104 => ⟨S10000x128, .f32⟩
  | 105 => ⟨S_, .f32⟩
  | 106 => ⟨S1597224, .f32⟩
  | 107 => ⟨S_, .f32⟩
  | 108 => ⟨S10000, .f32⟩
  | 109 => ⟨S1597224x1, .i32⟩
  | 110 => ⟨S10000, .f32⟩
  | 111 => ⟨S_, .f32⟩
  | 112 => ⟨S10000, .f32⟩
  | 113 => ⟨S10000, .i1⟩
  | 114 => ⟨S10000, .f32⟩
  | 115 => ⟨S_, .f32⟩
  | 116 => ⟨S_, .f32⟩
  | 117 => ⟨S10000, .f32⟩
  | 118 => ⟨S10000, .f32⟩
  | 119 => ⟨S_, .i32⟩
  | 120 => ⟨S1597224, .i32⟩
  | 121 => ⟨S1597224, .i1⟩
  | 122 => ⟨S_, .i32⟩
  | 123 => ⟨S1597224, .i32⟩
  | 124 => ⟨S1597224, .i32⟩
  | 125 => ⟨S1597224, .i32⟩
  | 126 => ⟨S1597224x1, .i32⟩
  | 127 => ⟨S1597224, .f32⟩
  | _ => ⟨S100000x128, .f32⟩

abbrev hbmTy0_2 (i : Nat) : BufTy := match i % 128 with
  | 0 => ⟨S1597224, .f32⟩
  | 1 => ⟨S_, .i32⟩
  | 2 => ⟨S1597224, .i32⟩
  | 3 => ⟨S1597224, .i1⟩
  | 4 => ⟨S_, .i32⟩
  | 5 => ⟨S1597224, .i32⟩
  | 6 => ⟨S1597224, .i32⟩
  | 7 => ⟨S1597224, .i32⟩
  | 8 => ⟨S1597224x1, .i32⟩
  | 9 => ⟨S1597224, .f32⟩
  | 10 => ⟨S1597224, .f32⟩
  | 11 => ⟨S10000x128, .f32⟩
  | 12 => ⟨S_, .i32⟩
  | 13 => ⟨S1597224, .i32⟩
  | 14 => ⟨S1597224, .i1⟩
  | 15 => ⟨S_, .i32⟩
  | 16 => ⟨S1597224, .i32⟩
  | 17 => ⟨S1597224, .i32⟩
  | 18 => ⟨S1597224, .i32⟩
  | 19 => ⟨S1597224x1, .i32⟩
  | 20 => ⟨S1597224x128, .f32⟩
  | 21 => ⟨S1597224x1, .f32⟩
  | 22 => ⟨S1597224x128, .f32⟩
  | 23 => ⟨S1597224x128, .f32⟩
  | 24 => ⟨S_, .f32⟩
  | 25 => ⟨S10000x128, .f32⟩
  | 26 => ⟨S1597224x1, .i32⟩
  | 27 => ⟨S10000x128, .f32⟩
  | 28 => ⟨S1x128, .f32⟩
  | 29 => ⟨S10000x128, .f32⟩
  | 30 => ⟨S10000x128, .f32⟩
  | 31 => ⟨S_, .f32⟩
  | 32 => ⟨S10000x128, .f32⟩
  | 33 => ⟨S10000x128, .f32⟩
  | 34 => ⟨S_, .i32⟩
  | 35 => ⟨S100000, .i32⟩
  | 36 => ⟨S100000, .i1⟩
  | 37 => ⟨S_, .i32⟩
  | 38 => ⟨S100000, .i32⟩
  | 39 => ⟨S100000, .i32⟩
  | 40 => ⟨S100000, .i32⟩
  | 41 => ⟨S100000x1, .i32⟩
  | 42 => ⟨S100000x128, .f32⟩
  | 43 => ⟨S100000x128, .f32⟩
  | 44 => ⟨S_, .f32⟩
  | 45 => ⟨S1699989, .f32⟩
  | 46 => ⟨S_, .f32⟩
  | 47 => ⟨S100000, .f32⟩
  | 48 => ⟨S1699989x1, .i32⟩
  | 49 => ⟨S100000, .f32⟩
  | 50 => ⟨S_, .f32⟩
  | 51 => ⟨S100000, .f32⟩
  | 52 => ⟨S100000, .i1⟩
  | 53 => ⟨S100000, .f32⟩
  | 54 => ⟨S_, .f32⟩
  | 55 => ⟨S_, .f32⟩
  | 56 => ⟨S100000, .f32⟩
  | 57 => ⟨S100000, .f32⟩
  | 58 => ⟨S_, .i32⟩
  | 59 => ⟨S1699989, .i32⟩
  | 60 => ⟨S1699989, .i1⟩
  | 61 => ⟨S_, .i32⟩
  | 62 => ⟨S1699989, .i32⟩
  | 63 => ⟨S1699989, .i32⟩
  | 64 => ⟨S1699989, .i32⟩
  | 65 => ⟨S1699989x1, .i32⟩
  | 66 => ⟨S1699989, .f32⟩
  | 67 => ⟨S1699989, .f32⟩
  | 68 => ⟨S_, .i32⟩
  | 69 => ⟨S1699989, .i32⟩
  | 70 => ⟨S1699989, .i1⟩
  | 71 => ⟨S_, .i32⟩
  | 72 => ⟨S1699989, .i32⟩
  | 73 => ⟨S1699989, .i32⟩
  | 74 => ⟨S1699989, .i32⟩
  | 75 => ⟨S1699989x1, .i32⟩
  | 76 => ⟨S1699989, .f32⟩
  | 77 => ⟨S1699989, .f32⟩
  | 78 => ⟨S100000x128, .f32⟩
  | 79 => ⟨S_, .i32⟩
  | 80 => ⟨S1699989, .i32⟩
  | 81 => ⟨S1699989, .i1⟩
  | 82 => ⟨S_, .i32⟩
  | 83 => ⟨S1699989, .i32⟩
  | 84 => ⟨S1699989, .i32⟩
  | 85 => ⟨S1699989, .i32⟩
  | 86 => ⟨S1699989x1, .i32⟩
  | 87 => ⟨S1699989x128, .f32⟩
  | 88 => ⟨S1699989x1, .f32⟩
  | 89 => ⟨S1699989x128, .f32⟩
  | 90 => ⟨S1699989x128, .f32⟩
  | 91 => ⟨S_, .f32⟩
  | 92 => ⟨S100000x128, .f32⟩
  | 93 => ⟨S1699989x1, .i32⟩
  | 94 => ⟨S100000x128, .f32⟩
  | 95 => ⟨S1x128, .f32⟩
  | 96 => ⟨S100000x128, .f32⟩
  | 97 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst_0 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst_1 : Ref sig .tc := ⟨.hbm, 36, rfl⟩
abbrev main_call0_v0 : Ref sig .tc := ⟨.hbm, 37, rfl⟩
abbrev main_call0_v1 : Ref sig .tc := ⟨.hbm, 38, rfl⟩
abbrev main_v10 : Ref sig .tc := ⟨.hbm, 39, rfl⟩
abbrev main_c : Ref sig .tc := ⟨.hbm, 40, rfl⟩
abbrev main_v11 : Ref sig .tc := ⟨.hbm, 41, rfl⟩
abbrev main_v12 : Ref sig .tc := ⟨.hbm, 42, rfl⟩
abbrev main_c_2 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_c_3 : Ref sig .tc := ⟨.hbm, 50, rfl⟩
abbrev main_v19 : Ref sig .tc := ⟨.hbm, 51, rfl⟩
abbrev main_v20 : Ref sig .tc := ⟨.hbm, 52, rfl⟩
abbrev main_c_4 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_c_5 : Ref sig .tc := ⟨.hbm, 61, rfl⟩
abbrev main_v28 : Ref sig .tc := ⟨.hbm, 62, rfl⟩
abbrev main_v29 : Ref sig .tc := ⟨.hbm, 63, rfl⟩
abbrev main_c_6 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_cst_7 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_call1_cst : Ref sig .tc := ⟨.hbm, 80, rfl⟩
abbrev main_call1_v0 : Ref sig .tc := ⟨.hbm, 81, rfl⟩
abbrev main_v44 : Ref sig .tc := ⟨.hbm, 82, rfl⟩
abbrev main_cst_8 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_9 : Ref sig .tc := ⟨.hbm, 87, rfl⟩
abbrev main_v48 : Ref sig .tc := ⟨.hbm, 88, rfl⟩
abbrev main_cst_10 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_cst_11 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_cst_12 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_cst_13 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_cst_14 : Ref sig .tc := ⟨.hbm, 106, rfl⟩
abbrev main_call2_v0 : Ref sig .tc := ⟨.hbm, 107, rfl⟩
abbrev main_call2_v1 : Ref sig .tc := ⟨.hbm, 108, rfl⟩
abbrev main_v62 : Ref sig .tc := ⟨.hbm, 109, rfl⟩
abbrev main_c_15 : Ref sig .tc := ⟨.hbm, 110, rfl⟩
abbrev main_v63 : Ref sig .tc := ⟨.hbm, 111, rfl⟩
abbrev main_v64 : Ref sig .tc := ⟨.hbm, 112, rfl⟩
abbrev main_c_16 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_c_17 : Ref sig .tc := ⟨.hbm, 120, rfl⟩
abbrev main_v71 : Ref sig .tc := ⟨.hbm, 121, rfl⟩
abbrev main_v72 : Ref sig .tc := ⟨.hbm, 122, rfl⟩
abbrev main_c_18 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_c_19 : Ref sig .tc := ⟨.hbm, 131, rfl⟩
abbrev main_v80 : Ref sig .tc := ⟨.hbm, 132, rfl⟩
abbrev main_v81 : Ref sig .tc := ⟨.hbm, 133, rfl⟩
abbrev main_c_20 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_cst_21 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_call3_cst : Ref sig .tc := ⟨.hbm, 150, rfl⟩
abbrev main_call3_v0 : Ref sig .tc := ⟨.hbm, 151, rfl⟩
abbrev main_v96 : Ref sig .tc := ⟨.hbm, 152, rfl⟩
abbrev main_cst_22 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_cst_23 : Ref sig .tc := ⟨.hbm, 157, rfl⟩
abbrev main_v100 : Ref sig .tc := ⟨.hbm, 158, rfl⟩
abbrev main_cst_24 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_cst_25 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_cst_26 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_cst_27 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_cst_28 : Ref sig .tc := ⟨.hbm, 176, rfl⟩
abbrev main_call4_v0 : Ref sig .tc := ⟨.hbm, 177, rfl⟩
abbrev main_call4_v1 : Ref sig .tc := ⟨.hbm, 178, rfl⟩
abbrev main_v114 : Ref sig .tc := ⟨.hbm, 179, rfl⟩
abbrev main_c_29 : Ref sig .tc := ⟨.hbm, 180, rfl⟩
abbrev main_v115 : Ref sig .tc := ⟨.hbm, 181, rfl⟩
abbrev main_v116 : Ref sig .tc := ⟨.hbm, 182, rfl⟩
abbrev main_c_30 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_c_31 : Ref sig .tc := ⟨.hbm, 190, rfl⟩
abbrev main_v123 : Ref sig .tc := ⟨.hbm, 191, rfl⟩
abbrev main_v124 : Ref sig .tc := ⟨.hbm, 192, rfl⟩
abbrev main_c_32 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_c_33 : Ref sig .tc := ⟨.hbm, 201, rfl⟩
abbrev main_v132 : Ref sig .tc := ⟨.hbm, 202, rfl⟩
abbrev main_v133 : Ref sig .tc := ⟨.hbm, 203, rfl⟩
abbrev main_c_34 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_cst_35 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_call5_cst : Ref sig .tc := ⟨.hbm, 220, rfl⟩
abbrev main_call5_v0 : Ref sig .tc := ⟨.hbm, 221, rfl⟩
abbrev main_v148 : Ref sig .tc := ⟨.hbm, 222, rfl⟩
abbrev main_c_36 : Ref sig .tc := ⟨.hbm, 223, rfl⟩
abbrev main_v149 : Ref sig .tc := ⟨.hbm, 224, rfl⟩
abbrev main_v150 : Ref sig .tc := ⟨.hbm, 225, rfl⟩
abbrev main_c_37 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_cst_38 : Ref sig .tc := ⟨.hbm, 233, rfl⟩
abbrev main_v157 : Ref sig .tc := ⟨.hbm, 234, rfl⟩
abbrev main_cst_39 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_cst_40 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_cst_41 : Ref sig .tc := ⟨.hbm, 243, rfl⟩
abbrev main_call6_v0 : Ref sig .tc := ⟨.hbm, 244, rfl⟩
abbrev main_call6_v1 : Ref sig .tc := ⟨.hbm, 245, rfl⟩
abbrev main_v164 : Ref sig .tc := ⟨.hbm, 246, rfl⟩
abbrev main_c_42 : Ref sig .tc := ⟨.hbm, 247, rfl⟩
abbrev main_v165 : Ref sig .tc := ⟨.hbm, 248, rfl⟩
abbrev main_v166 : Ref sig .tc := ⟨.hbm, 249, rfl⟩
abbrev main_c_43 : Ref sig .tc := ⟨.hbm, 250, rfl⟩
abbrev main_v167 : Ref sig .tc := ⟨.hbm, 251, rfl⟩
abbrev main_v168 : Ref sig .tc := ⟨.hbm, 252, rfl⟩
abbrev main_v169 : Ref sig .tc := ⟨.hbm, 253, rfl⟩
abbrev main_v170 : Ref sig .tc := ⟨.hbm, 254, rfl⟩
abbrev main_v171 : Ref sig .tc := ⟨.hbm, 255, rfl⟩
abbrev main_v172 : Ref sig .tc := ⟨.hbm, 256, rfl⟩
abbrev main_c_44 : Ref sig .tc := ⟨.hbm, 257, rfl⟩
abbrev main_v173 : Ref sig .tc := ⟨.hbm, 258, rfl⟩
abbrev main_v174 : Ref sig .tc := ⟨.hbm, 259, rfl⟩
abbrev main_c_45 : Ref sig .tc := ⟨.hbm, 260, rfl⟩
abbrev main_v175 : Ref sig .tc := ⟨.hbm, 261, rfl⟩
abbrev main_v176 : Ref sig .tc := ⟨.hbm, 262, rfl⟩
abbrev main_v177 : Ref sig .tc := ⟨.hbm, 263, rfl⟩
abbrev main_v178 : Ref sig .tc := ⟨.hbm, 264, rfl⟩
abbrev main_v179 : Ref sig .tc := ⟨.hbm, 265, rfl⟩
abbrev main_v180 : Ref sig .tc := ⟨.hbm, 266, rfl⟩
abbrev main_v181 : Ref sig .tc := ⟨.hbm, 267, rfl⟩
abbrev main_c_46 : Ref sig .tc := ⟨.hbm, 268, rfl⟩
abbrev main_v182 : Ref sig .tc := ⟨.hbm, 269, rfl⟩
abbrev main_v183 : Ref sig .tc := ⟨.hbm, 270, rfl⟩
abbrev main_c_47 : Ref sig .tc := ⟨.hbm, 271, rfl⟩
abbrev main_v184 : Ref sig .tc := ⟨.hbm, 272, rfl⟩
abbrev main_v185 : Ref sig .tc := ⟨.hbm, 273, rfl⟩
abbrev main_v186 : Ref sig .tc := ⟨.hbm, 274, rfl⟩
abbrev main_v187 : Ref sig .tc := ⟨.hbm, 275, rfl⟩
abbrev main_v188 : Ref sig .tc := ⟨.hbm, 276, rfl⟩
abbrev main_v189 : Ref sig .tc := ⟨.hbm, 277, rfl⟩
abbrev main_v190 : Ref sig .tc := ⟨.hbm, 278, rfl⟩
abbrev main_v191 : Ref sig .tc := ⟨.hbm, 279, rfl⟩
abbrev main_cst_48 : Ref sig .tc := ⟨.hbm, 280, rfl⟩
abbrev main_v192 : Ref sig .tc := ⟨.hbm, 281, rfl⟩
abbrev main_v193 : Ref sig .tc := ⟨.hbm, 282, rfl⟩
abbrev main_v194 : Ref sig .tc := ⟨.hbm, 283, rfl⟩
abbrev main_v195 : Ref sig .tc := ⟨.hbm, 284, rfl⟩
abbrev main_v196 : Ref sig .tc := ⟨.hbm, 285, rfl⟩
abbrev main_v197 : Ref sig .tc := ⟨.hbm, 286, rfl⟩
abbrev main_call7_cst : Ref sig .tc := ⟨.hbm, 287, rfl⟩
abbrev main_call7_v0 : Ref sig .tc := ⟨.hbm, 288, rfl⟩
abbrev main_v198 : Ref sig .tc := ⟨.hbm, 289, rfl⟩
abbrev main_c_49 : Ref sig .tc := ⟨.hbm, 290, rfl⟩
abbrev main_v199 : Ref sig .tc := ⟨.hbm, 291, rfl⟩
abbrev main_v200 : Ref sig .tc := ⟨.hbm, 292, rfl⟩
abbrev main_c_50 : Ref sig .tc := ⟨.hbm, 293, rfl⟩
abbrev main_v201 : Ref sig .tc := ⟨.hbm, 294, rfl⟩
abbrev main_v202 : Ref sig .tc := ⟨.hbm, 295, rfl⟩
abbrev main_v203 : Ref sig .tc := ⟨.hbm, 296, rfl⟩
abbrev main_v204 : Ref sig .tc := ⟨.hbm, 297, rfl⟩
abbrev main_v205 : Ref sig .tc := ⟨.hbm, 298, rfl⟩
abbrev main_v206 : Ref sig .tc := ⟨.hbm, 299, rfl⟩
abbrev main_cst_51 : Ref sig .tc := ⟨.hbm, 300, rfl⟩
abbrev main_v207 : Ref sig .tc := ⟨.hbm, 301, rfl⟩
abbrev main_cst_52 : Ref sig .tc := ⟨.hbm, 302, rfl⟩
abbrev main_v208 : Ref sig .tc := ⟨.hbm, 303, rfl⟩
abbrev main_v209 : Ref sig .tc := ⟨.hbm, 304, rfl⟩
abbrev main_v210 : Ref sig .tc := ⟨.hbm, 305, rfl⟩
abbrev main_cst_53 : Ref sig .tc := ⟨.hbm, 306, rfl⟩
abbrev main_v211 : Ref sig .tc := ⟨.hbm, 307, rfl⟩
abbrev main_v212 : Ref sig .tc := ⟨.hbm, 308, rfl⟩
abbrev main_v213 : Ref sig .tc := ⟨.hbm, 309, rfl⟩
abbrev main_cst_54 : Ref sig .tc := ⟨.hbm, 310, rfl⟩
abbrev main_call8_v0 : Ref sig .tc := ⟨.hbm, 311, rfl⟩
abbrev main_call8_v1 : Ref sig .tc := ⟨.hbm, 312, rfl⟩
abbrev main_v214 : Ref sig .tc := ⟨.hbm, 313, rfl⟩
abbrev main_c_55 : Ref sig .tc := ⟨.hbm, 314, rfl⟩
abbrev main_v215 : Ref sig .tc := ⟨.hbm, 315, rfl⟩
abbrev main_v216 : Ref sig .tc := ⟨.hbm, 316, rfl⟩
abbrev main_c_56 : Ref sig .tc := ⟨.hbm, 317, rfl⟩
abbrev main_v217 : Ref sig .tc := ⟨.hbm, 318, rfl⟩
abbrev main_v218 : Ref sig .tc := ⟨.hbm, 319, rfl⟩
abbrev main_v219 : Ref sig .tc := ⟨.hbm, 320, rfl⟩
abbrev main_v220 : Ref sig .tc := ⟨.hbm, 321, rfl⟩
abbrev main_v221 : Ref sig .tc := ⟨.hbm, 322, rfl⟩
abbrev main_v222 : Ref sig .tc := ⟨.hbm, 323, rfl⟩
abbrev main_c_57 : Ref sig .tc := ⟨.hbm, 324, rfl⟩
abbrev main_v223 : Ref sig .tc := ⟨.hbm, 325, rfl⟩
abbrev main_v224 : Ref sig .tc := ⟨.hbm, 326, rfl⟩
abbrev main_c_58 : Ref sig .tc := ⟨.hbm, 327, rfl⟩
abbrev main_v225 : Ref sig .tc := ⟨.hbm, 328, rfl⟩
abbrev main_v226 : Ref sig .tc := ⟨.hbm, 329, rfl⟩
abbrev main_v227 : Ref sig .tc := ⟨.hbm, 330, rfl⟩
abbrev main_v228 : Ref sig .tc := ⟨.hbm, 331, rfl⟩
abbrev main_v229 : Ref sig .tc := ⟨.hbm, 332, rfl⟩
abbrev main_v230 : Ref sig .tc := ⟨.hbm, 333, rfl⟩
abbrev main_v231 : Ref sig .tc := ⟨.hbm, 334, rfl⟩
abbrev main_c_59 : Ref sig .tc := ⟨.hbm, 335, rfl⟩
abbrev main_v232 : Ref sig .tc := ⟨.hbm, 336, rfl⟩
abbrev main_v233 : Ref sig .tc := ⟨.hbm, 337, rfl⟩
abbrev main_c_60 : Ref sig .tc := ⟨.hbm, 338, rfl⟩
abbrev main_v234 : Ref sig .tc := ⟨.hbm, 339, rfl⟩
abbrev main_v235 : Ref sig .tc := ⟨.hbm, 340, rfl⟩
abbrev main_v236 : Ref sig .tc := ⟨.hbm, 341, rfl⟩
abbrev main_v237 : Ref sig .tc := ⟨.hbm, 342, rfl⟩
abbrev main_v238 : Ref sig .tc := ⟨.hbm, 343, rfl⟩
abbrev main_v239 : Ref sig .tc := ⟨.hbm, 344, rfl⟩
abbrev main_v240 : Ref sig .tc := ⟨.hbm, 345, rfl⟩
abbrev main_v241 : Ref sig .tc := ⟨.hbm, 346, rfl⟩
abbrev main_cst_61 : Ref sig .tc := ⟨.hbm, 347, rfl⟩
abbrev main_v242 : Ref sig .tc := ⟨.hbm, 348, rfl⟩
abbrev main_v243 : Ref sig .tc := ⟨.hbm, 349, rfl⟩
abbrev main_v244 : Ref sig .tc := ⟨.hbm, 350, rfl⟩
abbrev main_v245 : Ref sig .tc := ⟨.hbm, 351, rfl⟩
abbrev main_v246 : Ref sig .tc := ⟨.hbm, 352, rfl⟩
abbrev main_v247 : Ref sig .tc := ⟨.hbm, 353, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000 : S_.BroadcastsInDim S100000 (![] : Fin 0 → Fin S100000.rank)
  bcast_S1699989_S1699989x1_0 : S1699989.BroadcastsInDim S1699989x1 (![0] : Fin 1 → Fin S1699989x1.rank)
  bcast_S_S1699989 : S_.BroadcastsInDim S1699989 (![] : Fin 0 → Fin S1699989.rank)
  bcast_S1699989x1_S1699989x128_0_1 : S1699989x1.BroadcastsInDim S1699989x128 (![0, 1] : Fin 2 → Fin S1699989x128.rank)
  bcast_S_S100000x128 : S_.BroadcastsInDim S100000x128 (![] : Fin 0 → Fin S100000x128.rank)
  bcast_S_S10000x128 : S_.BroadcastsInDim S10000x128 (![] : Fin 0 → Fin S10000x128.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S_S10000 : S_.BroadcastsInDim S10000 (![] : Fin 0 → Fin S10000.rank)
  bcast_S1597224_S1597224x1_0 : S1597224.BroadcastsInDim S1597224x1 (![0] : Fin 1 → Fin S1597224x1.rank)
  bcast_S_S1597224 : S_.BroadcastsInDim S1597224 (![] : Fin 0 → Fin S1597224.rank)
  bcast_S1597224x1_S1597224x128_0_1 : S1597224x1.BroadcastsInDim S1597224x128 (![0, 1] : Fin 2 → Fin S1597224x128.rank)
  bcast_S1x128_S10000x128_0_1 : S1x128.BroadcastsInDim S10000x128 (![0, 1] : Fin 2 → Fin S10000x128.rank)
  bcast_S_S1000x128 : S_.BroadcastsInDim S1000x128 (![] : Fin 0 → Fin S1000x128.rank)
  bcast_S10000_S10000x1_0 : S10000.BroadcastsInDim S10000x1 (![0] : Fin 1 → Fin S10000x1.rank)
  bcast_S_S1000x1 : S_.BroadcastsInDim S1000x1 (![] : Fin 0 → Fin S1000x1.rank)
  bcast_S1000x1_S1000x128_0_1 : S1000x1.BroadcastsInDim S1000x128 (![0, 1] : Fin 2 → Fin S1000x128.rank)
  bcast_S_S1000 : S_.BroadcastsInDim S1000 (![] : Fin 0 → Fin S1000.rank)
  bcast_S798475_S798475x1_0 : S798475.BroadcastsInDim S798475x1 (![0] : Fin 1 → Fin S798475x1.rank)
  bcast_S_S798475 : S_.BroadcastsInDim S798475 (![] : Fin 0 → Fin S798475.rank)
  bcast_S798475x1_S798475x128_0_1 : S798475x1.BroadcastsInDim S798475x128 (![0, 1] : Fin 2 → Fin S798475x128.rank)
  bcast_S1x128_S1000x128_0_1 : S1x128.BroadcastsInDim S1000x128 (![0, 1] : Fin 2 → Fin S1000x128.rank)
  dot_S100000x128_S128x128_S100000x128_1_0_0_1_n_n_wf : DotDims.WF S100000x128 S128x128 S100000x128 [1] [0] [0] [1] [] []
  scatter_S100000_S1699989x1_S1699989_n_0_0_1_wf : ScatterDims.WF S100000 S1699989x1 S1699989 [] [0] [0] 1
  gather_S100000_S1699989x1_S1699989_n_0_n_n_0_1_1_wf : GatherDims.WF S100000 S1699989x1 S1699989 [] [0] [] [0] [] 1 ![1]
  gather_S100000x128_S1699989x1_S1699989x128_1_0_n_n_0_1_1128_wf : GatherDims.WF S100000x128 S1699989x1 S1699989x128 [1] [0] [] [0] [] 1 ![1, 128]
  scatter_S100000x128_S1699989x1_S1699989x128_1_0_0_1_wf : ScatterDims.WF S100000x128 S1699989x1 S1699989x128 [1] [0] [0] 1
  scatter_S10000x128_S100000x1_S100000x128_1_0_0_1_wf : ScatterDims.WF S10000x128 S100000x1 S100000x128 [1] [0] [0] 1
  scatter_S10000x1_S100000x1_S100000x1_1_0_0_1_wf : ScatterDims.WF S10000x1 S100000x1 S100000x1 [1] [0] [0] 1
  scatter_S10000_S1597224x1_S1597224_n_0_0_1_wf : ScatterDims.WF S10000 S1597224x1 S1597224 [] [0] [0] 1
  gather_S10000_S1597224x1_S1597224_n_0_n_n_0_1_1_wf : GatherDims.WF S10000 S1597224x1 S1597224 [] [0] [] [0] [] 1 ![1]
  dot_S10000x128_S128x128_S10000x128_1_0_0_1_n_n_wf : DotDims.WF S10000x128 S128x128 S10000x128 [1] [0] [0] [1] [] []
  gather_S10000x128_S1597224x1_S1597224x128_1_0_n_n_0_1_1128_wf : GatherDims.WF S10000x128 S1597224x1 S1597224x128 [1] [0] [] [0] [] 1 ![1, 128]
  scatter_S10000x128_S1597224x1_S1597224x128_1_0_0_1_wf : ScatterDims.WF S10000x128 S1597224x1 S1597224x128 [1] [0] [0] 1
  scatter_S1000x128_S10000x1_S10000x128_1_0_0_1_wf : ScatterDims.WF S1000x128 S10000x1 S10000x128 [1] [0] [0] 1
  scatter_S1000x1_S10000x1_S10000x1_1_0_0_1_wf : ScatterDims.WF S1000x1 S10000x1 S10000x1 [1] [0] [0] 1
  scatter_S1000_S798475x1_S798475_n_0_0_1_wf : ScatterDims.WF S1000 S798475x1 S798475 [] [0] [0] 1
  gather_S1000_S798475x1_S798475_n_0_n_n_0_1_1_wf : GatherDims.WF S1000 S798475x1 S798475 [] [0] [] [0] [] 1 ![1]
  dot_S1000x128_S128x128_S1000x128_1_0_0_1_n_n_wf : DotDims.WF S1000x128 S128x128 S1000x128 [1] [0] [0] [1] [] []
  gather_S1000x128_S798475x1_S798475x128_1_0_n_n_0_1_1128_wf : GatherDims.WF S1000x128 S798475x1 S798475x128 [1] [0] [] [0] [] 1 ![1, 128]
  scatter_S1000x128_S798475x1_S798475x128_1_0_0_1_wf : ScatterDims.WF S1000x128 S798475x1 S798475x128 [1] [0] [0] 1
  gather_S1000x128_S10000x1_S10000x128_1_0_n_n_0_1_1128_wf : GatherDims.WF S1000x128 S10000x1 S10000x128 [1] [0] [] [0] [] 1 ![1, 128]
  gather_S10000x128_S100000x1_S100000x128_1_0_n_n_0_1_1128_wf : GatherDims.WF S10000x128 S100000x1 S100000x128 [1] [0] [] [0] [] 1 ![1, 128]

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1699989x1_S1699989_n_0_0_1 : ScatterDims S100000 S1699989x1 S1699989 where
  updateWindowDims := []
  insertedWindowDims := [0]
  scatterDimsToOperandDims := [0]
  indexVectorDim := 1
  wf := scatter_S100000_S1699989x1_S1699989_n_0_0_1_wf
def gather_S100000_S1699989x1_S1699989_n_0_n_n_0_1_1 : GatherDims S100000 S1699989x1 S1699989 where
  offsetDims := []
  collapsedSliceDims := [0]
  operandBatchingDims := []
  startIndicesBatchingDims := []
  startIndexMap := [0]
  indexVectorDim := 1
  sliceSizes := ![1]
  wf := gather_S100000_S1699989x1_S1699989_n_0_n_n_0_1_1_wf
def gather_S100000x128_S1699989x1_S1699989x128_1_0_n_n_0_1_1128 : GatherDims S100000x128 S1699989x1 S1699989x128 where
  offsetDims := [1]
  collapsedSliceDims := [0]
  operandBatchingDims := []
  startIndicesBatchingDims := []
  startIndexMap := [0]
  indexVectorDim := 1
  sliceSizes := ![1, 128]
  wf := gather_S100000x128_S1699989x1_S1699989x128_1_0_n_n_0_1_1128_wf
def scatter_S100000x128_S1699989x1_S1699989x128_1_0_0_1 : ScatterDims S100000x128 S1699989x1 S1699989x128 where
  updateWindowDims := [1]
  insertedWindowDims := [0]
  scatterDimsToOperandDims := [0]
  indexVectorDim := 1
  wf := scatter_S100000x128_S1699989x1_S1699989x128_1_0_0_1_wf
def scatter_S10000x128_S100000x1_S100000x128_1_0_0_1 : ScatterDims S10000x128 S100000x1 S100000x128 where
  updateWindowDims := [1]
  insertedWindowDims := [0]
  scatterDimsToOperandDims := [0]
  indexVectorDim := 1
  wf := scatter_S10000x128_S100000x1_S100000x128_1_0_0_1_wf
def scatter_S10000x1_S100000x1_S100000x1_1_0_0_1 : ScatterDims S10000x1 S100000x1 S100000x1 where
  updateWindowDims := [1]
  insertedWindowDims := [0]
  scatterDimsToOperandDims := [0]
  indexVectorDim := 1
  wf := scatter_S10000x1_S100000x1_S100000x1_1_0_0_1_wf
def scatter_S10000_S1597224x1_S1597224_n_0_0_1 : ScatterDims S10000 S1597224x1 S1597224 where
  updateWindowDims := []
  insertedWindowDims := [0]
  scatterDimsToOperandDims := [0]
  indexVectorDim := 1
  wf := scatter_S10000_S1597224x1_S1597224_n_0_0_1_wf
def gather_S10000_S1597224x1_S1597224_n_0_n_n_0_1_1 : GatherDims S10000 S1597224x1 S1597224 where
  offsetDims := []
  collapsedSliceDims := [0]
  operandBatchingDims := []
  startIndicesBatchingDims := []
  startIndexMap := [0]
  indexVectorDim := 1
  sliceSizes := ![1]
  wf := gather_S10000_S1597224x1_S1597224_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S1597224x1_S1597224x128_1_0_n_n_0_1_1128 : GatherDims S10000x128 S1597224x1 S1597224x128 where
  offsetDims := [1]
  collapsedSliceDims := [0]
  operandBatchingDims := []
  startIndicesBatchingDims := []
  startIndexMap := [0]
  indexVectorDim := 1
  sliceSizes := ![1, 128]
  wf := gather_S10000x128_S1597224x1_S1597224x128_1_0_n_n_0_1_1128_wf
def scatter_S10000x128_S1597224x1_S1597224x128_1_0_0_1 : ScatterDims S10000x128 S1597224x1 S1597224x128 where
  updateWindowDims := [1]
  insertedWindowDims := [0]
  scatterDimsToOperandDims := [0]
  indexVectorDim := 1
  wf := scatter_S10000x128_S1597224x1_S1597224x128_1_0_0_1_wf
def scatter_S1000x128_S10000x1_S10000x128_1_0_0_1 : ScatterDims S1000x128 S10000x1 S10000x128 where
  updateWindowDims := [1]
  insertedWindowDims := [0]
  scatterDimsToOperandDims := [0]
  indexVectorDim := 1
  wf := scatter_S1000x128_S10000x1_S10000x128_1_0_0_1_wf
def scatter_S1000x1_S10000x1_S10000x1_1_0_0_1 : ScatterDims S1000x1 S10000x1 S10000x1 where
  updateWindowDims := [1]
  insertedWindowDims := [0]
  scatterDimsToOperandDims := [0]
  indexVectorDim := 1
  wf := scatter_S1000x1_S10000x1_S10000x1_1_0_0_1_wf
def scatter_S1000_S798475x1_S798475_n_0_0_1 : ScatterDims S1000 S798475x1 S798475 where
  updateWindowDims := []
  insertedWindowDims := [0]
  scatterDimsToOperandDims := [0]
  indexVectorDim := 1
  wf := scatter_S1000_S798475x1_S798475_n_0_0_1_wf
def gather_S1000_S798475x1_S798475_n_0_n_n_0_1_1 : GatherDims S1000 S798475x1 S798475 where
  offsetDims := []
  collapsedSliceDims := [0]
  operandBatchingDims := []
  startIndicesBatchingDims := []
  startIndexMap := [0]
  indexVectorDim := 1
  sliceSizes := ![1]
  wf := gather_S1000_S798475x1_S798475_n_0_n_n_0_1_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S1000x128_S798475x1_S798475x128_1_0_n_n_0_1_1128 : GatherDims S1000x128 S798475x1 S798475x128 where
  offsetDims := [1]
  collapsedSliceDims := [0]
  operandBatchingDims := []
  startIndicesBatchingDims := []
  startIndexMap := [0]
  indexVectorDim := 1
  sliceSizes := ![1, 128]
  wf := gather_S1000x128_S798475x1_S798475x128_1_0_n_n_0_1_1128_wf
def scatter_S1000x128_S798475x1_S798475x128_1_0_0_1 : ScatterDims S1000x128 S798475x1 S798475x128 where
  updateWindowDims := [1]
  insertedWindowDims := [0]
  scatterDimsToOperandDims := [0]
  indexVectorDim := 1
  wf := scatter_S1000x128_S798475x1_S798475x128_1_0_0_1_wf
def gather_S1000x128_S10000x1_S10000x128_1_0_n_n_0_1_1128 : GatherDims S1000x128 S10000x1 S10000x128 where
  offsetDims := [1]
  collapsedSliceDims := [0]
  operandBatchingDims := []
  startIndicesBatchingDims := []
  startIndexMap := [0]
  indexVectorDim := 1
  sliceSizes := ![1, 128]
  wf := gather_S1000x128_S10000x1_S10000x128_1_0_n_n_0_1_1128_wf
def gather_S10000x128_S100000x1_S100000x128_1_0_n_n_0_1_1128 : GatherDims S10000x128 S100000x1 S100000x128 where
  offsetDims := [1]
  collapsedSliceDims := [0]
  operandBatchingDims := []
  startIndicesBatchingDims := []
  startIndexMap := [0]
  indexVectorDim := 1
  sliceSizes := ![1, 128]
  wf := gather_S10000x128_S100000x1_S100000x128_1_0_n_n_0_1_1128_wf

class Facts : Prop extends Facts₀ where

variable [Facts]
-- ==== Proof.KernelRun.lean ====
/-
  The idealized kernel's run, with every buffer of the TensorCore read after it.

  The program is eleven kernel calls among stretches of host operations. Its run is the launch of those segments one after
  the other from the launch memory; the contents every segment leaves are a fold of the segments over the launch memory,
  and the last thread state holds every unscoped buffer at the end of that fold. Read against a final state this gives, on
  every core, each buffer the program names at the fold's last contents: the result buffer as well as the arguments.
-/
import proofs.«126120_j15796889715339_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in every final state each unscoped buffer
    of the TensorCore holds what the fold of the program's segments over the launch memory leaves there. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W31 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W31 m ρ c b)
    (hfin := fun c s' => by
      iintro ⟨⟨Hh, -⟩, HSI⟩
      unfold StableHlo.held
      imodintro
      iapply (pointsTo_read_all (Pipeline.ucRefs τ sig) (fun b => (((c : Thread nD τ)).1, b)) (W31 m ρ c) s')
      isplitl [Hh] <;> iassumption)
    (hQ := fun s h => h)

end Cert.KernelIdeal.Run

end
-- ==== Proof.Keep.lean ====
/-
  What a segment of the program leaves untouched.

  The program's buffers are numbered: the twenty-four arguments first, then one buffer per line of the program. A
  stretch of host operations writes only the buffers of its own lines, and a kernel call only its result array (it reads
  its operand arrays through windows and writes them back as it found them). So across a stretch every argument keeps
  its contents, and across a kernel call every buffer other than the call's result does.
-/
import proofs.«126120_j15796889715339_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A buffer numbered below twenty-four (an argument) is not a buffer numbered from twenty-four on (a line's result). -/
theorem ne_of_lt {r y : Ref sig .tc} (hr : r.idx.val < 24) (hy : ¬ y.idx.val < 24) : r ≠ y := fun e => hy (e ▸ hr)

/-- Closes "the stretch leaves an argument as it was": no line of the stretch writes a buffer numbered below twenty-four. -/
macro "host_keeps_args " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (ne_of_lt ‹_› (by decide))))

/-- Closes "the stretch leaves this one buffer as it was" for a buffer given by name. -/
macro "host_keeps_ref " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ## The stretches of host operations leave the arguments -/

theorem args_hostOps0 (V : Valuation τ sig (Elt F)) (r : Ref sig .tc) (hr : r.idx.val < 24) :
    StableHlo.after hostOps0 V (Proc.devRef .tc r) = V (Proc.devRef .tc r) := by host_keeps_args hostOps0
theorem args_hostOps2 (V : Valuation τ sig (Elt F)) (r : Ref sig .tc) (hr : r.idx.val < 24) :
    StableHlo.after hostOps2 V (Proc.devRef .tc r) = V (Proc.devRef .tc r) := by host_keeps_args hostOps2
theorem args_hostOps2_1 (V : Valuation τ sig (Elt F)) (r : Ref sig .tc) (hr : r.idx.val < 24) :
    StableHlo.after hostOps2_1 V (Proc.devRef .tc r) = V (Proc.devRef .tc r) := by host_keeps_args hostOps2_1
theorem args_hostOps2_2 (V : Valuation τ sig (Elt F)) (r : Ref sig .tc) (hr : r.idx.val < 24) :
    StableHlo.after hostOps2_2 V (Proc.devRef .tc r) = V (Proc.devRef .tc r) := by host_keeps_args hostOps2_2
theorem args_hostOps3 (V : Valuation τ sig (Elt F)) (r : Ref sig .tc) (hr : r.idx.val < 24) :
    StableHlo.after hostOps3 V (Proc.devRef .tc r) = V (Proc.devRef .tc r) := by host_keeps_args hostOps3
theorem args_hostOps4 (V : Valuation τ sig (Elt F)) (r : Ref sig .tc) (hr : r.idx.val < 24) :
    StableHlo.after hostOps4 V (Proc.devRef .tc r) = V (Proc.devRef .tc r) := by host_keeps_args hostOps4
theorem args_hostOps4_1 (V : Valuation τ sig (Elt F)) (r : Ref sig .tc) (hr : r.idx.val < 24) :
    StableHlo.after hostOps4_1 V (Proc.devRef .tc r) = V (Proc.devRef .tc r) := by host_keeps_args hostOps4_1
theorem args_hostOps4_2 (V : Valuation τ sig (Elt F)) (r : Ref sig .tc) (hr : r.idx.val < 24) :
    StableHlo.after hostOps4_2 V (Proc.devRef .tc r) = V (Proc.devRef .tc r) := by host_keeps_args hostOps4_2
theorem args_hostOps5 (V : Valuation τ sig (Elt F)) (r : Ref sig .tc) (hr : r.idx.val < 24) :
    StableHlo.after hostOps5 V (Proc.devRef .tc r) = V (Proc.devRef .tc r) := by host_keeps_args hostOps5
theorem args_hostOps6 (V : Valuation τ sig (Elt F)) (r : Ref sig .tc) (hr : r.idx.val < 24) :
    StableHlo.after hostOps6 V (Proc.devRef .tc r) = V (Proc.devRef .tc r) := by host_keeps_args hostOps6
theorem args_hostOps6_1 (V : Valuation τ sig (Elt F)) (r : Ref sig .tc) (hr : r.idx.val < 24) :
    StableHlo.after hostOps6_1 V (Proc.devRef .tc r) = V (Proc.devRef .tc r) := by host_keeps_args hostOps6_1
theorem args_hostOps6_2 (V : Valuation τ sig (Elt F)) (r : Ref sig .tc) (hr : r.idx.val < 24) :
    StableHlo.after hostOps6_2 V (Proc.devRef .tc r) = V (Proc.devRef .tc r) := by host_keeps_args hostOps6_2
theorem args_hostOps7 (V : Valuation τ sig (Elt F)) (r : Ref sig .tc) (hr : r.idx.val < 24) :
    StableHlo.after hostOps7 V (Proc.devRef .tc r) = V (Proc.devRef .tc r) := by host_keeps_args hostOps7
theorem args_hostOps8 (V : Valuation τ sig (Elt F)) (r : Ref sig .tc) (hr : r.idx.val < 24) :
    StableHlo.after hostOps8 V (Proc.devRef .tc r) = V (Proc.devRef .tc r) := by host_keeps_args hostOps8
theorem args_hostOps8_1 (V : Valuation τ sig (Elt F)) (r : Ref sig .tc) (hr : r.idx.val < 24) :
    StableHlo.after hostOps8_1 V (Proc.devRef .tc r) = V (Proc.devRef .tc r) := by host_keeps_args hostOps8_1
theorem args_hostOps8_2 (V : Valuation τ sig (Elt F)) (r : Ref sig .tc) (hr : r.idx.val < 24) :
    StableHlo.after hostOps8_2 V (Proc.devRef .tc r) = V (Proc.devRef .tc r) := by host_keeps_args hostOps8_2
theorem args_hostOps9 (V : Valuation τ sig (Elt F)) (r : Ref sig .tc) (hr : r.idx.val < 24) :
    StableHlo.after hostOps9 V (Proc.devRef .tc r) = V (Proc.devRef .tc r) := by host_keeps_args hostOps9
theorem args_hostOps10 (V : Valuation τ sig (Elt F)) (r : Ref sig .tc) (hr : r.idx.val < 24) :
    StableHlo.after hostOps10 V (Proc.devRef .tc r) = V (Proc.devRef .tc r) := by host_keeps_args hostOps10
theorem args_hostOps10_1 (V : Valuation τ sig (Elt F)) (r : Ref sig .tc) (hr : r.idx.val < 24) :
    StableHlo.after hostOps10_1 V (Proc.devRef .tc r) = V (Proc.devRef .tc r) := by host_keeps_args hostOps10_1
theorem args_hostOps10_2 (V : Valuation τ sig (Elt F)) (r : Ref sig .tc) (hr : r.idx.val < 24) :
    StableHlo.after hostOps10_2 V (Proc.devRef .tc r) = V (Proc.devRef .tc r) := by host_keeps_args hostOps10_2

/-! ## A kernel call leaves every buffer but its result -/

theorem reg0 (c : Dev nD) (r : Ref sig .tc) (hr : r ≠ main_v1) :
    W2 m ρ c (Proc.devRef .tc r) = W1 m ρ c (Proc.devRef .tc r) := by
  by_cases h0 : r = main_arg0
  · subst h0; exact (W2_arr m ρ c 0).trans (((dat0 (V1 m ρ) c).arrAt_in 0 rfl _).trans (A_eq0 (V1 m ρ) c 0))
  by_cases h1 : r = main_arg1
  · subst h1; exact (W2_arr m ρ c 1).trans (((dat0 (V1 m ρ) c).arrAt_in 1 rfl _).trans (A_eq0 (V1 m ρ) c 1))
  by_cases h2 : r = main_v0
  · subst h2; exact (W2_arr m ρ c 2).trans (((dat0 (V1 m ρ) c).arrAt_in 2 rfl _).trans (A_eq0 (V1 m ρ) c 2))
  exact W2_of_ne m ρ c r (fun w => by
    match w with
    | ⟨0, _⟩ => exact Ne.symm h0
    | ⟨1, _⟩ => exact Ne.symm h1
    | ⟨2, _⟩ => exact Ne.symm h2
    | ⟨3, _⟩ => exact Ne.symm hr)
theorem reg1 (c : Dev nD) (r : Ref sig .tc) (hr : r ≠ main_v2) :
    W3 m ρ c (Proc.devRef .tc r) = W2 m ρ c (Proc.devRef .tc r) := by
  by_cases h0 : r = main_v1
  · subst h0; exact (W3_arr m ρ c 0).trans (((dat1 (V2 m ρ) c).arrAt_in 0 rfl _).trans (A_eq1 (V2 m ρ) c 0))
  by_cases h1 : r = main_arg3
  · subst h1; exact (W3_arr m ρ c 1).trans (((dat1 (V2 m ρ) c).arrAt_in 1 rfl _).trans (A_eq1 (V2 m ρ) c 1))
  exact W3_of_ne m ρ c r (fun w => by
    match w with
    | ⟨0, _⟩ => exact Ne.symm h0
    | ⟨1, _⟩ => exact Ne.symm h1
    | ⟨2, _⟩ => exact Ne.symm hr)
theorem reg2 (c : Dev nD) (r : Ref sig .tc) (hr : r ≠ main_v40) :
    W7 m ρ c (Proc.devRef .tc r) = W6 m ρ c (Proc.devRef .tc r) := by
  by_cases h0 : r = main_v38
  · subst h0; exact (W7_arr m ρ c 0).trans (((dat2 (V6 m ρ) c).arrAt_in 0 rfl _).trans (A_eq2 (V6 m ρ) c 0))
  by_cases h1 : r = main_v39
  · subst h1; exact (W7_arr m ρ c 1).trans (((dat2 (V6 m ρ) c).arrAt_in 1 rfl _).trans (A_eq2 (V6 m ρ) c 1))
  exact W7_of_ne m ρ c r (fun w => by
    match w with
    | ⟨0, _⟩ => exact Ne.symm h0
    | ⟨1, _⟩ => exact Ne.symm h1
    | ⟨2, _⟩ => exact Ne.symm hr)
theorem reg3 (c : Dev nD) (r : Ref sig .tc) (hr : r ≠ main_v52) :
    W9 m ρ c (Proc.devRef .tc r) = W8 m ρ c (Proc.devRef .tc r) := by
  by_cases h0 : r = main_v51
  · subst h0; exact (W9_arr m ρ c 0).trans (((dat3 (V8 m ρ) c).arrAt_in 0 rfl _).trans (A_eq3 (V8 m ρ) c 0))
  by_cases h1 : r = main_arg5
  · subst h1; exact (W9_arr m ρ c 1).trans (((dat3 (V8 m ρ) c).arrAt_in 1 rfl _).trans (A_eq3 (V8 m ρ) c 1))
  exact W9_of_ne m ρ c r (fun w => by
    match w with
    | ⟨0, _⟩ => exact Ne.symm h0
    | ⟨1, _⟩ => exact Ne.symm h1
    | ⟨2, _⟩ => exact Ne.symm hr)
theorem reg4 (c : Dev nD) (r : Ref sig .tc) (hr : r ≠ main_v90) :
    W13 m ρ c (Proc.devRef .tc r) = W12 m ρ c (Proc.devRef .tc r) := by
  by_cases h0 : r = main_v88
  · subst h0; exact (W13_arr m ρ c 0).trans (((dat4 (V12 m ρ) c).arrAt_in 0 rfl _).trans (A_eq4 (V12 m ρ) c 0))
  by_cases h1 : r = main_v89
  · subst h1; exact (W13_arr m ρ c 1).trans (((dat4 (V12 m ρ) c).arrAt_in 1 rfl _).trans (A_eq4 (V12 m ρ) c 1))
  exact W13_of_ne m ρ c r (fun w => by
    match w with
    | ⟨0, _⟩ => exact Ne.symm h0
    | ⟨1, _⟩ => exact Ne.symm h1
    | ⟨2, _⟩ => exact Ne.symm hr)
theorem reg5 (c : Dev nD) (r : Ref sig .tc) (hr : r ≠ main_v102) :
    W15 m ρ c (Proc.devRef .tc r) = W14 m ρ c (Proc.devRef .tc r) := by
  by_cases h0 : r = main_v101
  · subst h0; exact (W15_arr m ρ c 0).trans (((dat5 (V14 m ρ) c).arrAt_in 0 rfl _).trans (A_eq5 (V14 m ρ) c 0))
  by_cases h1 : r = main_arg7
  · subst h1; exact (W15_arr m ρ c 1).trans (((dat5 (V14 m ρ) c).arrAt_in 1 rfl _).trans (A_eq5 (V14 m ρ) c 1))
  exact W15_of_ne m ρ c r (fun w => by
    match w with
    | ⟨0, _⟩ => exact Ne.symm h0
    | ⟨1, _⟩ => exact Ne.symm h1
    | ⟨2, _⟩ => exact Ne.symm hr)
theorem reg6 (c : Dev nD) (r : Ref sig .tc) (hr : r ≠ main_v140) :
    W19 m ρ c (Proc.devRef .tc r) = W18 m ρ c (Proc.devRef .tc r) := by
  by_cases h0 : r = main_v138
  · subst h0; exact (W19_arr m ρ c 0).trans (((dat6 (V18 m ρ) c).arrAt_in 0 rfl _).trans (A_eq6 (V18 m ρ) c 0))
  by_cases h1 : r = main_v139
  · subst h1; exact (W19_arr m ρ c 1).trans (((dat6 (V18 m ρ) c).arrAt_in 1 rfl _).trans (A_eq6 (V18 m ρ) c 1))
  exact W19_of_ne m ρ c r (fun w => by
    match w with
    | ⟨0, _⟩ => exact Ne.symm h0
    | ⟨1, _⟩ => exact Ne.symm h1
    | ⟨2, _⟩ => exact Ne.symm hr)
theorem reg7 (c : Dev nD) (r : Ref sig .tc) (hr : r ≠ main_v150) :
    W21 m ρ c (Proc.devRef .tc r) = W20 m ρ c (Proc.devRef .tc r) := by
  by_cases h0 : r = main_v148
  · subst h0; exact (W21_arr m ρ c 0).trans (((dat7 (V20 m ρ) c).arrAt_in 0 rfl _).trans (A_eq7 (V20 m ρ) c 0))
  by_cases h1 : r = main_arg11
  · subst h1; exact (W21_arr m ρ c 1).trans (((dat7 (V20 m ρ) c).arrAt_in 1 rfl _).trans (A_eq7 (V20 m ρ) c 1))
  exact W21_of_ne m ρ c r (fun w => by
    match w with
    | ⟨0, _⟩ => exact Ne.symm h0
    | ⟨1, _⟩ => exact Ne.symm h1
    | ⟨2, _⟩ => exact Ne.symm hr)
theorem reg8 (c : Dev nD) (r : Ref sig .tc) (hr : r ≠ main_v188) :
    W25 m ρ c (Proc.devRef .tc r) = W24 m ρ c (Proc.devRef .tc r) := by
  by_cases h0 : r = main_v186
  · subst h0; exact (W25_arr m ρ c 0).trans (((dat8 (V24 m ρ) c).arrAt_in 0 rfl _).trans (A_eq8 (V24 m ρ) c 0))
  by_cases h1 : r = main_v187
  · subst h1; exact (W25_arr m ρ c 1).trans (((dat8 (V24 m ρ) c).arrAt_in 1 rfl _).trans (A_eq8 (V24 m ρ) c 1))
  exact W25_of_ne m ρ c r (fun w => by
    match w with
    | ⟨0, _⟩ => exact Ne.symm h0
    | ⟨1, _⟩ => exact Ne.symm h1
    | ⟨2, _⟩ => exact Ne.symm hr)
theorem reg9 (c : Dev nD) (r : Ref sig .tc) (hr : r ≠ main_v198) :
    W27 m ρ c (Proc.devRef .tc r) = W26 m ρ c (Proc.devRef .tc r) := by
  by_cases h0 : r = main_v196
  · subst h0; exact (W27_arr m ρ c 0).trans (((dat9 (V26 m ρ) c).arrAt_in 0 rfl _).trans (A_eq9 (V26 m ρ) c 0))
  by_cases h1 : r = main_arg9
  · subst h1; exact (W27_arr m ρ c 1).trans (((dat9 (V26 m ρ) c).arrAt_in 1 rfl _).trans (A_eq9 (V26 m ρ) c 1))
  exact W27_of_ne m ρ c r (fun w => by
    match w with
    | ⟨0, _⟩ => exact Ne.symm h0
    | ⟨1, _⟩ => exact Ne.symm h1
    | ⟨2, _⟩ => exact Ne.symm hr)
theorem reg10 (c : Dev nD) (r : Ref sig .tc) (hr : r ≠ main_v236) :
    W31 m ρ c (Proc.devRef .tc r) = W30 m ρ c (Proc.devRef .tc r) := by
  by_cases h0 : r = main_v234
  · subst h0; exact (W31_arr m ρ c 0).trans (((dat10 (V30 m ρ) c).arrAt_in 0 rfl _).trans (A_eq10 (V30 m ρ) c 0))
  by_cases h1 : r = main_v235
  · subst h1; exact (W31_arr m ρ c 1).trans (((dat10 (V30 m ρ) c).arrAt_in 1 rfl _).trans (A_eq10 (V30 m ρ) c 1))
  exact W31_of_ne m ρ c r (fun w => by
    match w with
    | ⟨0, _⟩ => exact Ne.symm h0
    | ⟨1, _⟩ => exact Ne.symm h1
    | ⟨2, _⟩ => exact Ne.symm hr)

end Cert.KernelIdeal.Keep

end
-- ==== Proof.Args.lean ====
/-
  The arguments at every segment boundary.

  No segment of the program writes an argument: a stretch of host operations writes its own lines' buffers, a kernel call
  its result. So at every boundary between segments each argument's buffer holds what the launch memory held.
-/
import proofs.«126120_j15796889715339_1_alg».proof.Proof.Keep

set_option maxRecDepth 16384

noncomputable section

namespace Cert.KernelIdeal.Args

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

theorem at0 (r : Ref sig .tc) (hr : r.idx.val < 24) : W0 m ρ c (Proc.devRef .tc r) = m ((c : Thread nD τ).loc r) := rfl
theorem at1 (r : Ref sig .tc) (hr : r.idx.val < 24) : W1 m ρ c (Proc.devRef .tc r) = m ((c : Thread nD τ).loc r) :=
  (Keep.args_hostOps0 (W0 m ρ c) r hr).trans (at0 m ρ c r hr)
theorem at2 (r : Ref sig .tc) (hr : r.idx.val < 24) : W2 m ρ c (Proc.devRef .tc r) = m ((c : Thread nD τ).loc r) :=
  (Keep.reg0 m ρ c r (Keep.ne_of_lt hr (by decide))).trans (at1 m ρ c r hr)
theorem at3 (r : Ref sig .tc) (hr : r.idx.val < 24) : W3 m ρ c (Proc.devRef .tc r) = m ((c : Thread nD τ).loc r) :=
  (Keep.reg1 m ρ c r (Keep.ne_of_lt hr (by decide))).trans (at2 m ρ c r hr)
theorem at4 (r : Ref sig .tc) (hr : r.idx.val < 24) : W4 m ρ c (Proc.devRef .tc r) = m ((c : Thread nD τ).loc r) :=
  (Keep.args_hostOps2 (W3 m ρ c) r hr).trans (at3 m ρ c r hr)
theorem at5 (r : Ref sig .tc) (hr : r.idx.val < 24) : W5 m ρ c (Proc.devRef .tc r) = m ((c : Thread nD τ).loc r) :=
  (Keep.args_hostOps2_1 (W4 m ρ c) r hr).trans (at4 m ρ c r hr)
theorem at6 (r : Ref sig .tc) (hr : r.idx.val < 24) : W6 m ρ c (Proc.devRef .tc r) = m ((c : Thread nD τ).loc r) :=
  (Keep.args_hostOps2_2 (W5 m ρ c) r hr).trans (at5 m ρ c r hr)
theorem at7 (r : Ref sig .tc) (hr : r.idx.val < 24) : W7 m ρ c (Proc.devRef .tc r) = m ((c : Thread nD τ).loc r) :=
  (Keep.reg2 m ρ c r (Keep.ne_of_lt hr (by decide))).trans (at6 m ρ c r hr)
theorem at8 (r : Ref sig .tc) (hr : r.idx.val < 24) : W8 m ρ c (Proc.devRef .tc r) = m ((c : Thread nD τ).loc r) :=
  (Keep.args_hostOps3 (W7 m ρ c) r hr).trans (at7 m ρ c r hr)
theorem at9 (r : Ref sig .tc) (hr : r.idx.val < 24) : W9 m ρ c (Proc.devRef .tc r) = m ((c : Thread nD τ).loc r) :=
  (Keep.reg3 m ρ c r (Keep.ne_of_lt hr (by decide))).trans (at8 m ρ c r hr)
theorem at10 (r : Ref sig .tc) (hr : r.idx.val < 24) : W10 m ρ c (Proc.devRef .tc r) = m ((c : Thread nD τ).loc r) :=
  (Keep.args_hostOps4 (W9 m ρ c) r hr).trans (at9 m ρ c r hr)
theorem at11 (r : Ref sig .tc) (hr : r.idx.val < 24) : W11 m ρ c (Proc.devRef .tc r) = m ((c : Thread nD τ).loc r) :=
  (Keep.args_hostOps4_1 (W10 m ρ c) r hr).trans (at10 m ρ c r hr)
theorem at12 (r : Ref sig .tc) (hr : r.idx.val < 24) : W12 m ρ c (Proc.devRef .tc r) = m ((c : Thread nD τ).loc r) :=
  (Keep.args_hostOps4_2 (W11 m ρ c) r hr).trans (at11 m ρ c r hr)
theorem at13 (r : Ref sig .tc) (hr : r.idx.val < 24) : W13 m ρ c (Proc.devRef .tc r) = m ((c : Thread nD τ).loc r) :=
  (Keep.reg4 m ρ c r (Keep.ne_of_lt hr (by decide))).trans (at12 m ρ c r hr)
theorem at14 (r : Ref sig .tc) (hr : r.idx.val < 24) : W14 m ρ c (Proc.devRef .tc r) = m ((c : Thread nD τ).loc r) :=
  (Keep.args_hostOps5 (W13 m ρ c) r hr).trans (at13 m ρ c r hr)
theorem at15 (r : Ref sig .tc) (hr : r.idx.val < 24) : W15 m ρ c (Proc.devRef .tc r) = m ((c : Thread nD τ).loc r) :=
  (Keep.reg5 m ρ c r (Keep.ne_of_lt hr (by decide))).trans (at14 m ρ c r hr)
theorem at16 (r : Ref sig .tc) (hr : r.idx.val < 24) : W16 m ρ c (Proc.devRef .tc r) = m ((c : Thread nD τ).loc r) :=
  (Keep.args_hostOps6 (W15 m ρ c) r hr).trans (at15 m ρ c r hr)
theorem at17 (r : Ref sig .tc) (hr : r.idx.val < 24) : W17 m ρ c (Proc.devRef .tc r) = m ((c : Thread nD τ).loc r) :=
  (Keep.args_hostOps6_1 (W16 m ρ c) r hr).trans (at16 m ρ c r hr)
theorem at18 (r : Ref sig .tc) (hr : r.idx.val < 24) : W18 m ρ c (Proc.devRef .tc r) = m ((c : Thread nD τ).loc r) :=
  (Keep.args_hostOps6_2 (W17 m ρ c) r hr).trans (at17 m ρ c r hr)
theorem at19 (r : Ref sig .tc) (hr : r.idx.val < 24) : W19 m ρ c (Proc.devRef .tc r) = m ((c : Thread nD τ).loc r) :=
  (Keep.reg6 m ρ c r (Keep.ne_of_lt hr (by decide))).trans (at18 m ρ c r hr)
theorem at20 (r : Ref sig .tc) (hr : r.idx.val < 24) : W20 m ρ c (Proc.devRef .tc r) = m ((c : Thread nD τ).loc r) :=
  (Keep.args_hostOps7 (W19 m ρ c) r hr).trans (at19 m ρ c r hr)
theorem at21 (r : Ref sig .tc) (hr : r.idx.val < 24) : W21 m ρ c (Proc.devRef .tc r) = m ((c : Thread nD τ).loc r) :=
  (Keep.reg7 m ρ c r (Keep.ne_of_lt hr (by decide))).trans (at20 m ρ c r hr)
theorem at22 (r : Ref sig .tc) (hr : r.idx.val < 24) : W22 m ρ c (Proc.devRef .tc r) = m ((c : Thread nD τ).loc r) :=
  (Keep.args_hostOps8 (W21 m ρ c) r hr).trans (at21 m ρ c r hr)
theorem at23 (r : Ref sig .tc) (hr : r.idx.val < 24) : W23 m ρ c (Proc.devRef .tc r) = m ((c : Thread nD τ).loc r) :=
  (Keep.args_hostOps8_1 (W22 m ρ c) r hr).trans (at22 m ρ c r hr)
theorem at24 (r : Ref sig .tc) (hr : r.idx.val < 24) : W24 m ρ c (Proc.devRef .tc r) = m ((c : Thread nD τ).loc r) :=
  (Keep.args_hostOps8_2 (W23 m ρ c) r hr).trans (at23 m ρ c r hr)
theorem at25 (r : Ref sig .tc) (hr : r.idx.val < 24) : W25 m ρ c (Proc.devRef .tc r) = m ((c : Thread nD τ).loc r) :=
  (Keep.reg8 m ρ c r (Keep.ne_of_lt hr (by decide))).trans (at24 m ρ c r hr)
theorem at26 (r : Ref sig .tc) (hr : r.idx.val < 24) : W26 m ρ c (Proc.devRef .tc r) = m ((c : Thread nD τ).loc r) :=
  (Keep.args_hostOps9 (W25 m ρ c) r hr).trans (at25 m ρ c r hr)
theorem at27 (r : Ref sig .tc) (hr : r.idx.val < 24) : W27 m ρ c (Proc.devRef .tc r) = m ((c : Thread nD τ).loc r) :=
  (Keep.reg9 m ρ c r (Keep.ne_of_lt hr (by decide))).trans (at26 m ρ c r hr)
theorem at28 (r : Ref sig .tc) (hr : r.idx.val < 24) : W28 m ρ c (Proc.devRef .tc r) = m ((c : Thread nD τ).loc r) :=
  (Keep.args_hostOps10 (W27 m ρ c) r hr).trans (at27 m ρ c r hr)
theorem at29 (r : Ref sig .tc) (hr : r.idx.val < 24) : W29 m ρ c (Proc.devRef .tc r) = m ((c : Thread nD τ).loc r) :=
  (Keep.args_hostOps10_1 (W28 m ρ c) r hr).trans (at28 m ρ c r hr)
theorem at30 (r : Ref sig .tc) (hr : r.idx.val < 24) : W30 m ρ c (Proc.devRef .tc r) = m ((c : Thread nD τ).loc r) :=
  (Keep.args_hostOps10_2 (W29 m ρ c) r hr).trans (at29 m ρ c r hr)
theorem at31 (r : Ref sig .tc) (hr : r.idx.val < 24) : W31 m ρ c (Proc.devRef .tc r) = m ((c : Thread nD τ).loc r) :=
  (Keep.reg10 m ρ c r (Keep.ne_of_lt hr (by decide))).trans (at30 m ρ c r hr)

end Cert.KernelIdeal.Args

end
-- ==== Proof.Misc.lean ====
/-
  The short stretches of host operations between the kernel calls: the bias of the first layer laid out as a row; the two
  poolings (the mean of the features over every cluster: their sum, over the larger of the cluster's size and one); the two
  unpoolings (a level's features plus the coarser level's features of each node's cluster); and the all-ones edge weights
  of the two downward layers. The kernel's program and the reference apply the same operations to the same arrays. A
  buffer a later stretch reads again is carried across the segments in between, none of which writes it.
-/
import proofs.«126120_j15796889715339_1_alg».proof.Proof.Args
import proofs.«126120_j15796889715339_1_alg».proof.Proof.RefRead

set_option maxRecDepth 16384

noncomputable section

namespace Cert.KernelIdeal.Misc

open Cert.KernelIdeal Cert.KernelIdeal.Gen Cert.KernelIdeal.Keep
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

theorem v0_eq : W1 m ρ c (Proc.devRef .tc main_v0) = shapeCast S1x128 (m ((c : Thread nD τ).loc main_arg2)) shapeCasts_S128_S1x128 := by
  show StableHlo.after hostOps0 (W0 m ρ c) (Proc.devRef .tc main_v0) = _
  dsimp only [hostOps0]
  after_results
  rfl

/-- The first pooling: the finest level's features averaged over the clusters of the middle level. -/
theorem pool1_of (e40 : W7 m ρ c (Proc.devRef .tc main_v40) = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg13)) (m ((c : Thread nD τ).loc main_arg14)) (m ((c : Thread nD τ).loc main_arg15))) :
    W8 m ρ c (Proc.devRef .tc main_v51) = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg13)) (m ((c : Thread nD τ).loc main_arg14)) (m ((c : Thread nD τ).loc main_arg15)) (m ((c : Thread nD τ).loc main_arg22)) := by
  have e22 := Args.at7 m ρ c main_arg22 (by decide)
  show StableHlo.after hostOps3 (W7 m ρ c) (Proc.devRef .tc main_v51) = _
  generalize W7 m ρ c = W at e40 e22 ⊢
  dsimp only [hostOps3]
  after_results_simp
  rw [e40, e22]
  rfl

/-- The second pooling: the middle level's features averaged over the clusters of the coarsest level. -/
theorem pool2_of (e90 : W13 m ρ c (Proc.devRef .tc main_v90) = val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg22))) :
    W14 m ρ c (Proc.devRef .tc main_v101) = val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg22)) (m ((c : Thread nD τ).loc main_arg23)) := by
  have e23 := Args.at13 m ρ c main_arg23 (by decide)
  show StableHlo.after hostOps5 (W13 m ρ c) (Proc.devRef .tc main_v101) = _
  generalize W13 m ρ c = W at e90 e23 ⊢
  dsimp only [hostOps5]
  after_results_simp
  rw [e90, e23]
  rfl

/-- The first unpooling: the middle level's features plus the coarsest level's features of each cluster's cluster. -/
theorem unpool2_of (e90 : W19 m ρ c (Proc.devRef .tc main_v90) = val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg22)))
    (e140 : W19 m ρ c (Proc.devRef .tc main_v140) = val_main_v148 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))) :
    W20 m ρ c (Proc.devRef .tc main_v148) = val_main_v156 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  have e23 := Args.at19 m ρ c main_arg23 (by decide)
  show StableHlo.after hostOps7 (W19 m ρ c) (Proc.devRef .tc main_v148) = _
  generalize W19 m ρ c = W at e90 e140 e23 ⊢
  dsimp only [hostOps7]
  after_results_simp
  rw [e90, e140, e23]
  rfl

/-- The middle graph's edge weights for the downward layer: all ones. -/
theorem ones20 :
    W20 m ρ c (Proc.devRef .tc main_v149) = (broadcastInDim S1597224 ![] Facts₀.bcast_S_S1597224 (constant (F := Ideal) S_ .f32 0x3F800000#32)) := by

  show StableHlo.after hostOps7 (W19 m ρ c) (Proc.devRef .tc main_v149) = _
  generalize W19 m ρ c = W
  dsimp only [hostOps7]
  after_results_simp

/-- The second unpooling: the finest level's features plus the middle level's features of each node's cluster. -/
theorem unpool1_of (e40 : W25 m ρ c (Proc.devRef .tc main_v40) = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg13)) (m ((c : Thread nD τ).loc main_arg14)) (m ((c : Thread nD τ).loc main_arg15)))
    (e188 : W25 m ρ c (Proc.devRef .tc main_v188) = val_main_v198 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))) :
    W26 m ρ c (Proc.devRef .tc main_v196) = val_main_v206 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  have e22 := Args.at25 m ρ c main_arg22 (by decide)
  show StableHlo.after hostOps9 (W25 m ρ c) (Proc.devRef .tc main_v196) = _
  generalize W25 m ρ c = W at e40 e188 e22 ⊢
  dsimp only [hostOps9]
  after_results_simp
  rw [e40, e188, e22]
  rfl

/-- The finest graph's edge weights for the downward layer: all ones. -/
theorem ones26 :
    W26 m ρ c (Proc.devRef .tc main_v197) = (broadcastInDim S1699989 ![] Facts₀.bcast_S_S1699989 (constant (F := Ideal) S_ .f32 0x3F800000#32)) := by

  show StableHlo.after hostOps9 (W25 m ρ c) (Proc.devRef .tc main_v197) = _
  generalize W25 m ρ c = W
  dsimp only [hostOps9]
  after_results_simp

/-- The middle level's features, left by the fifth kernel call, are still there when the first unpooling reads them. -/
theorem v90_carry : W19 m ρ c (Proc.devRef .tc main_v90) = W13 m ρ c (Proc.devRef .tc main_v90) :=
  calc W19 m ρ c (Proc.devRef .tc main_v90)
    _ = W18 m ρ c (Proc.devRef .tc main_v90) := Keep.reg6 m ρ c main_v90 (by decide)
    _ = W17 m ρ c (Proc.devRef .tc main_v90) := (show StableHlo.after hostOps6_2 (W17 m ρ c) (Proc.devRef .tc main_v90) = W17 m ρ c (Proc.devRef .tc main_v90) by host_keeps_ref hostOps6_2)
    _ = W16 m ρ c (Proc.devRef .tc main_v90) := (show StableHlo.after hostOps6_1 (W16 m ρ c) (Proc.devRef .tc main_v90) = W16 m ρ c (Proc.devRef .tc main_v90) by host_keeps_ref hostOps6_1)
    _ = W15 m ρ c (Proc.devRef .tc main_v90) := (show StableHlo.after hostOps6 (W15 m ρ c) (Proc.devRef .tc main_v90) = W15 m ρ c (Proc.devRef .tc main_v90) by host_keeps_ref hostOps6)
    _ = W14 m ρ c (Proc.devRef .tc main_v90) := Keep.reg5 m ρ c main_v90 (by decide)
    _ = W13 m ρ c (Proc.devRef .tc main_v90) := (show StableHlo.after hostOps5 (W13 m ρ c) (Proc.devRef .tc main_v90) = W13 m ρ c (Proc.devRef .tc main_v90) by host_keeps_ref hostOps5)

/-- The finest level's features, left by the third kernel call, are still there when the second unpooling reads them. -/
theorem v40_carry : W25 m ρ c (Proc.devRef .tc main_v40) = W7 m ρ c (Proc.devRef .tc main_v40) :=
  calc W25 m ρ c (Proc.devRef .tc main_v40)
    _ = W24 m ρ c (Proc.devRef .tc main_v40) := Keep.reg8 m ρ c main_v40 (by decide)
    _ = W23 m ρ c (Proc.devRef .tc main_v40) := (show StableHlo.after hostOps8_2 (W23 m ρ c) (Proc.devRef .tc main_v40) = W23 m ρ c (Proc.devRef .tc main_v40) by host_keeps_ref hostOps8_2)
    _ = W22 m ρ c (Proc.devRef .tc main_v40) := (show StableHlo.after hostOps8_1 (W22 m ρ c) (Proc.devRef .tc main_v40) = W22 m ρ c (Proc.devRef .tc main_v40) by host_keeps_ref hostOps8_1)
    _ = W21 m ρ c (Proc.devRef .tc main_v40) := (show StableHlo.after hostOps8 (W21 m ρ c) (Proc.devRef .tc main_v40) = W21 m ρ c (Proc.devRef .tc main_v40) by host_keeps_ref hostOps8)
    _ = W20 m ρ c (Proc.devRef .tc main_v40) := Keep.reg7 m ρ c main_v40 (by decide)
    _ = W19 m ρ c (Proc.devRef .tc main_v40) := (show StableHlo.after hostOps7 (W19 m ρ c) (Proc.devRef .tc main_v40) = W19 m ρ c (Proc.devRef .tc main_v40) by host_keeps_ref hostOps7)
    _ = W18 m ρ c (Proc.devRef .tc main_v40) := Keep.reg6 m ρ c main_v40 (by decide)
    _ = W17 m ρ c (Proc.devRef .tc main_v40) := (show StableHlo.after hostOps6_2 (W17 m ρ c) (Proc.devRef .tc main_v40) = W17 m ρ c (Proc.devRef .tc main_v40) by host_keeps_ref hostOps6_2)
    _ = W16 m ρ c (Proc.devRef .tc main_v40) := (show StableHlo.after hostOps6_1 (W16 m ρ c) (Proc.devRef .tc main_v40) = W16 m ρ c (Proc.devRef .tc main_v40) by host_keeps_ref hostOps6_1)
    _ = W15 m ρ c (Proc.devRef .tc main_v40) := (show StableHlo.after hostOps6 (W15 m ρ c) (Proc.devRef .tc main_v40) = W15 m ρ c (Proc.devRef .tc main_v40) by host_keeps_ref hostOps6)
    _ = W14 m ρ c (Proc.devRef .tc main_v40) := Keep.reg5 m ρ c main_v40 (by decide)
    _ = W13 m ρ c (Proc.devRef .tc main_v40) := (show StableHlo.after hostOps5 (W13 m ρ c) (Proc.devRef .tc main_v40) = W13 m ρ c (Proc.devRef .tc main_v40) by host_keeps_ref hostOps5)
    _ = W12 m ρ c (Proc.devRef .tc main_v40) := Keep.reg4 m ρ c main_v40 (by decide)
    _ = W11 m ρ c (Proc.devRef .tc main_v40) := (show StableHlo.after hostOps4_2 (W11 m ρ c) (Proc.devRef .tc main_v40) = W11 m ρ c (Proc.devRef .tc main_v40) by host_keeps_ref hostOps4_2)
    _ = W10 m ρ c (Proc.devRef .tc main_v40) := (show StableHlo.after hostOps4_1 (W10 m ρ c) (Proc.devRef .tc main_v40) = W10 m ρ c (Proc.devRef .tc main_v40) by host_keeps_ref hostOps4_1)
    _ = W9 m ρ c (Proc.devRef .tc main_v40) := (show StableHlo.after hostOps4 (W9 m ρ c) (Proc.devRef .tc main_v40) = W9 m ρ c (Proc.devRef .tc main_v40) by host_keeps_ref hostOps4)
    _ = W8 m ρ c (Proc.devRef .tc main_v40) := Keep.reg3 m ρ c main_v40 (by decide)
    _ = W7 m ρ c (Proc.devRef .tc main_v40) := (show StableHlo.after hostOps3 (W7 m ρ c) (Proc.devRef .tc main_v40) = W7 m ρ c (Proc.devRef .tc main_v40) by host_keeps_ref hostOps3)

/-- The all-ones weights cross the kernel call between the stretch that makes them and the stretch that reads them. -/
theorem v149_carry : W21 m ρ c (Proc.devRef .tc main_v149) = W20 m ρ c (Proc.devRef .tc main_v149) :=
  calc W21 m ρ c (Proc.devRef .tc main_v149)
    _ = W20 m ρ c (Proc.devRef .tc main_v149) := Keep.reg7 m ρ c main_v149 (by decide)

/-- The all-ones weights cross the kernel call between the stretch that makes them and the stretch that reads them. -/
theorem v197_carry : W27 m ρ c (Proc.devRef .tc main_v197) = W26 m ρ c (Proc.devRef .tc main_v197) :=
  calc W27 m ρ c (Proc.devRef .tc main_v197)
    _ = W26 m ρ c (Proc.devRef .tc main_v197) := Keep.reg9 m ρ c main_v197 (by decide)

end Cert.KernelIdeal.Misc

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.LibHostMatmulNN.lean ====
/-
  A host program's matrix product `A · B` and a vector broadcast along the rows of a matrix, read at an index on the
  extended reals.

  `stablehlo.dot_general` of an `[M, K]` by a `[K, N]` operand — the left operand's last axis contracted with the right
  operand's first, no batch axes (jnp `x @ W`; dimension numbers `[1] x [0]`, free axes `[0]` and `[1]`) — is, at
  `(i, j)`, the sum over `k : Fin K` of `A(i, k) · B(k, j)`: the host's schedule of the additions does not matter on
  the extended reals. Stated for ANY record of dimension numbers with those six lists (each hypothesis closed by `rfl`
  at a printed record); imports only the Idealize library. `stablehlo.broadcast_in_dim` of a vector `[b]` to `[a, b]` along axis 1 (jnp `broadcast_to` of a
  bias or of one row of features to every row) reads, at `(p, c)`, the vector at `c`.
-/
import Idealize.ShloMosaic.Lib.ValueIdx
import Idealize.ShloMosaic.Lib.Pipeline.Value
import Idealize.ShloMosaic.PureOps.Ideal.Laws

noncomputable section

open scoped BigOperators

namespace Cert.LibHostMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- The host's `A · B`, at `(i, j)`, is `Σ_k A[i, k] · B[k, j]`. -/
theorem hostDot_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    Host.dotGeneral d prec A B (ix2 i j) = ∑ k : Fin K, A (ix2 i k) * B (ix2 k j) := by
  have hr := contr_rank d hlc
  have hs := contr_size d hlc
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

/-- A vector `[b]` broadcast to `[a, b]` along the rows reads, at `(p, c)`, the vector at `c`. -/
theorem broadcastInDim_b_ab_apply {α : Type} {a b : ℕ} (dims : Fin 1 → Fin 2)
    (h : (⟨1, ![b]⟩ : Shape).BroadcastsInDim ⟨2, ![a, b]⟩ dims) (hd : dims 0 = 1)
    (v : (⟨1, ![b]⟩ : Shape).Idx → α) (p : Fin a) (c : Fin b) :
    broadcastInDim ⟨2, ![a, b]⟩ dims h v (ix2 p c) = v (ix1 c) := by
  refine broadcastInDim_apply dims h v (ix2 p c) (ix1 c) fun ax => ?_
  match ax with
  | ⟨0, _⟩ =>
    show c.val = if b = 1 then 0 else (ix2 p c (dims 0)).val
    rw [hd]
    show c.val = if b = 1 then 0 else c.val
    split
    · have := c.isLt; omega
    · rfl

end Cert.LibHostMatmulNN

end
-- ==== Proof.BlockOps.lean ====
/-
  Blocks of rows of a matrix, read at an index on the extended reals.

  A kernel that walks a matrix `X : [R, 128]` in tiles of `T` rows computes, in each tile, a function of the tile's rows only.
  The two functions met here are the product with a square weight matrix, `(X · W)(i, j) = Σ_k X(i, k) · W(k, j)`, whose row
  `i` depends on row `i` of `X` alone, and the addition of a bias row, `X(i, j) + b(0, j)`, followed or not by a
  maximum with zero. Each is stated once for a tile (the kernel's body) and once for the whole matrix (the host's
  operation), both as the same expression in the entries of the operands.
-/
import Idealize.ShloMosaic.Lib.ValueIdx
import Idealize.ShloMosaic.Lib.Pipeline.Value
import Idealize.ShloMosaic.Lib.ValueLayout
import Idealize.ShloMosaic.PureOps.Ideal.Laws
import proofs.«126120_j15796889715339_1_alg».proof.Proof.LibMatmulNN
import proofs.«126120_j15796889715339_1_alg».proof.Proof.LibHostMatmulNN

noncomputable section

open scoped BigOperators

namespace Cert.BlockOps

open Idealize.ShloMosaic Idealize.ShloMosaic.ValueIdx

variable {M : Nat}

/-- The body's product of a tile with the weights: rounding both operands to a narrower format first changes nothing on the
    extended reals, and the product into a zero accumulator is the sum over the contracted axis. -/
theorem tile_matmul (d : DotDims ⟨2, ![M, 128]⟩ ⟨2, ![128, 128]⟩ ⟨2, ![M, 128]⟩)
    (hlc : d.lhsContracting = [1]) (hrc : d.rhsContracting = [0])
    (hln : d.lhsNonContracting = [0]) (hrn : d.rhsNonContracting = [1])
    (hlb : d.lhsBatch = []) (hrb : d.rhsBatch = [])
    (x : FVec Ideal ⟨2, ![M, 128]⟩ .f32) (w : FVec Ideal ⟨2, ![128, 128]⟩ .f32)
    (h1 : FTy.bits .bf16 < FTy.bits .f32) (p : Fin M) (q : Fin 128) :
    matmul d none (truncf .bf16 x h1) (truncf .bf16 w h1) (constant ⟨2, ![M, 128]⟩ .f32 0x00000000#32) (ix2 p q)
      = ∑ k : Fin 128, x (ix2 p k) * w (ix2 k q) :=
  Cert.LibMatmulNN.matmul_nn_apply d hlc hrc hln hrn hlb hrb none (truncf .bf16 x h1) (truncf .bf16 w h1) p q

/-- The host's product of the whole matrix with the weights, at `(i, j)`. -/
theorem host_matmul (d : DotDims ⟨2, ![M, 128]⟩ ⟨2, ![128, 128]⟩ ⟨2, ![M, 128]⟩)
    (hlc : d.lhsContracting = [1]) (hrc : d.rhsContracting = [0])
    (hln : d.lhsNonContracting = [0]) (hrn : d.rhsNonContracting = [1])
    (hlb : d.lhsBatch = []) (hrb : d.rhsBatch = [])
    (x : FVec Ideal ⟨2, ![M, 128]⟩ .f32) (w : FVec Ideal ⟨2, ![128, 128]⟩ .f32) (i : Fin M) (j : Fin 128) :
    Host.dotGeneral d none x w (ix2 i j) = ∑ k : Fin 128, x (ix2 i k) * w (ix2 k j) :=
  Cert.LibHostMatmulNN.hostDot_nn_apply d hlc hrc hln hrn hlb hrb none x w i j

/-- The host's broadcast of a bias row `[1, 128]` down the rows of a matrix, at `(i, j)`: the row's entry `j`. -/
theorem host_row_bcast {α : Type} (dims : Fin 2 → Fin 2)
    (h : (⟨2, ![1, 128]⟩ : Shape).BroadcastsInDim ⟨2, ![M, 128]⟩ dims) (hd : dims 1 = 1)
    (b : (⟨2, ![1, 128]⟩ : Shape).Idx → α) (i : Fin M) (j : Fin 128) :
    broadcastInDim ⟨2, ![M, 128]⟩ dims h b (ix2 i j) = b (ix2 (0 : Fin 1) j) := by
  refine broadcastInDim_apply dims h b (ix2 i j) (ix2 (0 : Fin 1) j) fun a => ?_
  match a with
  | ⟨0, _⟩ => rfl
  | ⟨1, _⟩ =>
    show j.val = if (128 : Nat) = 1 then 0 else (ix2 i j (dims 1)).val
    rw [hd]; rfl

/-- The host's broadcast of a scalar to any shape, at any index: the scalar. -/
theorem host_scalar_bcast {α : Type} {s : Shape} (dims : Fin 0 → Fin s.rank)
    (h : (⟨0, ![]⟩ : Shape).BroadcastsInDim s dims) (v : (⟨0, ![]⟩ : Shape).Idx → α) (j : s.Idx) (k : (⟨0, ![]⟩ : Shape).Idx) :
    broadcastInDim s dims h v j = v k :=
  broadcastInDim_apply dims h v j k fun a => a.elim0

/-- A vector `[128]` laid out as a row `[1, 128]`: a reshape and a broadcast along a new leading axis are the same row. -/
theorem row_of_vec {α : Type} (x : (⟨1, ![128]⟩ : Shape).Idx → α)
    (hc : (⟨1, ![128]⟩ : Shape).ShapeCasts ⟨2, ![1, 128]⟩) (dims : Fin 1 → Fin 2)
    (hb : (⟨1, ![128]⟩ : Shape).BroadcastsInDim ⟨2, ![1, 128]⟩ dims) (hd : dims 0 = 1) :
    shapeCast ⟨2, ![1, 128]⟩ x hc = broadcastInDim ⟨2, ![1, 128]⟩ dims hb x := by
  funext y
  obtain ⟨u, j, rfl⟩ : ∃ (u : Fin 1) (j : Fin 128), y = ix2 u j := ⟨y 0, y 1, eq_ix2 y⟩
  rw [shapeCast_a_1a_apply, Cert.LibHostMatmulNN.broadcastInDim_b_ab_apply dims hb hd]

end Cert.BlockOps

end
-- ==== Proof.Region0.lean ====
/-
  The first kernel call: the product of a matrix of 100000 rows with a square weight matrix plus a bias row, in 50 tiles of
  2000 rows. Row `i` of the result depends on row `i` of the left operand only, so the tile that holds row `i` computes it
  in full, and the array the call leaves is the whole product with the bias row added down the rows.
-/
import proofs.«126120_j15796889715339_1_alg».proof.Proof.Gen.KernelIdeal.Frame
import proofs.«126120_j15796889715339_1_alg».proof.Proof.Gen.ReferenceIdeal
import proofs.«126120_j15796889715339_1_alg».proof.Proof.BlockOps

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The product of the whole matrix with the weights plus the bias row down the rows, as the host computes them. -/
def G (X : FVec Ideal S100000x128 .f32) (W : FVec Ideal S128x128 .f32) (b : FVec Ideal S1x128 .f32) : FVec Ideal S100000x128 .f32 :=
  addf (Host.dotGeneral Cert.ReferenceIdeal.dot_S100000x128_S128x128_S100000x128_1_0_0_1_n_n none X W) (broadcastInDim Cert.ReferenceIdeal.S100000x128 ![0, 1] Cert.ReferenceIdeal.Facts₀.bcast_S1x128_S100000x128_0_1 b)

theorem G_apply (X : FVec Ideal S100000x128 .f32) (W : FVec Ideal S128x128 .f32) (b : FVec Ideal S1x128 .f32) (i : Fin 100000) (j : Fin 128) :
    G X W b (ix2 i j) = (∑ k : Fin 128, X (ix2 i k) * W (ix2 k j)) + b (ix2 (0 : Fin 1) j) := by
  unfold G
  show Host.dotGeneral Cert.ReferenceIdeal.dot_S100000x128_S128x128_S100000x128_1_0_0_1_n_n none X W (ix2 i j) + broadcastInDim _ ![0, 1] Cert.ReferenceIdeal.Facts₀.bcast_S1x128_S100000x128_0_1 b (ix2 i j) = _
  rw [Cert.BlockOps.host_matmul _ rfl rfl rfl rfl rfl rfl, Cert.BlockOps.host_row_bcast _ _ rfl]

/-- The body's result on a tile, entry by entry. -/
theorem pay_apply (x : Vec Ideal S2000x128 .f32) (w : Vec Ideal S128x128 .f32) (b : Vec Ideal S1x128 .f32) (p : Fin 2000) (q : Fin 128) :
    k0_pay1 x w b (ix2 p q) = (∑ k : Fin 128, x (ix2 p k) * w (ix2 k q)) + b (ix2 (0 : Fin 1) q) := by
  unfold k0_pay1
  rw [shapeCast_self]
  show matmul (F := Ideal) dot_S2000x128_S128x128_S2000x128_1_0_0_1_n_n none (truncf .bf16 x bitsLt_bf16_f32) (truncf .bf16 w bitsLt_bf16_f32) (constant S2000x128 .f32 0x00000000#32) (ix2 p q)
    + broadcastTo S2000x128 b broadcasts_S1x128_S2000x128 (ix2 p q) = _
  rw [Cert.BlockOps.tile_matmul dot_S2000x128_S128x128_S2000x128_1_0_0_1_n_n rfl rfl rfl rfl rfl rfl x w bitsLt_bf16_f32 p q, broadcastTo_1b_ab_apply]

/-- The index maps over the grid: the left operand's tile and the result's tile move together down the rows, one tile per
    point, and every other operand has a single tile. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (1 : Fin 2) = 0
    ∧ win0_3.index t (0 : Fin 2) ≤ 49 :=
  (by decide +kernel : ∀ t : Fin grid0.N, _)

/-- Every tile of the result is some point's. -/
theorem idx_onto : ∀ q0 : Fin 50, ∃ t : Fin cfg0.N, win0_3.index t = ![q0.val, 0] :=
  (by decide +kernel : ∀ q0 : Fin 50, ∃ t : Fin grid0.N, win0_3.index t = ![q0.val, 0])

/-- An entry of the left operand's tile at point `t` is the entry of the array in the tile's row range. -/
theorem read0 (c : Dev nD) (t : Fin cfg0.N) (p : Fin 2000) (k : Fin 128) (h : win0_3.index t (0 : Fin 2) * 2000 + p.val < 100000) :
    iblk0 V c 0 t (ix2 p k) = (V c main_arg0 : FVec Ideal S100000x128 .f32) (ix2 ⟨win0_3.index t (0 : Fin 2) * 2000 + p.val, h⟩ k) := by
  obtain ⟨e0, e1, e2, e3, e4, e5, e6, e7⟩ := idx_facts t
  show V c main_arg0 (((cfg0.win 0).blk t).view.emb (ix2 p k)) = _
  refine congrArg _ (funext fun a => Fin.ext ?_)
  match a with
  | ⟨0, _⟩ => show win0_0.index t (0 : Fin 2) * 2000 + 1 * p.val = win0_3.index t (0 : Fin 2) * 2000 + p.val; omega
  | ⟨1, _⟩ => show win0_0.index t (1 : Fin 2) * 128 + 1 * k.val = k.val; omega

/-- The weights' one tile is the whole array. -/
theorem read1 (c : Dev nD) (t : Fin cfg0.N) (k q : Fin 128) :
    iblk0 V c 1 t (ix2 k q) = (V c main_arg1 : FVec Ideal S128x128 .f32) (ix2 k q) := by
  obtain ⟨e0, e1, e2, e3, e4, e5, e6, e7⟩ := idx_facts t
  show V c main_arg1 (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The bias row's one tile is the whole row. -/
theorem read2 (c : Dev nD) (t : Fin cfg0.N) (q : Fin 128) :
    iblk0 V c 2 t (ix2 (0 : Fin 1) q) = (V c main_v0 : FVec Ideal S1x128 .f32) (ix2 (0 : Fin 1) q) := by
  obtain ⟨e0, e1, e2, e3, e4, e5, e6, e7⟩ := idx_facts t
  show V c main_v0 (((cfg0.win 2).blk t).view.emb (ix2 (0 : Fin 1) q)) = _
  refine congrArg _ (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-- What point `t` leaves in the result's tile, entry by entry, is the whole array's function at the tile's place. -/
theorem tile_eq (c : Dev nD) (t : Fin cfg0.N) (y : S2000x128.Idx) :
    out0_3 (iblk0 V c 0 t) (iblk0 V c 1 t) (iblk0 V c 2 t) y = G (V c main_arg0) (V c main_arg1) (V c main_v0) (((cfg0.win 3).blk t).view.emb y) := by
  obtain ⟨p, q, rfl⟩ : ∃ (p : Fin 2000) (q : Fin 128), y = ix2 p q := ⟨y 0, y 1, eq_ix2 y⟩
  obtain ⟨e0, e1, e2, e3, e4, e5, e6, e7⟩ := idx_facts t
  have hrow : win0_3.index t (0 : Fin 2) * 2000 + p.val < 100000 := by have := p.isLt; omega
  have hemb : ((cfg0.win 3).blk t).view.emb (ix2 p q) = ix2 (⟨win0_3.index t (0 : Fin 2) * 2000 + p.val, hrow⟩ : Fin 100000) q := by
    funext a; apply Fin.ext
    match a with
    | ⟨0, _⟩ => show win0_3.index t (0 : Fin 2) * 2000 + 1 * p.val = win0_3.index t (0 : Fin 2) * 2000 + p.val; omega
    | ⟨1, _⟩ => show win0_3.index t (1 : Fin 2) * 128 + 1 * q.val = q.val; omega
  rw [hemb]
  unfold out0_3
  rw [View.canon_unit_zero hz]
  simp only [View.ld_unit_zero (S := S2000x128) hz, View.ld_unit_zero (S := S128x128) hz, View.ld_unit_zero (S := S1x128) hz]
  rw [pay_apply, G_apply]
  rw [read2 V c t q]
  refine congrArg (· + _) (Finset.sum_congr rfl fun k _ => ?_)
  rw [read0 V c t p k hrow, read1 V c t k q]

/-- What point `t` writes back is the tile of the whole array's function at `t`'s place. -/
theorem flushed_eq (c : Dev nD) (t : Fin cfg0.N) :
    (dat0 V c).flushed 3 t = ((cfg0.win 3).blk t).view.read (Elt Ideal) (G (V c main_arg0) (V c main_arg1) (V c main_v0)) := by
  show (cfg0.win 3).cut (grid0.coords t) ((dat0 V c).after 3 t) = _
  rw [after0_3]
  funext j
  exact tile_eq V c t j

/-- An index of the array is in point `t`'s tile iff each coordinate is in the tile's range on its axis. -/
theorem mem_blk (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v1).slice (win0_3.rect t)).set ↔ _
  rw [View.set_slice_whole, Rect.mem_set_unit]
  exact Iff.rfl

/-- The tiles cover the array: row `r` is in the tile of point `r / 2000`. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- The array the call leaves is that function of the arrays it found. -/
theorem final (c : Dev nD) : (dat0 V c).arrAt 3 cfg0.N = G (V c main_arg0) (V c main_arg1) (V c main_v0) :=
  (dat0 V c).arrAt_eq_of_cover 3 (G (V c main_arg0) (V c main_arg1) (V c main_v0)) (fun t _ => flushed_eq V c t) cover

end Cert.KernelIdeal.Region0

end
-- ==== Proof.Region1.lean ====
/-
  The second kernel call: the product of a matrix of 100000 rows with a square weight matrix, in 50 tiles of 2000 rows.
  Row `i` of the product depends on row `i` of the left operand only, so the tile that holds row `i` computes it in
  full, and the array the call leaves is the whole product.
-/
import proofs.«126120_j15796889715339_1_alg».proof.Proof.Gen.KernelIdeal.Frame
import proofs.«126120_j15796889715339_1_alg».proof.Proof.Gen.ReferenceIdeal
import proofs.«126120_j15796889715339_1_alg».proof.Proof.BlockOps

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The product of the whole matrix with the weights, as the host computes it. -/
def G (X : FVec Ideal S100000x128 .f32) (W : FVec Ideal S128x128 .f32) : FVec Ideal S100000x128 .f32 :=
  Host.dotGeneral Cert.ReferenceIdeal.dot_S100000x128_S128x128_S100000x128_1_0_0_1_n_n none X W

/-- The body's result on a tile, entry by entry. -/
theorem pay_apply (x : Vec Ideal S2000x128 .f32) (w : Vec Ideal S128x128 .f32) (p : Fin 2000) (q : Fin 128) :
    k1_pay1 x w (ix2 p q) = ∑ k : Fin 128, x (ix2 p k) * w (ix2 k q) := by
  unfold k1_pay1
  rw [shapeCast_self]
  exact Cert.BlockOps.tile_matmul dot_S2000x128_S128x128_S2000x128_1_0_0_1_n_n rfl rfl rfl rfl rfl rfl x w bitsLt_bf16_f32 p q

/-- The index maps over the grid: the left operand's tile and the result's tile move together down the rows, one tile per
    point, and every other operand has a single tile. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 49 :=
  (by decide +kernel : ∀ t : Fin grid1.N, _)

/-- Every tile of the result is some point's. -/
theorem idx_onto : ∀ q0 : Fin 50, ∃ t : Fin cfg1.N, win1_2.index t = ![q0.val, 0] :=
  (by decide +kernel : ∀ q0 : Fin 50, ∃ t : Fin grid1.N, win1_2.index t = ![q0.val, 0])

/-- An entry of the left operand's tile at point `t` is the entry of the array in the tile's row range. -/
theorem read0 (c : Dev nD) (t : Fin cfg1.N) (p : Fin 2000) (k : Fin 128) (h : win1_2.index t (0 : Fin 2) * 2000 + p.val < 100000) :
    iblk1 V c 0 t (ix2 p k) = (V c main_v1 : FVec Ideal S100000x128 .f32) (ix2 ⟨win1_2.index t (0 : Fin 2) * 2000 + p.val, h⟩ k) := by
  obtain ⟨e0, e1, e2, e3, e4, e5⟩ := idx_facts t
  show V c main_v1 (((cfg1.win 0).blk t).view.emb (ix2 p k)) = _
  refine congrArg _ (funext fun a => Fin.ext ?_)
  match a with
  | ⟨0, _⟩ => show win1_0.index t (0 : Fin 2) * 2000 + 1 * p.val = win1_2.index t (0 : Fin 2) * 2000 + p.val; omega
  | ⟨1, _⟩ => show win1_0.index t (1 : Fin 2) * 128 + 1 * k.val = k.val; omega

/-- The weights' one tile is the whole array. -/
theorem read1 (c : Dev nD) (t : Fin cfg1.N) (k q : Fin 128) :
    iblk1 V c 1 t (ix2 k q) = (V c main_arg3 : FVec Ideal S128x128 .f32) (ix2 k q) := by
  obtain ⟨e0, e1, e2, e3, e4, e5⟩ := idx_facts t
  show V c main_arg3 (((cfg1.win 1).blk t).view.emb (ix2 k q)) = _
  refine congrArg _ (funext fun a => Fin.ext ?_)
  match a with
  | ⟨0, _⟩ => show win1_1.index t (0 : Fin 2) * 128 + 1 * k.val = k.val; omega
  | ⟨1, _⟩ => show win1_1.index t (1 : Fin 2) * 128 + 1 * q.val = q.val; omega

/-- What point `t` leaves in the result's tile, entry by entry, is the whole array's function at the tile's place. -/
theorem tile_eq (c : Dev nD) (t : Fin cfg1.N) (y : S2000x128.Idx) :
    out1_2 (iblk1 V c 0 t) (iblk1 V c 1 t) y = G (V c main_v1) (V c main_arg3) (((cfg1.win 2).blk t).view.emb y) := by
  obtain ⟨p, q, rfl⟩ : ∃ (p : Fin 2000) (q : Fin 128), y = ix2 p q := ⟨y 0, y 1, eq_ix2 y⟩
  obtain ⟨e0, e1, e2, e3, e4, e5⟩ := idx_facts t
  have hrow : win1_2.index t (0 : Fin 2) * 2000 + p.val < 100000 := by have := p.isLt; omega
  have hemb : ((cfg1.win 2).blk t).view.emb (ix2 p q) = ix2 (⟨win1_2.index t (0 : Fin 2) * 2000 + p.val, hrow⟩ : Fin 100000) q := by
    funext a; apply Fin.ext
    match a with
    | ⟨0, _⟩ => show win1_2.index t (0 : Fin 2) * 2000 + 1 * p.val = win1_2.index t (0 : Fin 2) * 2000 + p.val; omega
    | ⟨1, _⟩ => show win1_2.index t (1 : Fin 2) * 128 + 1 * q.val = q.val; omega
  rw [hemb]
  unfold out1_2
  rw [View.canon_unit_zero hz]
  simp only [View.ld_unit_zero (S := S2000x128) hz, View.ld_unit_zero (S := S128x128) hz]
  rw [pay_apply]
  unfold G
  rw [Cert.BlockOps.host_matmul _ rfl rfl rfl rfl rfl rfl]
  refine Finset.sum_congr rfl fun k _ => ?_
  rw [read0 V c t p k hrow, read1 V c t k q]

/-- What point `t` writes back is the tile of the whole array's function at `t`'s place. -/
theorem flushed_eq (c : Dev nD) (t : Fin cfg1.N) :
    (dat1 V c).flushed 2 t = ((cfg1.win 2).blk t).view.read (Elt Ideal) (G (V c main_v1) (V c main_arg3)) := by
  show (cfg1.win 2).cut (grid1.coords t) ((dat1 V c).after 2 t) = _
  rw [after1_2]
  funext j
  exact tile_eq V c t j

/-- An index of the array is in point `t`'s tile iff each coordinate is in the tile's range on its axis. -/
theorem mem_blk (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v2).slice (win1_2.rect t)).set ↔ _
  rw [View.set_slice_whole, Rect.mem_set_unit]
  exact Iff.rfl

/-- The tiles cover the array: row `r` is in the tile of point `r / 2000`. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- The array the call leaves is that function of the arrays it found. -/
theorem final (c : Dev nD) : (dat1 V c).arrAt 2 cfg1.N = G (V c main_v1) (V c main_arg3) :=
  (dat1 V c).arrAt_eq_of_cover 2 (G (V c main_v1) (V c main_arg3)) (fun t _ => flushed_eq V c t) cover

end Cert.KernelIdeal.Region1

end
-- ==== Proof.Region2.lean ====
/-
  The third kernel call: a bias row added to every row of a matrix of 100000 rows, then the maximum with zero, in 50 tiles of
  2000 rows. Every entry of the result depends on the entry of the matrix at the same place and on one entry of the row, so
  the array the call leaves is that function of the whole matrix.
-/
import proofs.«126120_j15796889715339_1_alg».proof.Proof.Gen.KernelIdeal.Frame
import proofs.«126120_j15796889715339_1_alg».proof.Proof.Gen.ReferenceIdeal
import proofs.«126120_j15796889715339_1_alg».proof.Proof.BlockOps

set_option maxRecDepth 16384

noncomputable section

open scoped BigOperators

namespace Cert.KernelIdeal.Region2

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The bias row added down the rows and the maximum with zero, as the host computes them. -/
def G (X : FVec Ideal S100000x128 .f32) (b : FVec Ideal S1x128 .f32) : FVec Ideal S100000x128 .f32 :=
  maximumf (addf X (broadcastInDim Cert.ReferenceIdeal.S100000x128 ![0, 1] Cert.ReferenceIdeal.Facts₀.bcast_S1x128_S100000x128_0_1 b))
    (broadcastInDim Cert.ReferenceIdeal.S100000x128 ![] Cert.ReferenceIdeal.Facts₀.bcast_S_S100000x128 (constant Cert.ReferenceIdeal.S_ .f32 0x00000000#32))

theorem G_apply (X : FVec Ideal S100000x128 .f32) (b : FVec Ideal S1x128 .f32) (i : Fin 100000) (j : Fin 128) :
    G X b (ix2 i j) = max (X (ix2 i j) + b (ix2 (0 : Fin 1) j)) (Scalar.ofBits (F := Ideal) .f32 0x00000000#32) := by
  unfold G
  show max (X (ix2 i j) + broadcastInDim _ ![0, 1] Cert.ReferenceIdeal.Facts₀.bcast_S1x128_S100000x128_0_1 b (ix2 i j))
    (broadcastInDim _ ![] Cert.ReferenceIdeal.Facts₀.bcast_S_S100000x128 (constant Cert.ReferenceIdeal.S_ .f32 0x00000000#32) (ix2 i j)) = _
  rw [Cert.BlockOps.host_row_bcast _ _ rfl, Cert.BlockOps.host_scalar_bcast _ _ _ _ (fun a => a.elim0)]
  rfl

/-- The body's result on a tile, entry by entry. -/
theorem pay_apply (x : Vec Ideal S2000x128 .f32) (b : Vec Ideal S1x128 .f32) (p : Fin 2000) (q : Fin 128) :
    k2_pay1 x b (ix2 p q) = max (x (ix2 p q) + b (ix2 (0 : Fin 1) q)) (Scalar.ofBits (F := Ideal) .f32 0x00000000#32) := by
  unfold k2_pay1
  rw [shapeCast_self, shapeCast_self]
  show max (x (ix2 p q) + broadcastTo S2000x128 b broadcasts_S1x128_S2000x128 (ix2 p q)) _ = _
  rw [broadcastTo_1b_ab_apply]
  rfl

/-- The index maps over the grid: the left operand's tile and the result's tile move together down the rows, one tile per
    point, and every other operand has a single tile. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 49 :=
  (by decide +kernel : ∀ t : Fin grid2.N, _)

/-- Every tile of the result is some point's. -/
theorem idx_onto : ∀ q0 : Fin 50, ∃ t : Fin cfg2.N, win2_2.index t = ![q0.val, 0] :=
  (by decide +kernel : ∀ q0 : Fin 50, ∃ t : Fin grid2.N, win2_2.index t = ![q0.val, 0])

/-- An entry of the left operand's tile at point `t` is the entry of the array in the tile's row range. -/
theorem read0 (c : Dev nD) (t : Fin cfg2.N) (p : Fin 2000) (k : Fin 128) (h : win2_2.index t (0 : Fin 2) * 2000 + p.val < 100000) :
    iblk2 V c 0 t (ix2 p k) = (V c main_v38 : FVec Ideal S100000x128 .f32) (ix2 ⟨win2_2.index t (0 : Fin 2) * 2000 + p.val, h⟩ k) := by
  obtain ⟨e0, e1, e2, e3, e4, e5⟩ := idx_facts t
  show V c main_v38 (((cfg2.win 0).blk t).view.emb (ix2 p k)) = _
  refine congrArg _ (funext fun a => Fin.ext ?_)
  match a with
  | ⟨0, _⟩ => show win2_0.index t (0 : Fin 2) * 2000 + 1 * p.val = win2_2.index t (0 : Fin 2) * 2000 + p.val; omega
  | ⟨1, _⟩ => show win2_0.index t (1 : Fin 2) * 128 + 1 * k.val = k.val; omega

/-- The bias row's one tile is the whole row. -/
theorem read1 (c : Dev nD) (t : Fin cfg2.N) (q : Fin 128) :
    iblk2 V c 1 t (ix2 (0 : Fin 1) q) = (V c main_v39 : FVec Ideal S1x128 .f32) (ix2 (0 : Fin 1) q) := by
  obtain ⟨e0, e1, e2, e3, e4, e5⟩ := idx_facts t
  show V c main_v39 (((cfg2.win 1).blk t).view.emb (ix2 (0 : Fin 1) q)) = _
  refine congrArg _ (funext fun a => Fin.ext ?_)
  match a with
  | ⟨0, _⟩ => show win2_1.index t (0 : Fin 2) * 1 + 1 * 0 = 0; omega
  | ⟨1, _⟩ => show win2_1.index t (1 : Fin 2) * 128 + 1 * q.val = q.val; omega

/-- What point `t` leaves in the result's tile, entry by entry, is the whole array's function at the tile's place. -/
theorem tile_eq (c : Dev nD) (t : Fin cfg2.N) (y : S2000x128.Idx) :
    out2_2 (iblk2 V c 0 t) (iblk2 V c 1 t) y = G (V c main_v38) (V c main_v39) (((cfg2.win 2).blk t).view.emb y) := by
  obtain ⟨p, q, rfl⟩ : ∃ (p : Fin 2000) (q : Fin 128), y = ix2 p q := ⟨y 0, y 1, eq_ix2 y⟩
  obtain ⟨e0, e1, e2, e3, e4, e5⟩ := idx_facts t
  have hrow : win2_2.index t (0 : Fin 2) * 2000 + p.val < 100000 := by have := p.isLt; omega
  have hemb : ((cfg2.win 2).blk t).view.emb (ix2 p q) = ix2 (⟨win2_2.index t (0 : Fin 2) * 2000 + p.val, hrow⟩ : Fin 100000) q := by
    funext a; apply Fin.ext
    match a with
    | ⟨0, _⟩ => show win2_2.index t (0 : Fin 2) * 2000 + 1 * p.val = win2_2.index t (0 : Fin 2) * 2000 + p.val; omega
    | ⟨1, _⟩ => show win2_2.index t (1 : Fin 2) * 128 + 1 * q.val = q.val; omega
  rw [hemb]
  unfold out2_2
  rw [View.canon_unit_zero hz]
  simp only [View.ld_unit_zero (S := S2000x128) hz, View.ld_unit_zero (S := S1x128) hz]
  rw [pay_apply, G_apply]
  rw [read0 V c t p q hrow, read1 V c t q]

/-- What point `t` writes back is the tile of the whole array's function at `t`'s place. -/
theorem flushed_eq (c : Dev nD) (t : Fin cfg2.N) :
    (dat2 V c).flushed 2 t = ((cfg2.win 2).blk t).view.read (Elt Ideal) (G (V c main_v38) (V c main_v39)) := by
  show (cfg2.win 2).cut (grid2.coords t) ((dat2 V c).after 2 t) = _
  rw [after2_2]
  funext j
  exact tile_eq V c t j

/-- An index of the array is in point `t`'s tile iff each coordinate is in the tile's range on its axis. -/
theorem mem_blk (t : Fin cfg2.N) (i : S100000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v40).slice (win2_2.rect t)).set ↔ _
  rw [View.set_slice_whole, Rect.mem_set_unit]
  exact Iff.rfl

/-- The tiles cover the array: row `r` is in the tile of point `r / 2000`. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := idx_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- The array the call leaves is that function of the arrays it found. -/
theorem final (c : Dev nD) : (dat2 V c).arrAt 2 cfg2.N = G (V c main_v38) (V c main_v39) :=
  (dat2 V c).arrAt_eq_of_cover 2 (G (V c main_v38) (V c main_v39)) (fun t _ => flushed_eq V c t) cover

end Cert.KernelIdeal.Region2

end
-- ==== Proof.Region3.lean ====
/-
  The fourth kernel call: the product of a matrix of 10000 rows with a square weight matrix, in 5 tiles of 2000 rows.
  Row `i` of the product depends on row `i` of the left operand only, so the tile that holds row `i` computes it in
  full, and the array the call leaves is the whole product.
-/
import proofs.«126120_j15796889715339_1_alg».proof.Proof.Gen.KernelIdeal.Frame
import proofs.«126120_j15796889715339_1_alg».proof.Proof.Gen.ReferenceIdeal
import proofs.«126120_j15796889715339_1_alg».proof.Proof.BlockOps

set_option maxRecDepth 16384

noncomputable section

open scoped BigOperators

namespace Cert.KernelIdeal.Region3

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The product of the whole matrix with the weights, as the host computes it. -/
def G (X : FVec Ideal S10000x128 .f32) (W : FVec Ideal S128x128 .f32) : FVec Ideal S10000x128 .f32 :=
  Host.dotGeneral Cert.ReferenceIdeal.dot_S10000x128_S128x128_S10000x128_1_0_0_1_n_n none X W

/-- The body's result on a tile, entry by entry. -/
theorem pay_apply (x : Vec Ideal S2000x128 .f32) (w : Vec Ideal S128x128 .f32) (p : Fin 2000) (q : Fin 128) :
    k3_pay1 x w (ix2 p q) = ∑ k : Fin 128, x (ix2 p k) * w (ix2 k q) := by
  unfold k3_pay1
  rw [shapeCast_self]
  exact Cert.BlockOps.tile_matmul dot_S2000x128_S128x128_S2000x128_1_0_0_1_n_n rfl rfl rfl rfl rfl rfl x w bitsLt_bf16_f32 p q

/-- The index maps over the grid: the left operand's tile and the result's tile move together down the rows, one tile per
    point, and every other operand has a single tile. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 4 :=
  (by decide +kernel : ∀ t : Fin grid3.N, _)

/-- Every tile of the result is some point's. -/
theorem idx_onto : ∀ q0 : Fin 5, ∃ t : Fin cfg3.N, win3_2.index t = ![q0.val, 0] :=
  (by decide +kernel : ∀ q0 : Fin 5, ∃ t : Fin grid3.N, win3_2.index t = ![q0.val, 0])

/-- An entry of the left operand's tile at point `t` is the entry of the array in the tile's row range. -/
theorem read0 (c : Dev nD) (t : Fin cfg3.N) (p : Fin 2000) (k : Fin 128) (h : win3_2.index t (0 : Fin 2) * 2000 + p.val < 10000) :
    iblk3 V c 0 t (ix2 p k) = (V c main_v51 : FVec Ideal S10000x128 .f32) (ix2 ⟨win3_2.index t (0 : Fin 2) * 2000 + p.val, h⟩ k) := by
  obtain ⟨e0, e1, e2, e3, e4, e5⟩ := idx_facts t
  show V c main_v51 (((cfg3.win 0).blk t).view.emb (ix2 p k)) = _
  refine congrArg _ (funext fun a => Fin.ext ?_)
  match a with
  | ⟨0, _⟩ => show win3_0.index t (0 : Fin 2) * 2000 + 1 * p.val = win3_2.index t (0 : Fin 2) * 2000 + p.val; omega
  | ⟨1, _⟩ => show win3_0.index t (1 : Fin 2) * 128 + 1 * k.val = k.val; omega

/-- The weights' one tile is the whole array. -/
theorem read1 (c : Dev nD) (t : Fin cfg3.N) (k q : Fin 128) :
    iblk3 V c 1 t (ix2 k q) = (V c main_arg5 : FVec Ideal S128x128 .f32) (ix2 k q) := by
  obtain ⟨e0, e1, e2, e3, e4, e5⟩ := idx_facts t
  show V c main_arg5 (((cfg3.win 1).blk t).view.emb (ix2 k q)) = _
  refine congrArg _ (funext fun a => Fin.ext ?_)
  match a with
  | ⟨0, _⟩ => show win3_1.index t (0 : Fin 2) * 128 + 1 * k.val = k.val; omega
  | ⟨1, _⟩ => show win3_1.index t (1 : Fin 2) * 128 + 1 * q.val = q.val; omega

/-- What point `t` leaves in the result's tile, entry by entry, is the whole array's function at the tile's place. -/
theorem tile_eq (c : Dev nD) (t : Fin cfg3.N) (y : S2000x128.Idx) :
    out3_2 (iblk3 V c 0 t) (iblk3 V c 1 t) y = G (V c main_v51) (V c main_arg5) (((cfg3.win 2).blk t).view.emb y) := by
  obtain ⟨p, q, rfl⟩ : ∃ (p : Fin 2000) (q : Fin 128), y = ix2 p q := ⟨y 0, y 1, eq_ix2 y⟩
  obtain ⟨e0, e1, e2, e3, e4, e5⟩ := idx_facts t
  have hrow : win3_2.index t (0 : Fin 2) * 2000 + p.val < 10000 := by have := p.isLt; omega
  have hemb : ((cfg3.win 2).blk t).view.emb (ix2 p q) = ix2 (⟨win3_2.index t (0 : Fin 2) * 2000 + p.val, hrow⟩ : Fin 10000) q := by
    funext a; apply Fin.ext
    match a with
    | ⟨0, _⟩ => show win3_2.index t (0 : Fin 2) * 2000 + 1 * p.val = win3_2.index t (0 : Fin 2) * 2000 + p.val; omega
    | ⟨1, _⟩ => show win3_2.index t (1 : Fin 2) * 128 + 1 * q.val = q.val; omega
  rw [hemb]
  unfold out3_2
  rw [View.canon_unit_zero hz]
  simp only [View.ld_unit_zero (S := S2000x128) hz, View.ld_unit_zero (S := S128x128) hz]
  rw [pay_apply]
  unfold G
  rw [Cert.BlockOps.host_matmul _ rfl rfl rfl rfl rfl rfl]
  refine Finset.sum_congr rfl fun k _ => ?_
  rw [read0 V c t p k hrow, read1 V c t k q]

/-- What point `t` writes back is the tile of the whole array's function at `t`'s place. -/
theorem flushed_eq (c : Dev nD) (t : Fin cfg3.N) :
    (dat3 V c).flushed 2 t = ((cfg3.win 2).blk t).view.read (Elt Ideal) (G (V c main_v51) (V c main_arg5)) := by
  show (cfg3.win 2).cut (grid3.coords t) ((dat3 V c).after 2 t) = _
  rw [after3_2]
  funext j
  exact tile_eq V c t j

/-- An index of the array is in point `t`'s tile iff each coordinate is in the tile's range on its axis. -/
theorem mem_blk (t : Fin cfg3.N) (i : S10000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v52).slice (win3_2.rect t)).set ↔ _
  rw [View.set_slice_whole, Rect.mem_set_unit]
  exact Iff.rfl

/-- The tiles cover the array: row `r` is in the tile of point `r / 2000`. -/
theorem cover (i : S10000x128.Idx) : ∃ t : Fin cfg3.N, (cfg3.win 2).flush t = true ∧ i ∈ ((cfg3.win 2).blk t).view.set := by
  have hi0 : (i 0).val < 10000 := (i 0).isLt
  have hi1 : (i 1).val < 128 := (i 1).isLt
  obtain ⟨t, ht⟩ := idx_onto ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

/-- The array the call leaves is that function of the arrays it found. -/
theorem final (c : Dev nD) : (dat3 V c).arrAt 2 cfg3.N = G (V c main_v51) (V c main_arg5) :=
  (dat3 V c).arrAt_eq_of_cover 2 (G (V c main_v51) (V c main_arg5)) (fun t _ => flushed_eq V c t) cover

end Cert.KernelIdeal.Region3

end
-- ==== Proof.Region4.lean ====
/-
  The fifth kernel call: a bias row added to every row of a matrix of 10000 rows, then the maximum with zero, in 5 tiles of
  2000 rows. Every entry of the result depends on the entry of the matrix at the same place and on one entry of the row, so
  the array the call leaves is that function of the whole matrix.
-/
import proofs.«126120_j15796889715339_1_alg».proof.Proof.Gen.KernelIdeal.Frame
import proofs.«126120_j15796889715339_1_alg».proof.Proof.Gen.ReferenceIdeal
import proofs.«126120_j15796889715339_1_alg».proof.Proof.BlockOps

set_option maxRecDepth 16384

noncomputable section

open scoped BigOperators

namespace Cert.KernelIdeal.Region4

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The bias row added down the rows and the maximum with zero, as the host computes them. -/
def G (X : FVec Ideal S10000x128 .f32) (b : FVec Ideal S1x128 .f32) : FVec Ideal S10000x128 .f32 :=
  maximumf (addf X (broadcastInDim Cert.ReferenceIdeal.S10000x128 ![0, 1] Cert.ReferenceIdeal.Facts₀.bcast_S1x128_S10000x128_0_1 b))
    (broadcastInDim Cert.ReferenceIdeal.S10000x128 ![] Cert.ReferenceIdeal.Facts₀.bcast_S_S10000x128 (constant Cert.ReferenceIdeal.S_ .f32 0x00000000#32))

theorem G_apply (X : FVec Ideal S10000x128 .f32) (b : FVec Ideal S1x128 .f32) (i : Fin 10000) (j : Fin 128) :
    G X b (ix2 i j) = max (X (ix2 i j) + b (ix2 (0 : Fin 1) j)) (Scalar.ofBits (F := Ideal) .f32 0x00000000#32) := by
  unfold G
  show max (X (ix2 i j) + broadcastInDim _ ![0, 1] Cert.ReferenceIdeal.Facts₀.bcast_S1x128_S10000x128_0_1 b (ix2 i j))
    (broadcastInDim _ ![] Cert.ReferenceIdeal.Facts₀.bcast_S_S10000x128 (constant Cert.ReferenceIdeal.S_ .f32 0x00000000#32) (ix2 i j)) = _
  rw [Cert.BlockOps.host_row_bcast _ _ rfl, Cert.BlockOps.host_scalar_bcast _ _ _ _ (fun a => a.elim0)]
  rfl

/-- The body's result on a tile, entry by entry. -/
theorem pay_apply (x : Vec Ideal S2000x128 .f32) (b : Vec Ideal S1x128 .f32) (p : Fin 2000) (q : Fin 128) :
    k4_pay1 x b (ix2 p q) = max (x (ix2 p q) + b (ix2 (0 : Fin 1) q)) (Scalar.ofBits (F := Ideal) .f32 0x00000000#32) := by
  unfold k4_pay1
  rw [shapeCast_self, shapeCast_self]
  show max (x (ix2 p q) + broadcastTo S2000x128 b broadcasts_S1x128_S2000x128 (ix2 p q)) _ = _
  rw [broadcastTo_1b_ab_apply]
  rfl

/-- The index maps over the grid: the left operand's tile and the result's tile move together down the rows, one tile per
    point, and every other operand has a single tile. -/
theorem idx_facts : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) ≤ 4 :=
  (by decide +kernel : ∀ t : Fin grid4.N, _)

/-- Every tile of the result is some point's. -/
theorem idx_onto : ∀ q0 : Fin 5, ∃ t : Fin cfg4.N, win4_2.index t = ![q0.val, 0] :=
  (by decide +kernel : ∀ q0 : Fin 5, ∃ t : Fin grid4.N, win4_2.index t = ![q0.val, 0])

/-- An entry of the left operand's tile at point `t` is the entry of the array in the tile's row range. -/
theorem read0 (c : Dev nD) (t : Fin cfg4.N) (p : Fin 2000) (k : Fin 128) (h : win4_2.index t (0 : Fin 2) * 2000 + p.val < 10000) :
    iblk4 V c 0 t (ix2 p k) = (V c main_v88 : FVec Ideal S10000x128 .f32) (ix2 ⟨win4_2.index t (0 : Fin 2) * 2000 + p.val, h⟩ k) := by
  obtain ⟨e0, e1, e2, e3, e4, e5⟩ := idx_facts t
  show V c main_v88 (((cfg4.win 0).blk t).view.emb (ix2 p k)) = _
  refine congrArg _ (funext fun a => Fin.ext ?_)
  match a with
  | ⟨0, _⟩ => show win4_0.index t (0 : Fin 2) * 2000 + 1 * p.val = win4_2.index t (0 : Fin 2) * 2000 + p.val; omega
  | ⟨1, _⟩ => show win4_0.index t (1 : Fin 2) * 128 + 1 * k.val = k.val; omega

/-- The bias row's one tile is the whole row. -/
theorem read1 (c : Dev nD) (t : Fin cfg4.N) (q : Fin 128) :
    iblk4 V c 1 t (ix2 (0 : Fin 1) q) = (V c main_v89 : FVec Ideal S1x128 .f32) (ix2 (0 : Fin 1) q) := by
  obtain ⟨e0, e1, e2, e3, e4, e5⟩ := idx_facts t
  show V c main_v89 (((cfg4.win 1).blk t).view.emb (ix2 (0 : Fin 1) q)) = _
  refine congrArg _ (funext fun a => Fin.ext ?_)
  match a with
  | ⟨0, _⟩ => show win4_1.index t (0 : Fin 2) * 1 + 1 * 0 = 0; omega
  | ⟨1, _⟩ => show win4_1.index t (1 : Fin 2) * 128 + 1 * q.val = q.val; omega

/-- What point `t` leaves in the result's tile, entry by entry, is the whole array's function at the tile's place. -/
theorem tile_eq (c : Dev nD) (t : Fin cfg4.N) (y : S2000x128.Idx) :
    out4_2 (iblk4 V c 0 t) (iblk4 V c 1 t) y = G (V c main_v88) (V c main_v89) (((cfg4.win 2).blk t).view.emb y) := by
  obtain ⟨p, q, rfl⟩ : ∃ (p : Fin 2000) (q : Fin 128), y = ix2 p q := ⟨y 0, y 1, eq_ix2 y⟩
  obtain ⟨e0, e1, e2, e3, e4, e5⟩ := idx_facts t
  have hrow : win4_2.index t (0 : Fin 2) * 2000 + p.val < 10000 := by have := p.isLt; omega
  have hemb : ((cfg4.win 2).blk t).view.emb (ix2 p q) = ix2 (⟨win4_2.index t (0 : Fin 2) * 2000 + p.val, hrow⟩ : Fin 10000) q := by
    funext a; apply Fin.ext
    match a with
    | ⟨0, _⟩ => show win4_2.index t (0 : Fin 2) * 2000 + 1 * p.val = win4_2.index t (0 : Fin 2) * 2000 + p.val; omega
    | ⟨1, _⟩ => show win4_2.index t (1 : Fin 2) * 128 + 1 * q.val = q.val; omega
  rw [hemb]
  unfold out4_2
  rw [View.canon_unit_zero hz]
  simp only [View.ld_unit_zero (S := S2000x128) hz, View.ld_unit_zero (S := S1x128) hz]
  rw [pay_apply, G_apply]
  rw [read0 V c t p q hrow, read1 V c t q]

/-- What point `t` writes back is the tile of the whole array's function at `t`'s place. -/
theorem flushed_eq (c : Dev nD) (t : Fin cfg4.N) :
    (dat4 V c).flushed 2 t = ((cfg4.win 2).blk t).view.read (Elt Ideal) (G (V c main_v88) (V c main_v89)) := by
  show (cfg4.win 2).cut (grid4.coords t) ((dat4 V c).after 2 t) = _
  rw [after4_2]
  funext j
  exact tile_eq V c t j

/-- An index of the array is in point `t`'s tile iff each coordinate is in the tile's range on its axis. -/
theorem mem_blk (t : Fin cfg4.N) (i : S10000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole main_v90).slice (win4_2.rect t)).set ↔ _
  rw [View.set_slice_whole, Rect.mem_set_unit]
  exact Iff.rfl

/-- The tiles cover the array: row `r` is in the tile of point `r / 2000`. -/
theorem cover (i : S10000x128.Idx) : ∃ t : Fin cfg4.N, (cfg4.win 2).flush t = true ∧ i ∈ ((cfg4.win 2).blk t).view.set := by
  have hi0 : (i 0).val < 10000 := (i 0).isLt
  have hi1 : (i 1).val < 128 := (i 1).isLt
  obtain ⟨t, ht⟩ := idx_onto ⟨(i 0).val / 2000, by omega⟩
  have q0 : win4_2.index t (0 : Fin 2) = (i 0).val / 2000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 128 ≤ (i 1).val ∧ (i 1).val < win4_2.index t (1 : Fin 2) * 128 + 128; omega

/-- The array the call leaves is that function of the arrays it found. -/
theorem final (c : Dev nD) : (dat4 V c).arrAt 2 cfg4.N = G (V c main_v88) (V c main_v89) :=
  (dat4 V c).arrAt_eq_of_cover 2 (G (V c main_v88) (V c main_v89)) (fun t _ => flushed_eq V c t) cover

end Cert.KernelIdeal.Region4

end
-- ==== Proof.Region5.lean ====
/-
  The sixth kernel call: the product of a matrix of 1000 rows with a square weight matrix, in 1 tile of 1000 rows.
  Row `i` of the product depends on row `i` of the left operand only, so the tile that holds row `i` computes it in
  full, and the array the call leaves is the whole product.
-/
import proofs.«126120_j15796889715339_1_alg».proof.Proof.Gen.KernelIdeal.Frame
import proofs.«126120_j15796889715339_1_alg».proof.Proof.Gen.ReferenceIdeal
import proofs.«126120_j15796889715339_1_alg».proof.Proof.BlockOps

set_option maxRecDepth 16384

noncomputable section

open scoped BigOperators

namespace Cert.KernelIdeal.Region5

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The product of the whole matrix with the weights, as the host computes it. -/
def G (X : FVec Ideal S1000x128 .f32) (W : FVec Ideal S128x128 .f32) : FVec Ideal S1000x128 .f32 :=
  Host.dotGeneral Cert.ReferenceIdeal.dot_S1000x128_S128x128_S1000x128_1_0_0_1_n_n none X W

/-- The body's result on a tile, entry by entry. -/
theorem pay_apply (x : Vec Ideal S1000x128 .f32) (w : Vec Ideal S128x128 .f32) (p : Fin 1000) (q : Fin 128) :
    k5_pay1 x w (ix2 p q) = ∑ k : Fin 128, x (ix2 p k) * w (ix2 k q) := by
  unfold k5_pay1
  rw [shapeCast_self]
  exact Cert.BlockOps.tile_matmul dot_S1000x128_S128x128_S1000x128_1_0_0_1_n_n rfl rfl rfl rfl rfl rfl x w bitsLt_bf16_f32 p q

/-- The index maps over the grid: the left operand's tile and the result's tile move together down the rows, one tile per
    point, and every other operand has a single tile. -/
theorem idx_facts : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (1 : Fin 2) = 0
    ∧ win5_2.index t (0 : Fin 2) ≤ 0 :=
  (by decide +kernel : ∀ t : Fin grid5.N, _)

/-- Every tile of the result is some point's. -/
theorem idx_onto : ∀ q0 : Fin 1, ∃ t : Fin cfg5.N, win5_2.index t = ![q0.val, 0] :=
  (by decide +kernel : ∀ q0 : Fin 1, ∃ t : Fin grid5.N, win5_2.index t = ![q0.val, 0])

/-- An entry of the left operand's tile at point `t` is the entry of the array in the tile's row range. -/
theorem read0 (c : Dev nD) (t : Fin cfg5.N) (p : Fin 1000) (k : Fin 128) (h : win5_2.index t (0 : Fin 2) * 1000 + p.val < 1000) :
    iblk5 V c 0 t (ix2 p k) = (V c main_v101 : FVec Ideal S1000x128 .f32) (ix2 ⟨win5_2.index t (0 : Fin 2) * 1000 + p.val, h⟩ k) := by
  obtain ⟨e0, e1, e2, e3, e4, e5⟩ := idx_facts t
  show V c main_v101 (((cfg5.win 0).blk t).view.emb (ix2 p k)) = _
  refine congrArg _ (funext fun a => Fin.ext ?_)
  match a with
  | ⟨0, _⟩ => show win5_0.index t (0 : Fin 2) * 1000 + 1 * p.val = win5_2.index t (0 : Fin 2) * 1000 + p.val; omega
  | ⟨1, _⟩ => show win5_0.index t (1 : Fin 2) * 128 + 1 * k.val = k.val; omega

/-- The weights' one tile is the whole array. -/
theorem read1 (c : Dev nD) (t : Fin cfg5.N) (k q : Fin 128) :
    iblk5 V c 1 t (ix2 k q) = (V c main_arg7 : FVec Ideal S128x128 .f32) (ix2 k q) := by
  obtain ⟨e0, e1, e2, e3, e4, e5⟩ := idx_facts t
  show V c main_arg7 (((cfg5.win 1).blk t).view.emb (ix2 k q)) = _
  refine congrArg _ (funext fun a => Fin.ext ?_)
  match a with
  | ⟨0, _⟩ => show win5_1.index t (0 : Fin 2) * 128 + 1 * k.val = k.val; omega
  | ⟨1, _⟩ => show win5_1.index t (1 : Fin 2) * 128 + 1 * q.val = q.val; omega

/-- What point `t` leaves in the result's tile, entry by entry, is the whole array's function at the tile's place. -/
theorem tile_eq (c : Dev nD) (t : Fin cfg5.N) (y : S1000x128.Idx) :
    out5_2 (iblk5 V c 0 t) (iblk5 V c 1 t) y = G (V c main_v101) (V c main_arg7) (((cfg5.win 2).blk t).view.emb y) := by
  obtain ⟨p, q, rfl⟩ : ∃ (p : Fin 1000) (q : Fin 128), y = ix2 p q := ⟨y 0, y 1, eq_ix2 y⟩
  obtain ⟨e0, e1, e2, e3, e4, e5⟩ := idx_facts t
  have hrow : win5_2.index t (0 : Fin 2) * 1000 + p.val < 1000 := by have := p.isLt; omega
  have hemb : ((cfg5.win 2).blk t).view.emb (ix2 p q) = ix2 (⟨win5_2.index t (0 : Fin 2) * 1000 + p.val, hrow⟩ : Fin 1000) q := by
    funext a; apply Fin.ext
    match a with
    | ⟨0, _⟩ => show win5_2.index t (0 : Fin 2) * 1000 + 1 * p.val = win5_2.index t (0 : Fin 2) * 1000 + p.val; omega
    | ⟨1, _⟩ => show win5_2.index t (1 : Fin 2) * 128 + 1 * q.val = q.val; omega
  rw [hemb]
  unfold out5_2
  rw [View.canon_unit_zero hz]
  simp only [View.ld_unit_zero (S := S1000x128) hz, View.ld_unit_zero (S := S128x128) hz]
  rw [pay_apply]
  unfold G
  rw [Cert.BlockOps.host_matmul _ rfl rfl rfl rfl rfl rfl]
  refine Finset.sum_congr rfl fun k _ => ?_
  rw [read0 V c t p k hrow, read1 V c t k q]

/-- What point `t` writes back is the tile of the whole array's function at `t`'s place. -/
theorem flushed_eq (c : Dev nD) (t : Fin cfg5.N) :
    (dat5 V c).flushed 2 t = ((cfg5.win 2).blk t).view.read (Elt Ideal) (G (V c main_v101) (V c main_arg7)) := by
  show (cfg5.win 2).cut (grid5.coords t) ((dat5 V c).after 2 t) = _
  rw [after5_2]
  funext j
  exact tile_eq V c t j

/-- An index of the array is in point `t`'s tile iff each coordinate is in the tile's range on its axis. -/
theorem mem_blk (t : Fin cfg5.N) (i : S1000x128.Idx) :
    i ∈ ((cfg5.win 2).blk t).view.set ↔ ∀ a : Fin 2, win5_2.index t a * S1000x128.size a ≤ (i a).val ∧ (i a).val < win5_2.index t a * S1000x128.size a + S1000x128.size a := by
  show i ∈ ((View.whole main_v102).slice (win5_2.rect t)).set ↔ _
  rw [View.set_slice_whole, Rect.mem_set_unit]
  exact Iff.rfl

/-- The tiles cover the array: row `r` is in the tile of point `r / 1000`. -/
theorem cover (i : S1000x128.Idx) : ∃ t : Fin cfg5.N, (cfg5.win 2).flush t = true ∧ i ∈ ((cfg5.win 2).blk t).view.set := by
  have hi0 : (i 0).val < 1000 := (i 0).isLt
  have hi1 : (i 1).val < 128 := (i 1).isLt
  obtain ⟨t, ht⟩ := idx_onto ⟨(i 0).val / 1000, by omega⟩
  have q0 : win5_2.index t (0 : Fin 2) = (i 0).val / 1000 := congrFun ht 0
  have q1 : win5_2.index t (1 : Fin 2) = 0 := congrFun ht 1
  refine ⟨t, flush5_2 t, ?_⟩
  rw [mem_blk]
  intro a
  match a with
  | ⟨0, _⟩ => show win5_2.index t (0 : Fin 2) * 1000 ≤ (i 0).val ∧ (i 0).val < win5_2.index t (0 : Fin 2) * 1000 + 1000; omega
  | ⟨1, _⟩ => show win5_2.index t (1 : Fin 2) * 128 ≤ (i 1).val ∧ (i 1).val < win5_2.index t (1 : Fin 2) * 128 + 128; omega

/-- The array the call leaves is that function of the arrays it found. -/
theorem final (c : Dev nD) : (dat5 V c).arrAt 2 cfg5.N = G (V c main_v101) (V c main_arg7) :=
  (dat5 V c).arrAt_eq_of_cover 2 (G (V c main_v101) (V c main_arg7)) (fun t _ => flushed_eq V c t) cover

end Cert.KernelIdeal.Region5

end
-- ==== Proof.Region6.lean ====
/-
  The seventh kernel call: a bias row added to every row of a matrix of 1000 rows, then the maximum with zero, in 1 tile of
  1000 rows. Every entry of the result depends on the entry of the matrix at the same place and on one entry of the row, so
  the array the call leaves is that function of the whole matrix.
-/
import proofs.«126120_j15796889715339_1_alg».proof.Proof.Gen.KernelIdeal.Frame
import proofs.«126120_j15796889715339_1_alg».proof.Proof.Gen.ReferenceIdeal
import proofs.«126120_j15796889715339_1_alg».proof.Proof.BlockOps

set_option maxRecDepth 16384

noncomputable section

open scoped BigOperators

namespace Cert.KernelIdeal.Region6

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The bias row added down the rows and the maximum with zero, as the host computes them. -/
def G (X : FVec Ideal S1000x128 .f32) (b : FVec Ideal S1x128 .f32) : FVec Ideal S1000x128 .f32 :=
  maximumf (addf X (broadcastInDim Cert.ReferenceIdeal.S1000x128 ![0, 1] Cert.ReferenceIdeal.Facts₀.bcast_S1x128_S1000x128_0_1 b))
    (broadcastInDim Cert.ReferenceIdeal.S1000x128 ![] Cert.ReferenceIdeal.Facts₀.bcast_S_S1000x128 (constant Cert.ReferenceIdeal.S_ .f32 0x00000000#32))

theorem G_apply (X : FVec Ideal S1000x128 .f32) (b : FVec Ideal S1x128 .f32) (i : Fin 1000) (j : Fin 128) :
    G X b (ix2 i j) = max (X (ix2 i j) + b (ix2 (0 : Fin 1) j)) (Scalar.ofBits (F := Ideal) .f32 0x00000000#32) := by
  unfold G
  show max (X (ix2 i j) + broadcastInDim _ ![0, 1] Cert.ReferenceIdeal.Facts₀.bcast_S1x128_S1000x128_0_1 b (ix2 i j))
    (broadcastInDim _ ![] Cert.ReferenceIdeal.Facts₀.bcast_S_S1000x128 (constant Cert.ReferenceIdeal.S_ .f32 0x00000000#32) (ix2 i j)) = _
  rw [Cert.BlockOps.host_row_bcast _ _ rfl, Cert.BlockOps.host_scalar_bcast _ _ _ _ (fun a => a.elim0)]
  rfl

/-- The body's result on a tile, entry by entry. -/
theorem pay_apply (x : Vec Ideal S1000x128 .f32) (b : Vec Ideal S1x128 .f32) (p : Fin 1000) (q : Fin 128) :
    k6_pay1 x b (ix2 p q) = max (x (ix2 p q) + b (ix2 (0 : Fin 1) q)) (Scalar.ofBits (F := Ideal) .f32 0x00000000#32) := by
  unfold k6_pay1
  rw [shapeCast_self, shapeCast_self]
  show max (x (ix2 p q) + broadcastTo S1000x128 b broadcasts_S1x128_S1000x128 (ix2 p q)) _ = _
  rw [broadcastTo_1b_ab_apply]
  rfl

/-- The index maps over the grid: the left operand's tile and the result's tile move together down the rows, one tile per
    point, and every other operand has a single tile. -/
theorem idx_facts : ∀ t : Fin cfg6.N, win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (1 : Fin 2) = 0
    ∧ win6_2.index t (0 : Fin 2) ≤ 0 :=
  (by decide +kernel : ∀ t : Fin grid6.N, _)

/-- Every tile of the result is some point's. -/
theorem idx_onto : ∀ q0 : Fin 1, ∃ t : Fin cfg6.N, win6_2.index t = ![q0.val, 0] :=
  (by decide +kernel : ∀ q0 : Fin 1, ∃ t : Fin grid6.N, win6_2.index t = ![q0.val, 0])

/-- An entry of the left operand's tile at point `t` is the entry of the array in the tile's row range. -/
theorem read0 (c : Dev nD) (t : Fin cfg6.N) (p : Fin 1000) (k : Fin 128) (h : win6_2.index t (0 : Fin 2) * 1000 + p.val < 1000) :
    iblk6 V c 0 t (ix2 p k) = (V c main_v138 : FVec Ideal S1000x128 .f32) (ix2 ⟨win6_2.index t (0 : Fin 2) * 1000 + p.val, h⟩ k) := by
  obtain ⟨e0, e1, e2, e3, e4, e5⟩ := idx_facts t
  show V c main_v138 (((cfg6.win 0).blk t).view.emb (ix2 p k)) = _
  refine congrArg _ (funext fun a => Fin.ext ?_)
  match a with
  | ⟨0, _⟩ => show win6_0.index t (0 : Fin 2) * 1000 + 1 * p.val = win6_2.index t (0 : Fin 2) * 1000 + p.val; omega
  | ⟨1, _⟩ => show win6_0.index t (1 : Fin 2) * 128 + 1 * k.val = k.val; omega

/-- The bias row's one tile is the whole row. -/
theorem read1 (c : Dev nD) (t : Fin cfg6.N) (q : Fin 128) :
    iblk6 V c 1 t (ix2 (0 : Fin 1) q) = (V c main_v139 : FVec Ideal S1x128 .f32) (ix2 (0 : Fin 1) q) := by
  obtain ⟨e0, e1, e2, e3, e4, e5⟩ := idx_facts t
  show V c main_v139 (((cfg6.win 1).blk t).view.emb (ix2 (0 : Fin 1) q)) = _
  refine congrArg _ (funext fun a => Fin.ext ?_)
  match a with
  | ⟨0, _⟩ => show win6_1.index t (0 : Fin 2) * 1 + 1 * 0 = 0; omega
  | ⟨1, _⟩ => show win6_1.index t (1 : Fin 2) * 128 + 1 * q.val = q.val; omega

/-- What point `t` leaves in the result's tile, entry by entry, is the whole array's function at the tile's place. -/
theorem tile_eq (c : Dev nD) (t : Fin cfg6.N) (y : S1000x128.Idx) :
    out6_2 (iblk6 V c 0 t) (iblk6 V c 1 t) y = G (V c main_v138) (V c main_v139) (((cfg6.win 2).blk t).view.emb y) := by
  obtain ⟨p, q, rfl⟩ : ∃ (p : Fin 1000) (q : Fin 128), y = ix2 p q := ⟨y 0, y 1, eq_ix2 y⟩
  obtain ⟨e0, e1, e2, e3, e4, e5⟩ := idx_facts t
  have hrow : win6_2.index t (0 : Fin 2) * 1000 + p.val < 1000 := by have := p.isLt; omega
  have hemb : ((cfg6.win 2).blk t).view.emb (ix2 p q) = ix2 (⟨win6_2.index t (0 : Fin 2) * 1000 + p.val, hrow⟩ : Fin 1000) q := by
    funext a; apply Fin.ext
    match a with
    | ⟨0, _⟩ => show win6_2.index t (0 : Fin 2) * 1000 + 1 * p.val = win6_2.index t (0 : Fin 2) * 1000 + p.val; omega
    | ⟨1, _⟩ => show win6_2.index t (1 : Fin 2) * 128 + 1 * q.val = q.val; omega
  rw [hemb]
  unfold out6_2
  rw [View.canon_unit_zero hz]
  simp only [View.ld_unit_zero (S := S1000x128) hz, View.ld_unit_zero (S := S1x128) hz]
  rw [pay_apply, G_apply]
  rw [read0 V c t p q hrow, read1 V c t q]

/-- What point `t` writes back is the tile of the whole array's function at `t`'s place. -/
theorem flushed_eq (c : Dev nD) (t : Fin cfg6.N) :
    (dat6 V c).flushed 2 t = ((cfg6.win 2).blk t).view.read (Elt Ideal) (G (V c main_v138) (V c main_v139)) := by
  show (cfg6.win 2).cut (grid6.coords t) ((dat6 V c).after 2 t) = _
  rw [after6_2]
  funext j
  exact tile_eq V c t j

/-- An index of the array is in point `t`'s tile iff each coordinate is in the tile's range on its axis. -/
theorem mem_blk (t : Fin cfg6.N) (i : S1000x128.Idx) :
    i ∈ ((cfg6.win 2).blk t).view.set ↔ ∀ a : Fin 2, win6_2.index t a * S1000x128.size a ≤ (i a).val ∧ (i a).val < win6_2.index t a * S1000x128.size a + S1000x128.size a := by
  show i ∈ ((View.whole main_v140).slice (win6_2.rect t)).set ↔ _
  rw [View.set_slice_whole, Rect.mem_set_unit]
  exact Iff.rfl

/-- The tiles cover the array: row `r` is in the tile of point `r / 1000`. -/
theorem cover (i : S1000x128.Idx) : ∃ t : Fin cfg6.N, (cfg6.win 2).flush t = true ∧ i ∈ ((cfg6.win 2).blk t).view.set := by
  have hi0 : (i 0).val < 1000 := (i 0).isLt
  have hi1 : (i 1).val < 128 := (i 1).isLt
  obtain ⟨t, ht⟩ := idx_onto ⟨(i 0).val / 1000, by omega⟩
  have q0 : win6_2.index t (0 : Fin 2) = (i 0).val / 1000 := congrFun ht 0
  have q1 : win6_2.index t (1 : Fin 2) = 0 := congrFun ht 1
  refine ⟨t, flush6_2 t, ?_⟩
  rw [mem_blk]
  intro a
  match a with
  | ⟨0, _⟩ => show win6_2.index t (0 : Fin 2) * 1000 ≤ (i 0).val ∧ (i 0).val < win6_2.index t (0 : Fin 2) * 1000 + 1000; omega
  | ⟨1, _⟩ => show win6_2.index t (1 : Fin 2) * 128 ≤ (i 1).val ∧ (i 1).val < win6_2.index t (1 : Fin 2) * 128 + 128; omega

/-- The array the call leaves is that function of the arrays it found. -/
theorem final (c : Dev nD) : (dat6 V c).arrAt 2 cfg6.N = G (V c main_v138) (V c main_v139) :=
  (dat6 V c).arrAt_eq_of_cover 2 (G (V c main_v138) (V c main_v139)) (fun t _ => flushed_eq V c t) cover

end Cert.KernelIdeal.Region6

end
-- ==== Proof.Region7.lean ====
/-
  The eighth kernel call: the product of a matrix of 10000 rows with a square weight matrix, in 5 tiles of 2000 rows.
  Row `i` of the product depends on row `i` of the left operand only, so the tile that holds row `i` computes it in
  full, and the array the call leaves is the whole product.
-/
import proofs.«126120_j15796889715339_1_alg».proof.Proof.Gen.KernelIdeal.Frame
import proofs.«126120_j15796889715339_1_alg».proof.Proof.Gen.ReferenceIdeal
import proofs.«126120_j15796889715339_1_alg».proof.Proof.BlockOps

set_option maxRecDepth 16384

noncomputable section

open scoped BigOperators

namespace Cert.KernelIdeal.Region7

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The product of the whole matrix with the weights, as the host computes it. -/
def G (X : FVec Ideal S10000x128 .f32) (W : FVec Ideal S128x128 .f32) : FVec Ideal S10000x128 .f32 :=
  Host.dotGeneral Cert.ReferenceIdeal.dot_S10000x128_S128x128_S10000x128_1_0_0_1_n_n none X W

/-- The body's result on a tile, entry by entry. -/
theorem pay_apply (x : Vec Ideal S2000x128 .f32) (w : Vec Ideal S128x128 .f32) (p : Fin 2000) (q : Fin 128) :
    k7_pay1 x w (ix2 p q) = ∑ k : Fin 128, x (ix2 p k) * w (ix2 k q) := by
  unfold k7_pay1
  rw [shapeCast_self]
  exact Cert.BlockOps.tile_matmul dot_S2000x128_S128x128_S2000x128_1_0_0_1_n_n rfl rfl rfl rfl rfl rfl x w bitsLt_bf16_f32 p q

/-- The index maps over the grid: the left operand's tile and the result's tile move together down the rows, one tile per
    point, and every other operand has a single tile. -/
theorem idx_facts : ∀ t : Fin cfg7.N, win7_0.index t (0 : Fin 2) = win7_2.index t (0 : Fin 2)
    ∧ win7_0.index t (1 : Fin 2) = 0
    ∧ win7_1.index t (0 : Fin 2) = 0
    ∧ win7_1.index t (1 : Fin 2) = 0
    ∧ win7_2.index t (1 : Fin 2) = 0
    ∧ win7_2.index t (0 : Fin 2) ≤ 4 :=
  (by decide +kernel : ∀ t : Fin grid7.N, _)

/-- Every tile of the result is some point's. -/
theorem idx_onto : ∀ q0 : Fin 5, ∃ t : Fin cfg7.N, win7_2.index t = ![q0.val, 0] :=
  (by decide +kernel : ∀ q0 : Fin 5, ∃ t : Fin grid7.N, win7_2.index t = ![q0.val, 0])

/-- An entry of the left operand's tile at point `t` is the entry of the array in the tile's row range. -/
theorem read0 (c : Dev nD) (t : Fin cfg7.N) (p : Fin 2000) (k : Fin 128) (h : win7_2.index t (0 : Fin 2) * 2000 + p.val < 10000) :
    iblk7 V c 0 t (ix2 p k) = (V c main_v148 : FVec Ideal S10000x128 .f32) (ix2 ⟨win7_2.index t (0 : Fin 2) * 2000 + p.val, h⟩ k) := by
  obtain ⟨e0, e1, e2, e3, e4, e5⟩ := idx_facts t
  show V c main_v148 (((cfg7.win 0).blk t).view.emb (ix2 p k)) = _
  refine congrArg _ (funext fun a => Fin.ext ?_)
  match a with
  | ⟨0, _⟩ => show win7_0.index t (0 : Fin 2) * 2000 + 1 * p.val = win7_2.index t (0 : Fin 2) * 2000 + p.val; omega
  | ⟨1, _⟩ => show win7_0.index t (1 : Fin 2) * 128 + 1 * k.val = k.val; omega

/-- The weights' one tile is the whole array. -/
theorem read1 (c : Dev nD) (t : Fin cfg7.N) (k q : Fin 128) :
    iblk7 V c 1 t (ix2 k q) = (V c main_arg11 : FVec Ideal S128x128 .f32) (ix2 k q) := by
  obtain ⟨e0, e1, e2, e3, e4, e5⟩ := idx_facts t
  show V c main_arg11 (((cfg7.win 1).blk t).view.emb (ix2 k q)) = _
  refine congrArg _ (funext fun a => Fin.ext ?_)
  match a with
  | ⟨0, _⟩ => show win7_1.index t (0 : Fin 2) * 128 + 1 * k.val = k.val; omega
  | ⟨1, _⟩ => show win7_1.index t (1 : Fin 2) * 128 + 1 * q.val = q.val; omega

/-- What point `t` leaves in the result's tile, entry by entry, is the whole array's function at the tile's place. -/
theorem tile_eq (c : Dev nD) (t : Fin cfg7.N) (y : S2000x128.Idx) :
    out7_2 (iblk7 V c 0 t) (iblk7 V c 1 t) y = G (V c main_v148) (V c main_arg11) (((cfg7.win 2).blk t).view.emb y) := by
  obtain ⟨p, q, rfl⟩ : ∃ (p : Fin 2000) (q : Fin 128), y = ix2 p q := ⟨y 0, y 1, eq_ix2 y⟩
  obtain ⟨e0, e1, e2, e3, e4, e5⟩ := idx_facts t
  have hrow : win7_2.index t (0 : Fin 2) * 2000 + p.val < 10000 := by have := p.isLt; omega
  have hemb : ((cfg7.win 2).blk t).view.emb (ix2 p q) = ix2 (⟨win7_2.index t (0 : Fin 2) * 2000 + p.val, hrow⟩ : Fin 10000) q := by
    funext a; apply Fin.ext
    match a with
    | ⟨0, _⟩ => show win7_2.index t (0 : Fin 2) * 2000 + 1 * p.val = win7_2.index t (0 : Fin 2) * 2000 + p.val; omega
    | ⟨1, _⟩ => show win7_2.index t (1 : Fin 2) * 128 + 1 * q.val = q.val; omega
  rw [hemb]
  unfold out7_2
  rw [View.canon_unit_zero hz]
  simp only [View.ld_unit_zero (S := S2000x128) hz, View.ld_unit_zero (S := S128x128) hz]
  rw [pay_apply]
  unfold G
  rw [Cert.BlockOps.host_matmul _ rfl rfl rfl rfl rfl rfl]
  refine Finset.sum_congr rfl fun k _ => ?_
  rw [read0 V c t p k hrow, read1 V c t k q]

/-- What point `t` writes back is the tile of the whole array's function at `t`'s place. -/
theorem flushed_eq (c : Dev nD) (t : Fin cfg7.N) :
    (dat7 V c).flushed 2 t = ((cfg7.win 2).blk t).view.read (Elt Ideal) (G (V c main_v148) (V c main_arg11)) := by
  show (cfg7.win 2).cut (grid7.coords t) ((dat7 V c).after 2 t) = _
  rw [after7_2]
  funext j
  exact tile_eq V c t j

/-- An index of the array is in point `t`'s tile iff each coordinate is in the tile's range on its axis. -/
theorem mem_blk (t : Fin cfg7.N) (i : S10000x128.Idx) :
    i ∈ ((cfg7.win 2).blk t).view.set ↔ ∀ a : Fin 2, win7_2.index t a * S2000x128.size a ≤ (i a).val ∧ (i a).val < win7_2.index t a * S2000x128.size a + S2000x128.size a := by
  show i ∈ ((View.whole main_v150).slice (win7_2.rect t)).set ↔ _
  rw [View.set_slice_whole, Rect.mem_set_unit]
  exact Iff.rfl

/-- The tiles cover the array: row `r` is in the tile of point `r / 2000`. -/
theorem cover (i : S10000x128.Idx) : ∃ t : Fin cfg7.N, (cfg7.win 2).flush t = true ∧ i ∈ ((cfg7.win 2).blk t).view.set := by
  have hi0 : (i 0).val < 10000 := (i 0).isLt
  have hi1 : (i 1).val < 128 := (i 1).isLt
  obtain ⟨t, ht⟩ := idx_onto ⟨(i 0).val / 2000, by omega⟩
  have q0 : win7_2.index t (0 : Fin 2) = (i 0).val / 2000 := congrFun ht 0
  have q1 : win7_2.index t (1 : Fin 2) = 0 := congrFun ht 1
  refine ⟨t, flush7_2 t, ?_⟩
  rw [mem_blk]
  intro a
  match a with
  | ⟨0, _⟩ => show win7_2.index t (0 : Fin 2) * 2000 ≤ (i 0).val ∧ (i 0).val < win7_2.index t (0 : Fin 2) * 2000 + 2000; omega
  | ⟨1, _⟩ => show win7_2.index t (1 : Fin 2) * 128 ≤ (i 1).val ∧ (i 1).val < win7_2.index t (1 : Fin 2) * 128 + 128; omega

/-- The array the call leaves is that function of the arrays it found. -/
theorem final (c : Dev nD) : (dat7 V c).arrAt 2 cfg7.N = G (V c main_v148) (V c main_arg11) :=
  (dat7 V c).arrAt_eq_of_cover 2 (G (V c main_v148) (V c main_arg11)) (fun t _ => flushed_eq V c t) cover

end Cert.KernelIdeal.Region7

end
-- ==== Proof.Region8.lean ====
/-
  The ninth kernel call: a bias row added to every row of a matrix of 10000 rows, then the maximum with zero, in 5 tiles of
  2000 rows. Every entry of the result depends on the entry of the matrix at the same place and on one entry of the row, so
  the array the call leaves is that function of the whole matrix.
-/
import proofs.«126120_j15796889715339_1_alg».proof.Proof.Gen.KernelIdeal.Frame
import proofs.«126120_j15796889715339_1_alg».proof.Proof.Gen.ReferenceIdeal
import proofs.«126120_j15796889715339_1_alg».proof.Proof.BlockOps

set_option maxRecDepth 16384

noncomputable section

open scoped BigOperators

namespace Cert.KernelIdeal.Region8

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The bias row added down the rows and the maximum with zero, as the host computes them. -/
def G (X : FVec Ideal S10000x128 .f32) (b : FVec Ideal S1x128 .f32) : FVec Ideal S10000x128 .f32 :=
  maximumf (addf X (broadcastInDim Cert.ReferenceIdeal.S10000x128 ![0, 1] Cert.ReferenceIdeal.Facts₀.bcast_S1x128_S10000x128_0_1 b))
    (broadcastInDim Cert.ReferenceIdeal.S10000x128 ![] Cert.ReferenceIdeal.Facts₀.bcast_S_S10000x128 (constant Cert.ReferenceIdeal.S_ .f32 0x00000000#32))

theorem G_apply (X : FVec Ideal S10000x128 .f32) (b : FVec Ideal S1x128 .f32) (i : Fin 10000) (j : Fin 128) :
    G X b (ix2 i j) = max (X (ix2 i j) + b (ix2 (0 : Fin 1) j)) (Scalar.ofBits (F := Ideal) .f32 0x00000000#32) := by
  unfold G
  show max (X (ix2 i j) + broadcastInDim _ ![0, 1] Cert.ReferenceIdeal.Facts₀.bcast_S1x128_S10000x128_0_1 b (ix2 i j))
    (broadcastInDim _ ![] Cert.ReferenceIdeal.Facts₀.bcast_S_S10000x128 (constant Cert.ReferenceIdeal.S_ .f32 0x00000000#32) (ix2 i j)) = _
  rw [Cert.BlockOps.host_row_bcast _ _ rfl, Cert.BlockOps.host_scalar_bcast _ _ _ _ (fun a => a.elim0)]
  rfl

/-- The body's result on a tile, entry by entry. -/
theorem pay_apply (x : Vec Ideal S2000x128 .f32) (b : Vec Ideal S1x128 .f32) (p : Fin 2000) (q : Fin 128) :
    k8_pay1 x b (ix2 p q) = max (x (ix2 p q) + b (ix2 (0 : Fin 1) q)) (Scalar.ofBits (F := Ideal) .f32 0x00000000#32) := by
  unfold k8_pay1
  rw [shapeCast_self, shapeCast_self]
  show max (x (ix2 p q) + broadcastTo S2000x128 b broadcasts_S1x128_S2000x128 (ix2 p q)) _ = _
  rw [broadcastTo_1b_ab_apply]
  rfl

/-- The index maps over the grid: the left operand's tile and the result's tile move together down the rows, one tile per
    point, and every other operand has a single tile. -/
theorem idx_facts : ∀ t : Fin cfg8.N, win8_0.index t (0 : Fin 2) = win8_2.index t (0 : Fin 2)
    ∧ win8_0.index t (1 : Fin 2) = 0
    ∧ win8_1.index t (0 : Fin 2) = 0
    ∧ win8_1.index t (1 : Fin 2) = 0
    ∧ win8_2.index t (1 : Fin 2) = 0
    ∧ win8_2.index t (0 : Fin 2) ≤ 4 :=
  (by decide +kernel : ∀ t : Fin grid8.N, _)

/-- Every tile of the result is some point's. -/
theorem idx_onto : ∀ q0 : Fin 5, ∃ t : Fin cfg8.N, win8_2.index t = ![q0.val, 0] :=
  (by decide +kernel : ∀ q0 : Fin 5, ∃ t : Fin grid8.N, win8_2.index t = ![q0.val, 0])

/-- An entry of the left operand's tile at point `t` is the entry of the array in the tile's row range. -/
theorem read0 (c : Dev nD) (t : Fin cfg8.N) (p : Fin 2000) (k : Fin 128) (h : win8_2.index t (0 : Fin 2) * 2000 + p.val < 10000) :
    iblk8 V c 0 t (ix2 p k) = (V c main_v186 : FVec Ideal S10000x128 .f32) (ix2 ⟨win8_2.index t (0 : Fin 2) * 2000 + p.val, h⟩ k) := by
  obtain ⟨e0, e1, e2, e3, e4, e5⟩ := idx_facts t
  show V c main_v186 (((cfg8.win 0).blk t).view.emb (ix2 p k)) = _
  refine congrArg _ (funext fun a => Fin.ext ?_)
  match a with
  | ⟨0, _⟩ => show win8_0.index t (0 : Fin 2) * 2000 + 1 * p.val = win8_2.index t (0 : Fin 2) * 2000 + p.val; omega
  | ⟨1, _⟩ => show win8_0.index t (1 : Fin 2) * 128 + 1 * k.val = k.val; omega

/-- The bias row's one tile is the whole row. -/
theorem read1 (c : Dev nD) (t : Fin cfg8.N) (q : Fin 128) :
    iblk8 V c 1 t (ix2 (0 : Fin 1) q) = (V c main_v187 : FVec Ideal S1x128 .f32) (ix2 (0 : Fin 1) q) := by
  obtain ⟨e0, e1, e2, e3, e4, e5⟩ := idx_facts t
  show V c main_v187 (((cfg8.win 1).blk t).view.emb (ix2 (0 : Fin 1) q)) = _
  refine congrArg _ (funext fun a => Fin.ext ?_)
  match a with
  | ⟨0, _⟩ => show win8_1.index t (0 : Fin 2) * 1 + 1 * 0 = 0; omega
  | ⟨1, _⟩ => show win8_1.index t (1 : Fin 2) * 128 + 1 * q.val = q.val; omega

/-- What point `t` leaves in the result's tile, entry by entry, is the whole array's function at the tile's place. -/
theorem tile_eq (c : Dev nD) (t : Fin cfg8.N) (y : S2000x128.Idx) :
    out8_2 (iblk8 V c 0 t) (iblk8 V c 1 t) y = G (V c main_v186) (V c main_v187) (((cfg8.win 2).blk t).view.emb y) := by
  obtain ⟨p, q, rfl⟩ : ∃ (p : Fin 2000) (q : Fin 128), y = ix2 p q := ⟨y 0, y 1, eq_ix2 y⟩
  obtain ⟨e0, e1, e2, e3, e4, e5⟩ := idx_facts t
  have hrow : win8_2.index t (0 : Fin 2) * 2000 + p.val < 10000 := by have := p.isLt; omega
  have hemb : ((cfg8.win 2).blk t).view.emb (ix2 p q) = ix2 (⟨win8_2.index t (0 : Fin 2) * 2000 + p.val, hrow⟩ : Fin 10000) q := by
    funext a; apply Fin.ext
    match a with
    | ⟨0, _⟩ => show win8_2.index t (0 : Fin 2) * 2000 + 1 * p.val = win8_2.index t (0 : Fin 2) * 2000 + p.val; omega
    | ⟨1, _⟩ => show win8_2.index t (1 : Fin 2) * 128 + 1 * q.val = q.val; omega
  rw [hemb]
  unfold out8_2
  rw [View.canon_unit_zero hz]
  simp only [View.ld_unit_zero (S := S2000x128) hz, View.ld_unit_zero (S := S1x128) hz]
  rw [pay_apply, G_apply]
  rw [read0 V c t p q hrow, read1 V c t q]

/-- What point `t` writes back is the tile of the whole array's function at `t`'s place. -/
theorem flushed_eq (c : Dev nD) (t : Fin cfg8.N) :
    (dat8 V c).flushed 2 t = ((cfg8.win 2).blk t).view.read (Elt Ideal) (G (V c main_v186) (V c main_v187)) := by
  show (cfg8.win 2).cut (grid8.coords t) ((dat8 V c).after 2 t) = _
  rw [after8_2]
  funext j
  exact tile_eq V c t j

/-- An index of the array is in point `t`'s tile iff each coordinate is in the tile's range on its axis. -/
theorem mem_blk (t : Fin cfg8.N) (i : S10000x128.Idx) :
    i ∈ ((cfg8.win 2).blk t).view.set ↔ ∀ a : Fin 2, win8_2.index t a * S2000x128.size a ≤ (i a).val ∧ (i a).val < win8_2.index t a * S2000x128.size a + S2000x128.size a := by
  show i ∈ ((View.whole main_v188).slice (win8_2.rect t)).set ↔ _
  rw [View.set_slice_whole, Rect.mem_set_unit]
  exact Iff.rfl

/-- The tiles cover the array: row `r` is in the tile of point `r / 2000`. -/
theorem cover (i : S10000x128.Idx) : ∃ t : Fin cfg8.N, (cfg8.win 2).flush t = true ∧ i ∈ ((cfg8.win 2).blk t).view.set := by
  have hi0 : (i 0).val < 10000 := (i 0).isLt
  have hi1 : (i 1).val < 128 := (i 1).isLt
  obtain ⟨t, ht⟩ := idx_onto ⟨(i 0).val / 2000, by omega⟩
  have q0 : win8_2.index t (0 : Fin 2) = (i 0).val / 2000 := congrFun ht 0
  have q1 : win8_2.index t (1 : Fin 2) = 0 := congrFun ht 1
  refine ⟨t, flush8_2 t, ?_⟩
  rw [mem_blk]
  intro a
  match a with
  | ⟨0, _⟩ => show win8_2.index t (0 : Fin 2) * 2000 ≤ (i 0).val ∧ (i 0).val < win8_2.index t (0 : Fin 2) * 2000 + 2000; omega
  | ⟨1, _⟩ => show win8_2.index t (1 : Fin 2) * 128 ≤ (i 1).val ∧ (i 1).val < win8_2.index t (1 : Fin 2) * 128 + 128; omega

/-- The array the call leaves is that function of the arrays it found. -/
theorem final (c : Dev nD) : (dat8 V c).arrAt 2 cfg8.N = G (V c main_v186) (V c main_v187) :=
  (dat8 V c).arrAt_eq_of_cover 2 (G (V c main_v186) (V c main_v187)) (fun t _ => flushed_eq V c t) cover

end Cert.KernelIdeal.Region8

end
-- ==== Proof.Region9.lean ====
/-
  The tenth kernel call: the product of a matrix of 100000 rows with a square weight matrix, in 50 tiles of 2000 rows.
  Row `i` of the product depends on row `i` of the left operand only, so the tile that holds row `i` computes it in
  full, and the array the call leaves is the whole product.
-/
import proofs.«126120_j15796889715339_1_alg».proof.Proof.Gen.KernelIdeal.Frame
import proofs.«126120_j15796889715339_1_alg».proof.Proof.Gen.ReferenceIdeal
import proofs.«126120_j15796889715339_1_alg».proof.Proof.BlockOps

set_option maxRecDepth 16384

noncomputable section

open scoped BigOperators

namespace Cert.KernelIdeal.Region9

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The product of the whole matrix with the weights, as the host computes it. -/
def G (X : FVec Ideal S100000x128 .f32) (W : FVec Ideal S128x128 .f32) : FVec Ideal S100000x128 .f32 :=
  Host.dotGeneral Cert.ReferenceIdeal.dot_S100000x128_S128x128_S100000x128_1_0_0_1_n_n none X W

/-- The body's result on a tile, entry by entry. -/
theorem pay_apply (x : Vec Ideal S2000x128 .f32) (w : Vec Ideal S128x128 .f32) (p : Fin 2000) (q : Fin 128) :
    k9_pay1 x w (ix2 p q) = ∑ k : Fin 128, x (ix2 p k) * w (ix2 k q) := by
  unfold k9_pay1
  rw [shapeCast_self]
  exact Cert.BlockOps.tile_matmul dot_S2000x128_S128x128_S2000x128_1_0_0_1_n_n rfl rfl rfl rfl rfl rfl x w bitsLt_bf16_f32 p q

/-- The index maps over the grid: the left operand's tile and the result's tile move together down the rows, one tile per
    point, and every other operand has a single tile. -/
theorem idx_facts : ∀ t : Fin cfg9.N, win9_0.index t (0 : Fin 2) = win9_2.index t (0 : Fin 2)
    ∧ win9_0.index t (1 : Fin 2) = 0
    ∧ win9_1.index t (0 : Fin 2) = 0
    ∧ win9_1.index t (1 : Fin 2) = 0
    ∧ win9_2.index t (1 : Fin 2) = 0
    ∧ win9_2.index t (0 : Fin 2) ≤ 49 :=
  (by decide +kernel : ∀ t : Fin grid9.N, _)

/-- Every tile of the result is some point's. -/
theorem idx_onto : ∀ q0 : Fin 50, ∃ t : Fin cfg9.N, win9_2.index t = ![q0.val, 0] :=
  (by decide +kernel : ∀ q0 : Fin 50, ∃ t : Fin grid9.N, win9_2.index t = ![q0.val, 0])

/-- An entry of the left operand's tile at point `t` is the entry of the array in the tile's row range. -/
theorem read0 (c : Dev nD) (t : Fin cfg9.N) (p : Fin 2000) (k : Fin 128) (h : win9_2.index t (0 : Fin 2) * 2000 + p.val < 100000) :
    iblk9 V c 0 t (ix2 p k) = (V c main_v196 : FVec Ideal S100000x128 .f32) (ix2 ⟨win9_2.index t (0 : Fin 2) * 2000 + p.val, h⟩ k) := by
  obtain ⟨e0, e1, e2, e3, e4, e5⟩ := idx_facts t
  show V c main_v196 (((cfg9.win 0).blk t).view.emb (ix2 p k)) = _
  refine congrArg _ (funext fun a => Fin.ext ?_)
  match a with
  | ⟨0, _⟩ => show win9_0.index t (0 : Fin 2) * 2000 + 1 * p.val = win9_2.index t (0 : Fin 2) * 2000 + p.val; omega
  | ⟨1, _⟩ => show win9_0.index t (1 : Fin 2) * 128 + 1 * k.val = k.val; omega

/-- The weights' one tile is the whole array. -/
theorem read1 (c : Dev nD) (t : Fin cfg9.N) (k q : Fin 128) :
    iblk9 V c 1 t (ix2 k q) = (V c main_arg9 : FVec Ideal S128x128 .f32) (ix2 k q) := by
  obtain ⟨e0, e1, e2, e3, e4, e5⟩ := idx_facts t
  show V c main_arg9 (((cfg9.win 1).blk t).view.emb (ix2 k q)) = _
  refine congrArg _ (funext fun a => Fin.ext ?_)
  match a with
  | ⟨0, _⟩ => show win9_1.index t (0 : Fin 2) * 128 + 1 * k.val = k.val; omega
  | ⟨1, _⟩ => show win9_1.index t (1 : Fin 2) * 128 + 1 * q.val = q.val; omega

/-- What point `t` leaves in the result's tile, entry by entry, is the whole array's function at the tile's place. -/
theorem tile_eq (c : Dev nD) (t : Fin cfg9.N) (y : S2000x128.Idx) :
    out9_2 (iblk9 V c 0 t) (iblk9 V c 1 t) y = G (V c main_v196) (V c main_arg9) (((cfg9.win 2).blk t).view.emb y) := by
  obtain ⟨p, q, rfl⟩ : ∃ (p : Fin 2000) (q : Fin 128), y = ix2 p q := ⟨y 0, y 1, eq_ix2 y⟩
  obtain ⟨e0, e1, e2, e3, e4, e5⟩ := idx_facts t
  have hrow : win9_2.index t (0 : Fin 2) * 2000 + p.val < 100000 := by have := p.isLt; omega
  have hemb : ((cfg9.win 2).blk t).view.emb (ix2 p q) = ix2 (⟨win9_2.index t (0 : Fin 2) * 2000 + p.val, hrow⟩ : Fin 100000) q := by
    funext a; apply Fin.ext
    match a with
    | ⟨0, _⟩ => show win9_2.index t (0 : Fin 2) * 2000 + 1 * p.val = win9_2.index t (0 : Fin 2) * 2000 + p.val; omega
    | ⟨1, _⟩ => show win9_2.index t (1 : Fin 2) * 128 + 1 * q.val = q.val; omega
  rw [hemb]
  unfold out9_2
  rw [View.canon_unit_zero hz]
  simp only [View.ld_unit_zero (S := S2000x128) hz, View.ld_unit_zero (S := S128x128) hz]
  rw [pay_apply]
  unfold G
  rw [Cert.BlockOps.host_matmul _ rfl rfl rfl rfl rfl rfl]
  refine Finset.sum_congr rfl fun k _ => ?_
  rw [read0 V c t p k hrow, read1 V c t k q]

/-- What point `t` writes back is the tile of the whole array's function at `t`'s place. -/
theorem flushed_eq (c : Dev nD) (t : Fin cfg9.N) :
    (dat9 V c).flushed 2 t = ((cfg9.win 2).blk t).view.read (Elt Ideal) (G (V c main_v196) (V c main_arg9)) := by
  show (cfg9.win 2).cut (grid9.coords t) ((dat9 V c).after 2 t) = _
  rw [after9_2]
  funext j
  exact tile_eq V c t j

/-- An index of the array is in point `t`'s tile iff each coordinate is in the tile's range on its axis. -/
theorem mem_blk (t : Fin cfg9.N) (i : S100000x128.Idx) :
    i ∈ ((cfg9.win 2).blk t).view.set ↔ ∀ a : Fin 2, win9_2.index t a * S2000x128.size a ≤ (i a).val ∧ (i a).val < win9_2.index t a * S2000x128.size a + S2000x128.size a := by
  show i ∈ ((View.whole main_v198).slice (win9_2.rect t)).set ↔ _
  rw [View.set_slice_whole, Rect.mem_set_unit]
  exact Iff.rfl

/-- The tiles cover the array: row `r` is in the tile of point `r / 2000`. -/
theorem cover (i : S100000x128.Idx) : ∃ t : Fin cfg9.N, (cfg9.win 2).flush t = true ∧ i ∈ ((cfg9.win 2).blk t).view.set := by
  have hi0 : (i 0).val < 100000 := (i 0).isLt
  have hi1 : (i 1).val < 128 := (i 1).isLt
  obtain ⟨t, ht⟩ := idx_onto ⟨(i 0).val / 2000, by omega⟩
  have q0 : win9_2.index t (0 : Fin 2) = (i 0).val / 2000 := congrFun ht 0
  have q1 : win9_2.index t (1 : Fin 2) = 0 := congrFun ht 1
  refine ⟨t, flush9_2 t, ?_⟩
  rw [mem_blk]
  intro a
  match a with
  | ⟨0, _⟩ => show win9_2.index t (0 : Fin 2) * 2000 ≤ (i 0).val ∧ (i 0).val < win9_2.index t (0 : Fin 2) * 2000 + 2000; omega
  | ⟨1, _⟩ => show win9_2.index t (1 : Fin 2) * 128 ≤ (i 1).val ∧ (i 1).val < win9_2.index t (1 : Fin 2) * 128 + 128; omega

/-- The array the call leaves is that function of the arrays it found. -/
theorem final (c : Dev nD) : (dat9 V c).arrAt 2 cfg9.N = G (V c main_v196) (V c main_arg9) :=
  (dat9 V c).arrAt_eq_of_cover 2 (G (V c main_v196) (V c main_arg9)) (fun t _ => flushed_eq V c t) cover

end Cert.KernelIdeal.Region9

end
-- ==== Proof.Region10.lean ====
/-
  The eleventh kernel call: a bias row added to every row of a matrix of 100000 rows, in 50 tiles of
  2000 rows. Every entry of the result depends on the entry of the matrix at the same place and on one entry of the row, so
  the array the call leaves is that function of the whole matrix.
-/
import proofs.«126120_j15796889715339_1_alg».proof.Proof.Gen.KernelIdeal.Frame
import proofs.«126120_j15796889715339_1_alg».proof.Proof.Gen.ReferenceIdeal
import proofs.«126120_j15796889715339_1_alg».proof.Proof.BlockOps

set_option maxRecDepth 16384

noncomputable section

open scoped BigOperators

namespace Cert.KernelIdeal.Region10

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The bias row added down the rows, as the host computes it. -/
def G (X : FVec Ideal S100000x128 .f32) (b : FVec Ideal S1x128 .f32) : FVec Ideal S100000x128 .f32 :=
  addf X (broadcastInDim Cert.ReferenceIdeal.S100000x128 ![0, 1] Cert.ReferenceIdeal.Facts₀.bcast_S1x128_S100000x128_0_1 b)

theorem G_apply (X : FVec Ideal S100000x128 .f32) (b : FVec Ideal S1x128 .f32) (i : Fin 100000) (j : Fin 128) :
    G X b (ix2 i j) = X (ix2 i j) + b (ix2 (0 : Fin 1) j) := by
  unfold G
  show X (ix2 i j) + broadcastInDim _ ![0, 1] Cert.ReferenceIdeal.Facts₀.bcast_S1x128_S100000x128_0_1 b (ix2 i j) = _
  rw [Cert.BlockOps.host_row_bcast _ _ rfl]

/-- The body's result on a tile, entry by entry. -/
theorem pay_apply (x : Vec Ideal S2000x128 .f32) (b : Vec Ideal S1x128 .f32) (p : Fin 2000) (q : Fin 128) :
    k10_pay1 x b (ix2 p q) = x (ix2 p q) + b (ix2 (0 : Fin 1) q) := by
  unfold k10_pay1
  rw [shapeCast_self, shapeCast_self]
  show x (ix2 p q) + broadcastTo S2000x128 b broadcasts_S1x128_S2000x128 (ix2 p q) = _
  rw [broadcastTo_1b_ab_apply]

/-- The index maps over the grid: the left operand's tile and the result's tile move together down the rows, one tile per
    point, and every other operand has a single tile. -/
theorem idx_facts : ∀ t : Fin cfg10.N, win10_0.index t (0 : Fin 2) = win10_2.index t (0 : Fin 2)
    ∧ win10_0.index t (1 : Fin 2) = 0
    ∧ win10_1.index t (0 : Fin 2) = 0
    ∧ win10_1.index t (1 : Fin 2) = 0
    ∧ win10_2.index t (1 : Fin 2) = 0
    ∧ win10_2.index t (0 : Fin 2) ≤ 49 :=
  (by decide +kernel : ∀ t : Fin grid10.N, _)

/-- Every tile of the result is some point's. -/
theorem idx_onto : ∀ q0 : Fin 50, ∃ t : Fin cfg10.N, win10_2.index t = ![q0.val, 0] :=
  (by decide +kernel : ∀ q0 : Fin 50, ∃ t : Fin grid10.N, win10_2.index t = ![q0.val, 0])

/-- An entry of the left operand's tile at point `t` is the entry of the array in the tile's row range. -/
theorem read0 (c : Dev nD) (t : Fin cfg10.N) (p : Fin 2000) (k : Fin 128) (h : win10_2.index t (0 : Fin 2) * 2000 + p.val < 100000) :
    iblk10 V c 0 t (ix2 p k) = (V c main_v234 : FVec Ideal S100000x128 .f32) (ix2 ⟨win10_2.index t (0 : Fin 2) * 2000 + p.val, h⟩ k) := by
  obtain ⟨e0, e1, e2, e3, e4, e5⟩ := idx_facts t
  show V c main_v234 (((cfg10.win 0).blk t).view.emb (ix2 p k)) = _
  refine congrArg _ (funext fun a => Fin.ext ?_)
  match a with
  | ⟨0, _⟩ => show win10_0.index t (0 : Fin 2) * 2000 + 1 * p.val = win10_2.index t (0 : Fin 2) * 2000 + p.val; omega
  | ⟨1, _⟩ => show win10_0.index t (1 : Fin 2) * 128 + 1 * k.val = k.val; omega

/-- The bias row's one tile is the whole row. -/
theorem read1 (c : Dev nD) (t : Fin cfg10.N) (q : Fin 128) :
    iblk10 V c 1 t (ix2 (0 : Fin 1) q) = (V c main_v235 : FVec Ideal S1x128 .f32) (ix2 (0 : Fin 1) q) := by
  obtain ⟨e0, e1, e2, e3, e4, e5⟩ := idx_facts t
  show V c main_v235 (((cfg10.win 1).blk t).view.emb (ix2 (0 : Fin 1) q)) = _
  refine congrArg _ (funext fun a => Fin.ext ?_)
  match a with
  | ⟨0, _⟩ => show win10_1.index t (0 : Fin 2) * 1 + 1 * 0 = 0; omega
  | ⟨1, _⟩ => show win10_1.index t (1 : Fin 2) * 128 + 1 * q.val = q.val; omega

/-- What point `t` leaves in the result's tile, entry by entry, is the whole array's function at the tile's place. -/
theorem tile_eq (c : Dev nD) (t : Fin cfg10.N) (y : S2000x128.Idx) :
    out10_2 (iblk10 V c 0 t) (iblk10 V c 1 t) y = G (V c main_v234) (V c main_v235) (((cfg10.win 2).blk t).view.emb y) := by
  obtain ⟨p, q, rfl⟩ : ∃ (p : Fin 2000) (q : Fin 128), y = ix2 p q := ⟨y 0, y 1, eq_ix2 y⟩
  obtain ⟨e0, e1, e2, e3, e4, e5⟩ := idx_facts t
  have hrow : win10_2.index t (0 : Fin 2) * 2000 + p.val < 100000 := by have := p.isLt; omega
  have hemb : ((cfg10.win 2).blk t).view.emb (ix2 p q) = ix2 (⟨win10_2.index t (0 : Fin 2) * 2000 + p.val, hrow⟩ : Fin 100000) q := by
    funext a; apply Fin.ext
    match a with
    | ⟨0, _⟩ => show win10_2.index t (0 : Fin 2) * 2000 + 1 * p.val = win10_2.index t (0 : Fin 2) * 2000 + p.val; omega
    | ⟨1, _⟩ => show win10_2.index t (1 : Fin 2) * 128 + 1 * q.val = q.val; omega
  rw [hemb]
  unfold out10_2
  rw [View.canon_unit_zero hz]
  simp only [View.ld_unit_zero (S := S2000x128) hz, View.ld_unit_zero (S := S1x128) hz]
  rw [pay_apply, G_apply]
  rw [read0 V c t p q hrow, read1 V c t q]

/-- What point `t` writes back is the tile of the whole array's function at `t`'s place. -/
theorem flushed_eq (c : Dev nD) (t : Fin cfg10.N) :
    (dat10 V c).flushed 2 t = ((cfg10.win 2).blk t).view.read (Elt Ideal) (G (V c main_v234) (V c main_v235)) := by
  show (cfg10.win 2).cut (grid10.coords t) ((dat10 V c).after 2 t) = _
  rw [after10_2]
  funext j
  exact tile_eq V c t j

/-- An index of the array is in point `t`'s tile iff each coordinate is in the tile's range on its axis. -/
theorem mem_blk (t : Fin cfg10.N) (i : S100000x128.Idx) :
    i ∈ ((cfg10.win 2).blk t).view.set ↔ ∀ a : Fin 2, win10_2.index t a * S2000x128.size a ≤ (i a).val ∧ (i a).val < win10_2.index t a * S2000x128.size a + S2000x128.size a := by
  show i ∈ ((View.whole main_v236).slice (win10_2.rect t)).set ↔ _
  rw [View.set_slice_whole, Rect.mem_set_unit]
  exact Iff.rfl

/-- The tiles cover the array: row `r` is in the tile of point `r / 2000`. -/
theorem cover (i : S100000x128.Idx) : ∃ t : Fin cfg10.N, (cfg10.win 2).flush t = true ∧ i ∈ ((cfg10.win 2).blk t).view.set := by
  have hi0 : (i 0).val < 100000 := (i 0).isLt
  have hi1 : (i 1).val < 128 := (i 1).isLt
  obtain ⟨t, ht⟩ := idx_onto ⟨(i 0).val / 2000, by omega⟩
  have q0 : win10_2.index t (0 : Fin 2) = (i 0).val / 2000 := congrFun ht 0
  have q1 : win10_2.index t (1 : Fin 2) = 0 := congrFun ht 1
  refine ⟨t, flush10_2 t, ?_⟩
  rw [mem_blk]
  intro a
  match a with
  | ⟨0, _⟩ => show win10_2.index t (0 : Fin 2) * 2000 ≤ (i 0).val ∧ (i 0).val < win10_2.index t (0 : Fin 2) * 2000 + 2000; omega
  | ⟨1, _⟩ => show win10_2.index t (1 : Fin 2) * 128 ≤ (i 1).val ∧ (i 1).val < win10_2.index t (1 : Fin 2) * 128 + 128; omega

/-- The array the call leaves is that function of the arrays it found. -/
theorem final (c : Dev nD) : (dat10 V c).arrAt 2 cfg10.N = G (V c main_v234) (V c main_v235) :=
  (dat10 V c).arrAt_eq_of_cover 2 (G (V c main_v234) (V c main_v235)) (fun t _ => flushed_eq V c t) cover

end Cert.KernelIdeal.Region10

end
-- ==== Proof.Calls.lean ====
/-
  What each kernel call leaves, as a stage of the reference. A call leaves in its result array the whole-array function of
  the arrays it found (the product with the weights, the bias added down the rows, the maximum with zero); once the arrays
  it found are the reference's stages and the arguments, that function of them is the reference's next stage. The bias
  reaches a call as a row `[1, 128]` made by a reshape, where the reference makes the same row by a broadcast.
-/
import proofs.«126120_j15796889715339_1_alg».proof.Proof.Args
import proofs.«126120_j15796889715339_1_alg».proof.Proof.RefRead
import proofs.«126120_j15796889715339_1_alg».proof.Proof.Region0
import proofs.«126120_j15796889715339_1_alg».proof.Proof.Region1
import proofs.«126120_j15796889715339_1_alg».proof.Proof.Region2
import proofs.«126120_j15796889715339_1_alg».proof.Proof.Region3
import proofs.«126120_j15796889715339_1_alg».proof.Proof.Region4
import proofs.«126120_j15796889715339_1_alg».proof.Proof.Region5
import proofs.«126120_j15796889715339_1_alg».proof.Proof.Region6
import proofs.«126120_j15796889715339_1_alg».proof.Proof.Region7
import proofs.«126120_j15796889715339_1_alg».proof.Proof.Region8
import proofs.«126120_j15796889715339_1_alg».proof.Proof.Region9
import proofs.«126120_j15796889715339_1_alg».proof.Proof.Region10

set_option maxRecDepth 16384

noncomputable section

namespace Cert.KernelIdeal.Calls

open Cert.KernelIdeal Cert.KernelIdeal.Gen Cert.KernelIdeal.Keep
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-- The first call: the input features times the first weights plus the first bias. -/
theorem aff0_of (e0 : W1 m ρ c (Proc.devRef .tc main_v0) = shapeCast S1x128 (m ((c : Thread nD τ).loc main_arg2)) shapeCasts_S128_S1x128) :
    W2 m ρ c (Proc.devRef .tc main_v1) = val_main_v3 (F := Ideal) (m ((c : Thread nD τ).loc main_arg0)) (m ((c : Thread nD τ).loc main_arg1)) (m ((c : Thread nD τ).loc main_arg2)) := by
  refine (W2_arr m ρ c 3).trans ((Region0.final (V1 m ρ) c).trans ?_)
  show Region0.G (W1 m ρ c (Proc.devRef .tc main_arg0)) (W1 m ρ c (Proc.devRef .tc main_arg1)) (W1 m ρ c (Proc.devRef .tc main_v0)) = _
  rw [Args.at1 m ρ c main_arg0 (by decide), Args.at1 m ρ c main_arg1 (by decide), e0]
  unfold Region0.G
  rw [Cert.BlockOps.row_of_vec _ _ ![1] Cert.ReferenceIdeal.Facts₀.bcast_S128_S1x128_1 rfl]
  rfl

/-- A layer's features times its weights. -/
theorem mm1_of (eX : W2 m ρ c (Proc.devRef .tc main_v1) = val_main_v3 (F := Ideal) (m ((c : Thread nD τ).loc main_arg0)) (m ((c : Thread nD τ).loc main_arg1)) (m ((c : Thread nD τ).loc main_arg2))) :
    W3 m ρ c (Proc.devRef .tc main_v2) = val_main_v27 (F := Ideal) (m ((c : Thread nD τ).loc main_arg0)) (m ((c : Thread nD τ).loc main_arg1)) (m ((c : Thread nD τ).loc main_arg2)) (m ((c : Thread nD τ).loc main_arg3)) := by
  refine (W3_arr m ρ c 2).trans ((Region1.final (V2 m ρ) c).trans ?_)
  show Region1.G (W2 m ρ c (Proc.devRef .tc main_v1)) (W2 m ρ c (Proc.devRef .tc main_arg3)) = _
  rw [eX, Args.at2 m ρ c main_arg3 (by decide)]
  rfl

/-- A layer's features times its weights. -/
theorem mm3_of (eX : W8 m ρ c (Proc.devRef .tc main_v51) = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg13)) (m ((c : Thread nD τ).loc main_arg14)) (m ((c : Thread nD τ).loc main_arg15)) (m ((c : Thread nD τ).loc main_arg22))) :
    W9 m ρ c (Proc.devRef .tc main_v52) = val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg13)) (m ((c : Thread nD τ).loc main_arg14)) (m ((c : Thread nD τ).loc main_arg15)) (m ((c : Thread nD τ).loc main_arg22)) := by
  refine (W9_arr m ρ c 2).trans ((Region3.final (V8 m ρ) c).trans ?_)
  show Region3.G (W8 m ρ c (Proc.devRef .tc main_v51)) (W8 m ρ c (Proc.devRef .tc main_arg5)) = _
  rw [eX, Args.at8 m ρ c main_arg5 (by decide)]
  rfl

/-- A layer's features times its weights. -/
theorem mm5_of (eX : W14 m ρ c (Proc.devRef .tc main_v101) = val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg22)) (m ((c : Thread nD τ).loc main_arg23))) :
    W15 m ρ c (Proc.devRef .tc main_v102) = val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg22)) (m ((c : Thread nD τ).loc main_arg23)) := by
  refine (W15_arr m ρ c 2).trans ((Region5.final (V14 m ρ) c).trans ?_)
  show Region5.G (W14 m ρ c (Proc.devRef .tc main_v101)) (W14 m ρ c (Proc.devRef .tc main_arg7)) = _
  rw [eX, Args.at14 m ρ c main_arg7 (by decide)]
  rfl

/-- A layer's features times its weights. -/
theorem mm7_of (eX : W20 m ρ c (Proc.devRef .tc main_v148) = val_main_v156 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))) :
    W21 m ρ c (Proc.devRef .tc main_v150) = val_main_v181 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  refine (W21_arr m ρ c 2).trans ((Region7.final (V20 m ρ) c).trans ?_)
  show Region7.G (W20 m ρ c (Proc.devRef .tc main_v148)) (W20 m ρ c (Proc.devRef .tc main_arg11)) = _
  rw [eX, Args.at20 m ρ c main_arg11 (by decide)]
  rfl

/-- A layer's features times its weights. -/
theorem mm9_of (eX : W26 m ρ c (Proc.devRef .tc main_v196) = val_main_v206 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))) :
    W27 m ρ c (Proc.devRef .tc main_v198) = val_main_v231 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  refine (W27_arr m ρ c 2).trans ((Region9.final (V26 m ρ) c).trans ?_)
  show Region9.G (W26 m ρ c (Proc.devRef .tc main_v196)) (W26 m ρ c (Proc.devRef .tc main_arg9)) = _
  rw [eX, Args.at26 m ρ c main_arg9 (by decide)]
  rfl

/-- A layer's aggregated features plus its bias, then the maximum with zero. -/
theorem act2_of (eX : W6 m ρ c (Proc.devRef .tc main_v38) = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg13)) (m ((c : Thread nD τ).loc main_arg14)) (m ((c : Thread nD τ).loc main_arg15)))
    (eb : W6 m ρ c (Proc.devRef .tc main_v39) = shapeCast S1x128 (m ((c : Thread nD τ).loc main_arg4)) shapeCasts_S128_S1x128) :
    W7 m ρ c (Proc.devRef .tc main_v40) = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg13)) (m ((c : Thread nD τ).loc main_arg14)) (m ((c : Thread nD τ).loc main_arg15)) := by
  refine (W7_arr m ρ c 2).trans ((Region2.final (V6 m ρ) c).trans ?_)
  show Region2.G (W6 m ρ c (Proc.devRef .tc main_v38)) (W6 m ρ c (Proc.devRef .tc main_v39)) = _
  rw [eX, eb]
  unfold Region2.G
  rw [Cert.BlockOps.row_of_vec _ _ ![1] Cert.ReferenceIdeal.Facts₀.bcast_S128_S1x128_1 rfl]
  rfl

/-- A layer's aggregated features plus its bias, then the maximum with zero. -/
theorem act4_of (eX : W12 m ρ c (Proc.devRef .tc main_v88) = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg22)))
    (eb : W12 m ρ c (Proc.devRef .tc main_v89) = shapeCast S1x128 (m ((c : Thread nD τ).loc main_arg6)) shapeCasts_S128_S1x128) :
    W13 m ρ c (Proc.devRef .tc main_v90) = val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg22)) := by
  refine (W13_arr m ρ c 2).trans ((Region4.final (V12 m ρ) c).trans ?_)
  show Region4.G (W12 m ρ c (Proc.devRef .tc main_v88)) (W12 m ρ c (Proc.devRef .tc main_v89)) = _
  rw [eX, eb]
  unfold Region4.G
  rw [Cert.BlockOps.row_of_vec _ _ ![1] Cert.ReferenceIdeal.Facts₀.bcast_S128_S1x128_1 rfl]
  rfl

/-- A layer's aggregated features plus its bias, then the maximum with zero. -/
theorem act6_of (eX : W18 m ρ c (Proc.devRef .tc main_v138) = val_main_v144 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)))
    (eb : W18 m ρ c (Proc.devRef .tc main_v139) = shapeCast S1x128 (m ((c : Thread nD τ).loc main_arg8)) shapeCasts_S128_S1x128) :
    W19 m ρ c (Proc.devRef .tc main_v140) = val_main_v148 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  refine (W19_arr m ρ c 2).trans ((Region6.final (V18 m ρ) c).trans ?_)
  show Region6.G (W18 m ρ c (Proc.devRef .tc main_v138)) (W18 m ρ c (Proc.devRef .tc main_v139)) = _
  rw [eX, eb]
  unfold Region6.G
  rw [Cert.BlockOps.row_of_vec _ _ ![1] Cert.ReferenceIdeal.Facts₀.bcast_S128_S1x128_1 rfl]
  rfl

/-- A layer's aggregated features plus its bias, then the maximum with zero. -/
theorem act8_of (eX : W24 m ρ c (Proc.devRef .tc main_v186) = val_main_v194 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)))
    (eb : W24 m ρ c (Proc.devRef .tc main_v187) = shapeCast S1x128 (m ((c : Thread nD τ).loc main_arg12)) shapeCasts_S128_S1x128) :
    W25 m ρ c (Proc.devRef .tc main_v188) = val_main_v198 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  refine (W25_arr m ρ c 2).trans ((Region8.final (V24 m ρ) c).trans ?_)
  show Region8.G (W24 m ρ c (Proc.devRef .tc main_v186)) (W24 m ρ c (Proc.devRef .tc main_v187)) = _
  rw [eX, eb]
  unfold Region8.G
  rw [Cert.BlockOps.row_of_vec _ _ ![1] Cert.ReferenceIdeal.Facts₀.bcast_S128_S1x128_1 rfl]
  rfl

/-- A layer's aggregated features plus its bias. -/
theorem act10_of (eX : W30 m ρ c (Proc.devRef .tc main_v234) = val_main_v244 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)))
    (eb : W30 m ρ c (Proc.devRef .tc main_v235) = shapeCast S1x128 (m ((c : Thread nD τ).loc main_arg10)) shapeCasts_S128_S1x128) :
    W31 m ρ c (Proc.devRef .tc main_v236) = val_main_v247 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  refine (W31_arr m ρ c 2).trans ((Region10.final (V30 m ρ) c).trans ?_)
  show Region10.G (W30 m ρ c (Proc.devRef .tc main_v234)) (W30 m ρ c (Proc.devRef .tc main_v235)) = _
  rw [eX, eb]
  unfold Region10.G
  rw [Cert.BlockOps.row_of_vec _ _ ![1] Cert.ReferenceIdeal.Facts₀.bcast_S128_S1x128_1 rfl]
  rfl

end Cert.KernelIdeal.Calls

end
-- ==== Proof.Agg2.lean ====
/-
  The stretch of host operations that aggregates over the edges of the finest graph (100000 nodes): the degree of every node (the sum
  of the weights of the edges that end there), its inverse square root where the degree is positive and zero elsewhere,
  the normalised weight of every edge, and the sum over the edges that end at a node of the features at the edge's
  start times that weight. The kernel's program and the reference apply the same operations to the same arrays, so what
  the stretch leaves is the reference's stage once the features it starts from are.
-/
import proofs.«126120_j15796889715339_1_alg».proof.Proof.Args
import proofs.«126120_j15796889715339_1_alg».proof.Proof.RefRead

set_option maxRecDepth 16384

noncomputable section

namespace Cert.KernelIdeal.Agg2

open Cert.KernelIdeal Cert.KernelIdeal.Gen Cert.KernelIdeal.Keep
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-! The three operations of the outlined `where` move values between a buffer's own type and the tensor type the
    function states; at these buffers the two are one type and the move is the identity. -/
theorem ofBuf_main_cst_1 (x : (⟨S_, .f32⟩ : BufTy).Contents (Elt Ideal)) :
    (TRef.of main_cst_1 : TRef sig ⟨S_, .f32⟩).ofBuf x = x := cast_eq _ _
theorem toBuf_main_call0_v0 (x : (⟨S_, .f32⟩ : BufTy).Contents (Elt Ideal)) :
    (TRef.of main_call0_v0 : TRef sig ⟨S_, .f32⟩).toBuf x = x := cast_eq _ _
theorem ofBuf_main_call0_v0 (x : (⟨S_, .f32⟩ : BufTy).Contents (Elt Ideal)) :
    (TRef.of main_call0_v0 : TRef sig ⟨S_, .f32⟩).ofBuf x = x := cast_eq _ _
theorem toBuf_main_call0_v1 (x : (⟨S100000, .f32⟩ : BufTy).Contents (Elt Ideal)) :
    (TRef.of main_call0_v1 : TRef sig ⟨S100000, .f32⟩).toBuf x = x := cast_eq _ _
theorem ofBuf_main_call0_v1 (x : (⟨S100000, .f32⟩ : BufTy).Contents (Elt Ideal)) :
    (TRef.of main_call0_v1 : TRef sig ⟨S100000, .f32⟩).ofBuf x = x := cast_eq _ _
theorem ofBuf_main_v7 (x : (⟨S100000, .i1⟩ : BufTy).Contents (Elt Ideal)) :
    (TRef.of main_v7 : TRef sig ⟨S100000, .i1⟩).ofBuf x = x := cast_eq _ _
theorem ofBuf_main_v8 (x : (⟨S100000, .f32⟩ : BufTy).Contents (Elt Ideal)) :
    (TRef.of main_v8 : TRef sig ⟨S100000, .f32⟩).ofBuf x = x := cast_eq _ _
theorem toBuf_main_v9 (x : (⟨S100000, .f32⟩ : BufTy).Contents (Elt Ideal)) :
    (TRef.of main_v9 : TRef sig ⟨S100000, .f32⟩).toBuf x = x := cast_eq _ _

set_option maxHeartbeats 2000000 in
/-- The aggregated features. -/
theorem agg_of (emm : W3 m ρ c (Proc.devRef .tc main_v2) = val_main_v27 (F := Ideal) (m ((c : Thread nD τ).loc main_arg0)) (m ((c : Thread nD τ).loc main_arg1)) (m ((c : Thread nD τ).loc main_arg2)) (m ((c : Thread nD τ).loc main_arg3))) :
    W6 m ρ c (Proc.devRef .tc main_v38) = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg13)) (m ((c : Thread nD τ).loc main_arg14)) (m ((c : Thread nD τ).loc main_arg15)) := by
  have e13 := Args.at3 m ρ c main_arg13 (by decide)
  have e14 := Args.at3 m ρ c main_arg14 (by decide)
  have e15 := Args.at3 m ρ c main_arg15 (by decide)
  show StableHlo.after hostOps2_2 (StableHlo.after hostOps2_1 (StableHlo.after hostOps2 (W3 m ρ c))) (Proc.devRef .tc main_v38) = _
  generalize W3 m ρ c = W at emm e13 e14 e15 ⊢
  dsimp only [hostOps2, hostOps2_1, hostOps2_2]
  after_results_simp
  rw [emm, e13, e14, e15]
  rw [toBuf_main_v9, ofBuf_main_v7, ofBuf_main_v8, ofBuf_main_call0_v1, toBuf_main_call0_v1, ofBuf_main_call0_v0, toBuf_main_call0_v0, ofBuf_main_cst_1]
  rfl

/-- The bias vector laid out as a row for the kernel call that follows. -/
theorem bias_row : W6 m ρ c (Proc.devRef .tc main_v39)
    = shapeCast S1x128 (m ((c : Thread nD τ).loc main_arg4)) shapeCasts_S128_S1x128 := by
  have eb := Args.at3 m ρ c main_arg4 (by decide)
  show StableHlo.after hostOps2_2 (StableHlo.after hostOps2_1 (StableHlo.after hostOps2 (W3 m ρ c))) (Proc.devRef .tc main_v39) = _
  generalize W3 m ρ c = W at eb ⊢
  dsimp only [hostOps2, hostOps2_1, hostOps2_2]
  after_results_simp
  rw [eb]
  rfl

end Cert.KernelIdeal.Agg2

end
-- ==== Proof.Agg4.lean ====
/-
  The stretch of host operations that aggregates over the edges of the middle graph (10000 clusters): the degree of every node (the sum
  of the weights of the edges that end there), its inverse square root where the degree is positive and zero elsewhere,
  the normalised weight of every edge, and the sum over the edges that end at a node of the features at the edge's
  start times that weight. The kernel's program and the reference apply the same operations to the same arrays, so what
  the stretch leaves is the reference's stage once the features it starts from are.
-/
import proofs.«126120_j15796889715339_1_alg».proof.Proof.Args
import proofs.«126120_j15796889715339_1_alg».proof.Proof.RefRead

set_option maxRecDepth 16384

noncomputable section

namespace Cert.KernelIdeal.Agg4

open Cert.KernelIdeal Cert.KernelIdeal.Gen Cert.KernelIdeal.Keep
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-! The three operations of the outlined `where` move values between a buffer's own type and the tensor type the
    function states; at these buffers the two are one type and the move is the identity. -/
theorem ofBuf_main_cst_14 (x : (⟨S_, .f32⟩ : BufTy).Contents (Elt Ideal)) :
    (TRef.of main_cst_14 : TRef sig ⟨S_, .f32⟩).ofBuf x = x := cast_eq _ _
theorem toBuf_main_call1_v0 (x : (⟨S_, .f32⟩ : BufTy).Contents (Elt Ideal)) :
    (TRef.of main_call1_v0 : TRef sig ⟨S_, .f32⟩).toBuf x = x := cast_eq _ _
theorem ofBuf_main_call1_v0 (x : (⟨S_, .f32⟩ : BufTy).Contents (Elt Ideal)) :
    (TRef.of main_call1_v0 : TRef sig ⟨S_, .f32⟩).ofBuf x = x := cast_eq _ _
theorem toBuf_main_call1_v1 (x : (⟨S10000, .f32⟩ : BufTy).Contents (Elt Ideal)) :
    (TRef.of main_call1_v1 : TRef sig ⟨S10000, .f32⟩).toBuf x = x := cast_eq _ _
theorem ofBuf_main_call1_v1 (x : (⟨S10000, .f32⟩ : BufTy).Contents (Elt Ideal)) :
    (TRef.of main_call1_v1 : TRef sig ⟨S10000, .f32⟩).ofBuf x = x := cast_eq _ _
theorem ofBuf_main_v57 (x : (⟨S10000, .i1⟩ : BufTy).Contents (Elt Ideal)) :
    (TRef.of main_v57 : TRef sig ⟨S10000, .i1⟩).ofBuf x = x := cast_eq _ _
theorem ofBuf_main_v58 (x : (⟨S10000, .f32⟩ : BufTy).Contents (Elt Ideal)) :
    (TRef.of main_v58 : TRef sig ⟨S10000, .f32⟩).ofBuf x = x := cast_eq _ _
theorem toBuf_main_v59 (x : (⟨S10000, .f32⟩ : BufTy).Contents (Elt Ideal)) :
    (TRef.of main_v59 : TRef sig ⟨S10000, .f32⟩).toBuf x = x := cast_eq _ _

set_option maxHeartbeats 2000000 in
/-- The aggregated features. -/
theorem agg_of (emm : W9 m ρ c (Proc.devRef .tc main_v52) = val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg13)) (m ((c : Thread nD τ).loc main_arg14)) (m ((c : Thread nD τ).loc main_arg15)) (m ((c : Thread nD τ).loc main_arg22))) :
    W12 m ρ c (Proc.devRef .tc main_v88) = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg22)) := by
  have e16 := Args.at9 m ρ c main_arg16 (by decide)
  have e17 := Args.at9 m ρ c main_arg17 (by decide)
  have e18 := Args.at9 m ρ c main_arg18 (by decide)
  show StableHlo.after hostOps4_2 (StableHlo.after hostOps4_1 (StableHlo.after hostOps4 (W9 m ρ c))) (Proc.devRef .tc main_v88) = _
  generalize W9 m ρ c = W at emm e16 e17 e18 ⊢
  dsimp only [hostOps4, hostOps4_1, hostOps4_2]
  after_results_simp
  rw [emm, e16, e17, e18]
  rw [toBuf_main_v59, ofBuf_main_v57, ofBuf_main_v58, ofBuf_main_call1_v1, toBuf_main_call1_v1, ofBuf_main_call1_v0, toBuf_main_call1_v0, ofBuf_main_cst_14]
  rfl

/-- The bias vector laid out as a row for the kernel call that follows. -/
theorem bias_row : W12 m ρ c (Proc.devRef .tc main_v89)
    = shapeCast S1x128 (m ((c : Thread nD τ).loc main_arg6)) shapeCasts_S128_S1x128 := by
  have eb := Args.at9 m ρ c main_arg6 (by decide)
  show StableHlo.after hostOps4_2 (StableHlo.after hostOps4_1 (StableHlo.after hostOps4 (W9 m ρ c))) (Proc.devRef .tc main_v89) = _
  generalize W9 m ρ c = W at eb ⊢
  dsimp only [hostOps4, hostOps4_1, hostOps4_2]
  after_results_simp
  rw [eb]
  rfl

end Cert.KernelIdeal.Agg4

end
-- ==== Proof.Agg6.lean ====
/-
  The stretch of host operations that aggregates over the edges of the coarsest graph (1000 clusters): the degree of every node (the sum
  of the weights of the edges that end there), its inverse square root where the degree is positive and zero elsewhere,
  the normalised weight of every edge, and the sum over the edges that end at a node of the features at the edge's
  start times that weight. The kernel's program and the reference apply the same operations to the same arrays, so what
  the stretch leaves is the reference's stage once the features it starts from are.
-/
import proofs.«126120_j15796889715339_1_alg».proof.Proof.Args
import proofs.«126120_j15796889715339_1_alg».proof.Proof.RefRead

set_option maxRecDepth 16384

noncomputable section

namespace Cert.KernelIdeal.Agg6

open Cert.KernelIdeal Cert.KernelIdeal.Gen Cert.KernelIdeal.Keep
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-! The three operations of the outlined `where` move values between a buffer's own type and the tensor type the
    function states; at these buffers the two are one type and the move is the identity. -/
theorem ofBuf_main_cst_28 (x : (⟨S_, .f32⟩ : BufTy).Contents (Elt Ideal)) :
    (TRef.of main_cst_28 : TRef sig ⟨S_, .f32⟩).ofBuf x = x := cast_eq _ _
theorem toBuf_main_call2_v0 (x : (⟨S_, .f32⟩ : BufTy).Contents (Elt Ideal)) :
    (TRef.of main_call2_v0 : TRef sig ⟨S_, .f32⟩).toBuf x = x := cast_eq _ _
theorem ofBuf_main_call2_v0 (x : (⟨S_, .f32⟩ : BufTy).Contents (Elt Ideal)) :
    (TRef.of main_call2_v0 : TRef sig ⟨S_, .f32⟩).ofBuf x = x := cast_eq _ _
theorem toBuf_main_call2_v1 (x : (⟨S1000, .f32⟩ : BufTy).Contents (Elt Ideal)) :
    (TRef.of main_call2_v1 : TRef sig ⟨S1000, .f32⟩).toBuf x = x := cast_eq _ _
theorem ofBuf_main_call2_v1 (x : (⟨S1000, .f32⟩ : BufTy).Contents (Elt Ideal)) :
    (TRef.of main_call2_v1 : TRef sig ⟨S1000, .f32⟩).ofBuf x = x := cast_eq _ _
theorem ofBuf_main_v107 (x : (⟨S1000, .i1⟩ : BufTy).Contents (Elt Ideal)) :
    (TRef.of main_v107 : TRef sig ⟨S1000, .i1⟩).ofBuf x = x := cast_eq _ _
theorem ofBuf_main_v108 (x : (⟨S1000, .f32⟩ : BufTy).Contents (Elt Ideal)) :
    (TRef.of main_v108 : TRef sig ⟨S1000, .f32⟩).ofBuf x = x := cast_eq _ _
theorem toBuf_main_v109 (x : (⟨S1000, .f32⟩ : BufTy).Contents (Elt Ideal)) :
    (TRef.of main_v109 : TRef sig ⟨S1000, .f32⟩).toBuf x = x := cast_eq _ _

set_option maxHeartbeats 2000000 in
/-- The aggregated features. -/
theorem agg_of (emm : W15 m ρ c (Proc.devRef .tc main_v102) = val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg22)) (m ((c : Thread nD τ).loc main_arg23))) :
    W18 m ρ c (Proc.devRef .tc main_v138) = val_main_v144 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  have e19 := Args.at15 m ρ c main_arg19 (by decide)
  have e20 := Args.at15 m ρ c main_arg20 (by decide)
  have e21 := Args.at15 m ρ c main_arg21 (by decide)
  show StableHlo.after hostOps6_2 (StableHlo.after hostOps6_1 (StableHlo.after hostOps6 (W15 m ρ c))) (Proc.devRef .tc main_v138) = _
  generalize W15 m ρ c = W at emm e19 e20 e21 ⊢
  dsimp only [hostOps6, hostOps6_1, hostOps6_2]
  after_results_simp
  rw [emm, e19, e20, e21]
  rw [toBuf_main_v109, ofBuf_main_v107, ofBuf_main_v108, ofBuf_main_call2_v1, toBuf_main_call2_v1, ofBuf_main_call2_v0, toBuf_main_call2_v0, ofBuf_main_cst_28]
  rfl

/-- The bias vector laid out as a row for the kernel call that follows. -/
theorem bias_row : W18 m ρ c (Proc.devRef .tc main_v139)
    = shapeCast S1x128 (m ((c : Thread nD τ).loc main_arg8)) shapeCasts_S128_S1x128 := by
  have eb := Args.at15 m ρ c main_arg8 (by decide)
  show StableHlo.after hostOps6_2 (StableHlo.after hostOps6_1 (StableHlo.after hostOps6 (W15 m ρ c))) (Proc.devRef .tc main_v139) = _
  generalize W15 m ρ c = W at eb ⊢
  dsimp only [hostOps6, hostOps6_1, hostOps6_2]
  after_results_simp
  rw [eb]
  rfl

end Cert.KernelIdeal.Agg6

end
-- ==== Proof.Agg8.lean ====
/-
  The stretch of host operations that aggregates over the edges of the middle graph (10000 clusters): the degree of every node (the sum
  of the weights of the edges that end there), its inverse square root where the degree is positive and zero elsewhere,
  the normalised weight of every edge, and the sum over the edges that end at a node of the features at the edge's
  start times that weight — here with every edge weight one. The kernel's program and the reference apply the same operations to the same arrays, so what
  the stretch leaves is the reference's stage once the features it starts from are.
-/
import proofs.«126120_j15796889715339_1_alg».proof.Proof.Args
import proofs.«126120_j15796889715339_1_alg».proof.Proof.RefRead

set_option maxRecDepth 16384

noncomputable section

namespace Cert.KernelIdeal.Agg8

open Cert.KernelIdeal Cert.KernelIdeal.Gen Cert.KernelIdeal.Keep
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-! The three operations of the outlined `where` move values between a buffer's own type and the tensor type the
    function states; at these buffers the two are one type and the move is the identity. -/
theorem ofBuf_main_cst_41 (x : (⟨S_, .f32⟩ : BufTy).Contents (Elt Ideal)) :
    (TRef.of main_cst_41 : TRef sig ⟨S_, .f32⟩).ofBuf x = x := cast_eq _ _
theorem toBuf_main_call3_v0 (x : (⟨S_, .f32⟩ : BufTy).Contents (Elt Ideal)) :
    (TRef.of main_call3_v0 : TRef sig ⟨S_, .f32⟩).toBuf x = x := cast_eq _ _
theorem ofBuf_main_call3_v0 (x : (⟨S_, .f32⟩ : BufTy).Contents (Elt Ideal)) :
    (TRef.of main_call3_v0 : TRef sig ⟨S_, .f32⟩).ofBuf x = x := cast_eq _ _
theorem toBuf_main_call3_v1 (x : (⟨S10000, .f32⟩ : BufTy).Contents (Elt Ideal)) :
    (TRef.of main_call3_v1 : TRef sig ⟨S10000, .f32⟩).toBuf x = x := cast_eq _ _
theorem ofBuf_main_call3_v1 (x : (⟨S10000, .f32⟩ : BufTy).Contents (Elt Ideal)) :
    (TRef.of main_call3_v1 : TRef sig ⟨S10000, .f32⟩).ofBuf x = x := cast_eq _ _
theorem ofBuf_main_v155 (x : (⟨S10000, .i1⟩ : BufTy).Contents (Elt Ideal)) :
    (TRef.of main_v155 : TRef sig ⟨S10000, .i1⟩).ofBuf x = x := cast_eq _ _
theorem ofBuf_main_v156 (x : (⟨S10000, .f32⟩ : BufTy).Contents (Elt Ideal)) :
    (TRef.of main_v156 : TRef sig ⟨S10000, .f32⟩).ofBuf x = x := cast_eq _ _
theorem toBuf_main_v157 (x : (⟨S10000, .f32⟩ : BufTy).Contents (Elt Ideal)) :
    (TRef.of main_v157 : TRef sig ⟨S10000, .f32⟩).toBuf x = x := cast_eq _ _

set_option maxHeartbeats 2000000 in
/-- The aggregated features. -/
theorem agg_of (emm : W21 m ρ c (Proc.devRef .tc main_v150) = val_main_v181 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)))
    (eones : W21 m ρ c (Proc.devRef .tc main_v149) = (broadcastInDim S1597224 ![] Facts₀.bcast_S_S1597224 (constant (F := Ideal) S_ .f32 0x3F800000#32))) :
    W24 m ρ c (Proc.devRef .tc main_v186) = val_main_v194 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  have e16 := Args.at21 m ρ c main_arg16 (by decide)
  have e17 := Args.at21 m ρ c main_arg17 (by decide)
  show StableHlo.after hostOps8_2 (StableHlo.after hostOps8_1 (StableHlo.after hostOps8 (W21 m ρ c))) (Proc.devRef .tc main_v186) = _
  generalize W21 m ρ c = W at emm eones e16 e17 ⊢
  dsimp only [hostOps8, hostOps8_1, hostOps8_2]
  after_results_simp
  rw [emm, eones, e16, e17]
  rw [toBuf_main_v157, ofBuf_main_v155, ofBuf_main_v156, ofBuf_main_call3_v1, toBuf_main_call3_v1, ofBuf_main_call3_v0, toBuf_main_call3_v0, ofBuf_main_cst_41]
  rfl

/-- The bias vector laid out as a row for the kernel call that follows. -/
theorem bias_row : W24 m ρ c (Proc.devRef .tc main_v187)
    = shapeCast S1x128 (m ((c : Thread nD τ).loc main_arg12)) shapeCasts_S128_S1x128 := by
  have eb := Args.at21 m ρ c main_arg12 (by decide)
  show StableHlo.after hostOps8_2 (StableHlo.after hostOps8_1 (StableHlo.after hostOps8 (W21 m ρ c))) (Proc.devRef .tc main_v187) = _
  generalize W21 m ρ c = W at eb ⊢
  dsimp only [hostOps8, hostOps8_1, hostOps8_2]
  after_results_simp
  rw [eb]
  rfl

end Cert.KernelIdeal.Agg8

end
-- ==== Proof.Agg10.lean ====
/-
  The stretch of host operations that aggregates over the edges of the finest graph (100000 nodes): the degree of every node (the sum
  of the weights of the edges that end there), its inverse square root where the degree is positive and zero elsewhere,
  the normalised weight of every edge, and the sum over the edges that end at a node of the features at the edge's
  start times that weight — here with every edge weight one. The kernel's program and the reference apply the same operations to the same arrays, so what
  the stretch leaves is the reference's stage once the features it starts from are.
-/
import proofs.«126120_j15796889715339_1_alg».proof.Proof.Args
import proofs.«126120_j15796889715339_1_alg».proof.Proof.RefRead

set_option maxRecDepth 16384

noncomputable section

namespace Cert.KernelIdeal.Agg10

open Cert.KernelIdeal Cert.KernelIdeal.Gen Cert.KernelIdeal.Keep
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-! The three operations of the outlined `where` move values between a buffer's own type and the tensor type the
    function states; at these buffers the two are one type and the move is the identity. -/
theorem ofBuf_main_cst_54 (x : (⟨S_, .f32⟩ : BufTy).Contents (Elt Ideal)) :
    (TRef.of main_cst_54 : TRef sig ⟨S_, .f32⟩).ofBuf x = x := cast_eq _ _
theorem toBuf_main_call4_v0 (x : (⟨S_, .f32⟩ : BufTy).Contents (Elt Ideal)) :
    (TRef.of main_call4_v0 : TRef sig ⟨S_, .f32⟩).toBuf x = x := cast_eq _ _
theorem ofBuf_main_call4_v0 (x : (⟨S_, .f32⟩ : BufTy).Contents (Elt Ideal)) :
    (TRef.of main_call4_v0 : TRef sig ⟨S_, .f32⟩).ofBuf x = x := cast_eq _ _
theorem toBuf_main_call4_v1 (x : (⟨S100000, .f32⟩ : BufTy).Contents (Elt Ideal)) :
    (TRef.of main_call4_v1 : TRef sig ⟨S100000, .f32⟩).toBuf x = x := cast_eq _ _
theorem ofBuf_main_call4_v1 (x : (⟨S100000, .f32⟩ : BufTy).Contents (Elt Ideal)) :
    (TRef.of main_call4_v1 : TRef sig ⟨S100000, .f32⟩).ofBuf x = x := cast_eq _ _
theorem ofBuf_main_v203 (x : (⟨S100000, .i1⟩ : BufTy).Contents (Elt Ideal)) :
    (TRef.of main_v203 : TRef sig ⟨S100000, .i1⟩).ofBuf x = x := cast_eq _ _
theorem ofBuf_main_v204 (x : (⟨S100000, .f32⟩ : BufTy).Contents (Elt Ideal)) :
    (TRef.of main_v204 : TRef sig ⟨S100000, .f32⟩).ofBuf x = x := cast_eq _ _
theorem toBuf_main_v205 (x : (⟨S100000, .f32⟩ : BufTy).Contents (Elt Ideal)) :
    (TRef.of main_v205 : TRef sig ⟨S100000, .f32⟩).toBuf x = x := cast_eq _ _

set_option maxHeartbeats 2000000 in
/-- The aggregated features. -/
theorem agg_of (emm : W27 m ρ c (Proc.devRef .tc main_v198) = val_main_v231 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)))
    (eones : W27 m ρ c (Proc.devRef .tc main_v197) = (broadcastInDim S1699989 ![] Facts₀.bcast_S_S1699989 (constant (F := Ideal) S_ .f32 0x3F800000#32))) :
    W30 m ρ c (Proc.devRef .tc main_v234) = val_main_v244 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  have e13 := Args.at27 m ρ c main_arg13 (by decide)
  have e14 := Args.at27 m ρ c main_arg14 (by decide)
  show StableHlo.after hostOps10_2 (StableHlo.after hostOps10_1 (StableHlo.after hostOps10 (W27 m ρ c))) (Proc.devRef .tc main_v234) = _
  generalize W27 m ρ c = W at emm eones e13 e14 ⊢
  dsimp only [hostOps10, hostOps10_1, hostOps10_2]
  after_results_simp
  rw [emm, eones, e13, e14]
  rw [toBuf_main_v205, ofBuf_main_v203, ofBuf_main_v204, ofBuf_main_call4_v1, toBuf_main_call4_v1, ofBuf_main_call4_v0, toBuf_main_call4_v0, ofBuf_main_cst_54]
  rfl

/-- The bias vector laid out as a row for the kernel call that follows. -/
theorem bias_row : W30 m ρ c (Proc.devRef .tc main_v235)
    = shapeCast S1x128 (m ((c : Thread nD τ).loc main_arg10)) shapeCasts_S128_S1x128 := by
  have eb := Args.at27 m ρ c main_arg10 (by decide)
  show StableHlo.after hostOps10_2 (StableHlo.after hostOps10_1 (StableHlo.after hostOps10 (W27 m ρ c))) (Proc.devRef .tc main_v235) = _
  generalize W27 m ρ c = W at eb ⊢
  dsimp only [hostOps10, hostOps10_1, hostOps10_2]
  after_results_simp
  rw [eb]
  rfl

end Cert.KernelIdeal.Agg10

end
-- ==== Proof.Thread.lean ====
/-
  The idealized kernel's result is the reference's last stage.

  The program is a chain: every segment reads what earlier segments left and the arguments. Followed from the launch to
  the return, the chain gives at each step a stage of the reference: the first features, then for each of the five
  graph layers the product with the layer's weights (a kernel call), the aggregation over the edges (host operations),
  and the bias with or without the maximum with zero (a kernel call), with the poolings and unpoolings between the layers.
-/
import proofs.«126120_j15796889715339_1_alg».proof.Proof.Misc
import proofs.«126120_j15796889715339_1_alg».proof.Proof.Calls
import proofs.«126120_j15796889715339_1_alg».proof.Proof.Agg2
import proofs.«126120_j15796889715339_1_alg».proof.Proof.Agg4
import proofs.«126120_j15796889715339_1_alg».proof.Proof.Agg6
import proofs.«126120_j15796889715339_1_alg».proof.Proof.Agg8
import proofs.«126120_j15796889715339_1_alg».proof.Proof.Agg10

set_option maxRecDepth 16384

noncomputable section

namespace Cert.KernelIdeal.Thread

open Cert.KernelIdeal Cert.KernelIdeal.Gen
open Idealize.ShloMosaic Idealize.ShloMosaic.TcCoe Idealize.SL.Sem
open Cert.ReferenceIdeal.ReadP

variable (m : (ℓ : Loc nD τ sig) → Buf (Elt Ideal) ℓ) (ρ : Dev nD → PrngReg) (c : Dev nD)

/-- The result buffer at the end of the fold of the program's segments is the reference's result stage of the launch
    contents of the arguments. -/
theorem value : W31 m ρ c (Proc.devRef .tc main_v236) = val_main_v247 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  have h1 := Calls.aff0_of m ρ c (Misc.v0_eq m ρ c)
  have h2 := Calls.mm1_of m ρ c h1
  have h38 := Agg2.agg_of m ρ c h2
  have h40 := Calls.act2_of m ρ c h38 (Agg2.bias_row m ρ c)
  have h51 := Misc.pool1_of m ρ c h40
  have h52 := Calls.mm3_of m ρ c h51
  have h88 := Agg4.agg_of m ρ c h52
  have h90 := Calls.act4_of m ρ c h88 (Agg4.bias_row m ρ c)
  have h101 := Misc.pool2_of m ρ c h90
  have h102 := Calls.mm5_of m ρ c h101
  have h138 := Agg6.agg_of m ρ c h102
  have h140 := Calls.act6_of m ρ c h138 (Agg6.bias_row m ρ c)
  have h148 := Misc.unpool2_of m ρ c ((Misc.v90_carry m ρ c).trans h90) h140
  have h150 := Calls.mm7_of m ρ c h148
  have h186 := Agg8.agg_of m ρ c h150 ((Misc.v149_carry m ρ c).trans (Misc.ones20 m ρ c))
  have h188 := Calls.act8_of m ρ c h186 (Agg8.bias_row m ρ c)
  have h196 := Misc.unpool1_of m ρ c ((Misc.v40_carry m ρ c).trans h40) h188
  have h198 := Calls.mm9_of m ρ c h196
  have h234 := Agg10.agg_of m ρ c h198 ((Misc.v197_carry m ρ c).trans (Misc.ones26 m ρ c))
  exact Calls.act10_of m ρ c h234 (Agg10.bias_row m ρ c)

end Cert.KernelIdeal.Thread

end
-- ==== Proof.RefValue.lean ====
/-
  The reference's result, stage by stage.

  The reference is a straight line of host operations. Its run leaves in the result buffer the operations' composed term of
  the arguments; read one operation at a time that term is the last of the reference's stages.
-/
import proofs.«126120_j15796889715339_1_alg».proof.Proof.RefRun
import proofs.«126120_j15796889715339_1_alg».proof.Proof.RefRead

noncomputable section

namespace Cert.ReferenceIdeal.RefValue

open Cert.ReferenceIdeal Cert.ReferenceIdeal.Gen Idealize.ShloMosaic Idealize.ShloMosaic.TcCoe Idealize.SL.Sem

variable {F : FTy → Type} [FloatOps F]

/-- The composed term of the reference's run is its last stage of the arguments. -/
theorem result_eq (m : (ℓ : Loc nD τ sig) → Buf (Elt F) ℓ) (c : Dev nD) :
    Cert.ReferenceIdeal.ValueP.res_main_v247 m c
      = Cert.ReferenceIdeal.ReadP.val_main_v247 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) := by
  unfold Cert.ReferenceIdeal.ValueP.res_main_v247; rfl

end Cert.ReferenceIdeal.RefValue

end
-- ==== Proof.lean ====
/-
  A hierarchical graph network: five graph-convolution layers over three nested graphs (100000 nodes, 10000 clusters,
  1000 clusters), with mean pooling on the way up and unpooling on the way down. A layer multiplies the node features by a
  weight matrix, sums over the edges that end at each node the features at the edges' starts times the edges' normalised
  weights, adds a bias and (in all layers but the last) takes the maximum with zero.

  The kernel's program computes the products and the bias steps in tiled kernel calls, a tile of rows at a time, and
  everything that depends on the graph in host operations; the reference computes all of it in host operations. On the
  extended reals the two programs are the same function of the arguments, because the only difference is the tiling: a row
  of a product with a square weight matrix depends on that row of the left operand alone, and the bias step acts entry by
  entry, so each kernel call leaves in its result array the whole-array operation of the reference (the modules
  `Region0` … `Region10`). Between the calls the two programs apply the same host operations to the same arrays
  (`Agg2` … `Agg10`, `Misc`), and following the kernel's program from the launch to the return (`Thread`) gives
  at every step a stage of the reference, at the end its result. No law of arithmetic is used beyond that, so the finiteness
  of the inputs is never opened.

  The three frames are the programs' runs with the result dropped, the kernel's idealization changed no constant, and
  the two idealized programs end with equal results: the reference's result stage of the arguments.
-/
import proofs.«126120_j15796889715339_1_alg».proof.Defs
import proofs.«126120_j15796889715339_1_alg».proof.Proof.Gen.Kernel
import proofs.«126120_j15796889715339_1_alg».proof.Proof.Gen.Kernel.Frame
import proofs.«126120_j15796889715339_1_alg».proof.Proof.Gen.KernelIdeal
import proofs.«126120_j15796889715339_1_alg».proof.Proof.Gen.KernelIdeal.Frame
import proofs.«126120_j15796889715339_1_alg».proof.Proof.Gen.ReferenceIdeal
import proofs.«126120_j15796889715339_1_alg».proof.Proof.Gen.Pre_finite_inputs
import proofs.«126120_j15796889715339_1_alg».proof.Proof.KernelRun
import proofs.«126120_j15796889715339_1_alg».proof.Proof.Thread
import proofs.«126120_j15796889715339_1_alg».proof.Proof.RefRun
import proofs.«126120_j15796889715339_1_alg».proof.Proof.RefRead
import proofs.«126120_j15796889715339_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The kernel's program, as printed, runs and leaves its arguments. -/
theorem frame_k : @Cert.frame_Kernel Cert.Kernel.Gen.facts Cert.Pre_finite_inputs.Gen.facts :=
  fun m ρ _ => Cert.Kernel.Gen.frame m ρ

/-- The idealized kernel's program runs and leaves its arguments. -/
theorem frame_ki : @Cert.frame_KernelIdeal Cert.KernelIdeal.Gen.facts Cert.Pre_finite_inputs.Gen.facts :=
  fun m ρ _ => Cert.KernelIdeal.Gen.frame m ρ

/-- The idealized reference runs and leaves its arguments: its run, the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.ValueP.run (F := Ideal) m ρ)

/-- The idealization rewrote nothing in the kernel's program. -/
theorem preserves : Cert.preserves_Kernel_KernelIdeal := trivial

open Cert.KernelIdeal Cert.KernelIdeal.Gen in
/-- The idealized kernel ends with the reference's result stage of its own arguments in its result buffer, the arguments
    unchanged: the fold of its segments read at the result buffer (`Thread.value`) and at each argument. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v236)
        = Cert.ReferenceIdeal.ReadP.val_main_v247 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c =>
    ⟨(h c _ (mem_uc main_v236 (by decide))).trans (Cert.KernelIdeal.Thread.value m ρ c),
     (h c _ (mem_uc main_arg0 (by decide))).trans (W31_main_arg0 m ρ c),
     (h c _ (mem_uc main_arg1 (by decide))).trans (W31_main_arg1 m ρ c),
     (h c _ (mem_uc main_arg2 (by decide))).trans (W31_main_arg2 m ρ c),
     (h c _ (mem_uc main_arg3 (by decide))).trans (W31_main_arg3 m ρ c),
     (h c _ (mem_uc main_arg4 (by decide))).trans (W31_main_arg4 m ρ c),
     (h c _ (mem_uc main_arg5 (by decide))).trans (W31_main_arg5 m ρ c),
     (h c _ (mem_uc main_arg6 (by decide))).trans (W31_main_arg6 m ρ c),
     (h c _ (mem_uc main_arg7 (by decide))).trans (W31_main_arg7 m ρ c),
     (h c _ (mem_uc main_arg8 (by decide))).trans (W31_main_arg8 m ρ c),
     (h c _ (mem_uc main_arg9 (by decide))).trans (W31_main_arg9 m ρ c),
     (h c _ (mem_uc main_arg10 (by decide))).trans (W31_main_arg10 m ρ c),
     (h c _ (mem_uc main_arg11 (by decide))).trans (W31_main_arg11 m ρ c),
     (h c _ (mem_uc main_arg12 (by decide))).trans (W31_main_arg12 m ρ c),
     (h c _ (mem_uc main_arg13 (by decide))).trans (W31_main_arg13 m ρ c),
     (h c _ (mem_uc main_arg14 (by decide))).trans (W31_main_arg14 m ρ c),
     (h c _ (mem_uc main_arg15 (by decide))).trans (W31_main_arg15 m ρ c),
     (h c _ (mem_uc main_arg16 (by decide))).trans (W31_main_arg16 m ρ c),
     (h c _ (mem_uc main_arg17 (by decide))).trans (W31_main_arg17 m ρ c),
     (h c _ (mem_uc main_arg18 (by decide))).trans (W31_main_arg18 m ρ c),
     (h c _ (mem_uc main_arg19 (by decide))).trans (W31_main_arg19 m ρ c),
     (h c _ (mem_uc main_arg20 (by decide))).trans (W31_main_arg20 m ρ c),
     (h c _ (mem_uc main_arg21 (by decide))).trans (W31_main_arg21 m ρ c),
     (h c _ (mem_uc main_arg22 (by decide))).trans (W31_main_arg22 m ρ c),
     (h c _ (mem_uc main_arg23 (by decide))).trans (W31_main_arg23 m ρ c)⟩)
    (Cert.KernelIdeal.Run.run_all m ρ)

/-- Run from memories that agree on the arguments, the two idealized programs end with equal results: both with the
    reference's result stage of those arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.ReadP.val_main_v247 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)),
    kernel_run m ρ, ?_⟩
  refine (θ_run Cert.ReferenceIdeal.defs _ _).mono (fun _ h c => ⟨(h c).1.trans ((Cert.ReferenceIdeal.RefValue.result_eq m' c).trans ?_), (h c).2⟩)
    (Cert.ReferenceIdeal.ValueP.run (F := Ideal) m' ρ')
  obtain ⟨h0, h1, h2, h3, h4, h5, h6, h7, h8, h9, h10, h11, h12, h13, h14, h15, h16, h17, h18, h19, h20, h21, h22, h23⟩ := hagree c
  rw [h0, h1, h2, h3, h4, h5, h6, h7, h8, h9, h10, h11, h12, h13, h14, h15, h16, h17, h18, h19, h20, h21, h22, h23]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
